-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x512 : Shape := ⟨2, ![8192, 512]⟩
abbrev S1024x512 : Shape := ⟨2, ![1024, 512]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x1024 .f32) (main_arg1 : FVec F S8192x512 .f32) (main_arg2 : FVec F S1024x512 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S8192x1024 : Shape := ⟨2, ![8192, 1024]⟩
abbrev S8192x512 : Shape := ⟨2, ![8192, 512]⟩
abbrev S1024x512 : Shape := ⟨2, ![1024, 512]⟩
abbrev S8192 : Shape := ⟨1, ![8192]⟩
abbrev S8192x1 : Shape := ⟨2, ![8192, 1]⟩
abbrev S2x1024x512 : Shape := ⟨3, ![2, 1024, 512]⟩
abbrev S2x1x1024 : Shape := ⟨3, ![2, 1, 1024]⟩
abbrev S1024x1 : Shape := ⟨2, ![1024, 1]⟩
abbrev S1x1024x512 : Shape := ⟨3, ![1, 1024, 512]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x1x1 : Shape := ⟨3, ![2, 1, 1]⟩
abbrev S512x1024 : Shape := ⟨2, ![512, 1024]⟩
abbrev S512x512 : Shape := ⟨2, ![512, 512]⟩
abbrev S512x1 : Shape := ⟨2, ![512, 1]⟩
abbrev S1x1x1 : Shape := ⟨3, ![1, 1, 1]⟩
abbrev S1x1 : Shape := ⟨2, ![1, 1]⟩
abbrev S512 : Shape := ⟨1, ![512]⟩
abbrev S1 : Shape := ⟨1, ![1]⟩

abbrev nBuf : Space → Nat
  | .hbm => 15
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .hbm, ⟨3, _⟩ => ⟨S8192, .i32⟩
  | .hbm, ⟨4, _⟩ => ⟨S8192x1, .i32⟩
  | .hbm, ⟨5, _⟩ => ⟨S2x1024x512, .f32⟩
  | .hbm, ⟨6, _⟩ => ⟨S2x1x1024, .f32⟩
  | .hbm, ⟨7, _⟩ => ⟨S_, .f32⟩
  | .hbm, ⟨8, _⟩ => ⟨S1x1024, .f32⟩
  | .hbm, ⟨9, _⟩ => ⟨S1024x1, .f32⟩
  | .hbm, ⟨10, _⟩ => ⟨S2x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S1x1024x512, .f32⟩
  | .local _ .vmem, ⟨5, _⟩ => ⟨S1x1024x512, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S2x1024x512, .f32⟩
  | .local _ .vmem, ⟨13, _⟩ => ⟨S1024x1, .f32⟩
  | .local _ .vmem, ⟨14, _⟩ => ⟨S1024x512, .f32⟩
  | .local _ .vmem, ⟨15, _⟩ => ⟨S512x1, .i32⟩
  | .local _ .vmem, ⟨16, _⟩ => ⟨S512x1, .i32⟩
  | .local _ .vmem, ⟨17, _⟩ => ⟨S1x1x1, .f32⟩
  | .local _ .vmem, ⟨18, _⟩ => ⟨S1x1x1, .f32⟩
  | .local _ .vmem, ⟨19, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S8192_S8192x1 : S8192.ShapeCasts S8192x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  natLt_1_32 : 1 < 32
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  reduces_S1024x1024_S1024 : S1024x1024.Reduces [0] S1024
  shapeCasts_S1024_S1x1024 : S1024.ShapeCasts S1x1024
  reducesTo_S2x1x1024_S1x1024_d0 : S2x1x1024.ReducesTo [0] S1x1024
  h_S_ : 0 < S_.numel
  shapeCasts_S1x1024_S1024x1 : S1x1024.ShapeCasts S1024x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2x1024x512_S1x1024x512_0_0_0 : ∀ a, (![0, 0, 0] : Fin 3 → Nat) a + S1x1024x512.size a ≤ S2x1024x512.size a
  inb_S2x1024x512_S1x1024x512_1_0_0 : ∀ a, (![1, 0, 0] : Fin 3 → Nat) a + S1x1024x512.size a ≤ S2x1024x512.size a
  broadcasts_S1024x1_S1024x512 : S1024x1.Broadcasts S1024x512
  reduces_S1024x512_S1024 : S1024x512.Reduces [1] S1024
  shapeCasts_S1024_S1024x1 : S1024.ShapeCasts S1024x1
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  reduces_S512x1024_S512 : S512x1024.Reduces [1] S512
  broadcasts_S512x1_S512x1024 : S512x1.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1024_d1_w32 : S512x1024.Iotas .tc 32 [1]
  inb_S512x1024_S512x1024_0_0 : ∀ a, (![0, 0] : Fin 2 → Nat) a + S512x1024.size a ≤ S512x1024.size a
  h_S512x1024 : 0 < S512x1024.numel
  reduces_S512x1_S1 : S512x1.Reduces [0] S1
  shapeCasts_S1_S1x1 : S1.ShapeCasts S1x1
  reducesTo_S2x1x1_S_d0_1_2 : S2x1x1.ReducesTo [0, 1, 2] S_
  dot_S1024x1024_S1024x512_S1024x512_0_0_1_1_n_n_wf : DotDims.WF S1024x1024 S1024x512 S1024x512 [0] [0] [1] [1] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .f32 = 32 ∨ (Rect.block (s := S8192x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1024x512.size a ≤ S2x1024x512.size a
  hwx1_2 : ∀ i : grid1.Coords, EltTy.bits .f32 = 32 ∨ (Rect.block (s := S2x1024x512) S2x1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S1024x1.size a
  hwx1_3 : ∀ i : grid1.Coords, EltTy.bits .f32 = 32 ∨ (Rect.block (s := S1024x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S1024x512.size a
  hwx1_4 : ∀ i : grid1.Coords, EltTy.bits .f32 = 32 ∨ (Rect.block (s := S1024x512) S1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .i32 = 32 ∨ (Rect.block (s := S8192x1) S512x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)

variable [Facts₀]

def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S2x1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1024x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x512 : Shape := ⟨2, ![8192, 512]⟩
abbrev S1024x512 : Shape := ⟨2, ![1024, 512]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S_ : Shape := ⟨0, ![]⟩
abbrev S1024 : Shape := ⟨1, ![1024]⟩
abbrev S1024x1 : Shape := ⟨2, ![1024, 1]⟩
abbrev S512x1024 : Shape := ⟨2, ![512, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x512, .f32⟩
  | .hbm, ⟨3, _⟩ => ⟨S8192, .i32⟩
  | .hbm, ⟨4, _⟩ => ⟨S8192x1, .i32⟩
  | .hbm, ⟨5, _⟩ => ⟨S1x1024, .i32⟩
  | .hbm, ⟨6, _⟩ => ⟨S8192x1024, .i32⟩
  | .hbm, ⟨7, _⟩ => ⟨S8192x1024, .i32⟩
  | .hbm, ⟨8, _⟩ => ⟨S8192x1024, .i1⟩
  | .hbm, ⟨9, _⟩ => ⟨S8192x1024, .f32⟩
  | .hbm, ⟨10, _⟩ => ⟨S1024x8192, .f32⟩
  | .hbm, ⟨11, _⟩ => ⟨S1024x512, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .i1⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S1024x512, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1, .f32⟩
  | .hbm, ⟨46, _⟩ => ⟨S_, .f32⟩
  | .hbm, ⟨47, _⟩ => ⟨S1024x1, .f32⟩
  | .hbm, ⟨48, _⟩ => ⟨S1024x1, .f32⟩
  | .hbm, ⟨49, _⟩ => ⟨S1024x512, .f32⟩
  | .hbm, ⟨50, _⟩ => ⟨S1024x512, .f32⟩
  | .hbm, ⟨51, _⟩ => ⟨S512x1024, .f32⟩
  | .hbm, ⟨52, _⟩ => ⟨S8192x1024, .f32⟩
  | .hbm, ⟨53, _⟩ => ⟨S8192x1, .i32⟩
  | .hbm, ⟨54, _⟩ => ⟨S1x1024, .i32⟩
  | .hbm, ⟨55, _⟩ => ⟨S8192x1024, .i32⟩
  | .hbm, ⟨56, _⟩ => ⟨S8192x1024, .i32⟩
  | .hbm, ⟨57, _⟩ => ⟨S8192x1024, .i1⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_call2_v2 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_call4_cst : Ref sig .tc := ⟨.hbm, 83, rfl⟩
abbrev main_call4_v0 : Ref sig .tc := ⟨.hbm, 84, rfl⟩
abbrev main_call4_cst_0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_cst_1 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_11 : Ref sig .tc := ⟨.hbm, 100, rfl⟩
abbrev main_v52 : Ref sig .tc := ⟨.hbm, 101, rfl⟩
abbrev main_cst_12 : Ref sig .tc := ⟨.hbm, 102, rfl⟩
abbrev main_v53 : Ref sig .tc := ⟨.hbm, 103, rfl⟩
abbrev main_cst_13 : Ref sig .tc := ⟨.hbm, 104, rfl⟩
abbrev main_v54 : Ref sig .tc := ⟨.hbm, 105, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x1024_S1024_d0 : S8192x1024.ReducesTo [0] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024x512 : S_.BroadcastsInDim S1024x512 (![] : Fin 0 → Fin S1024x512.rank)
  reducesTo_S8192x512_S8192_d1 : S8192x512.ReducesTo [1] S8192
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S1024x512_S1024_d1 : S1024x512.ReducesTo [1] S1024
  transposes_S1024x512_S512x1024_1_0 : S1024x512.Transposes [1, 0] S512x1024
  reducesTo_S8192x1024_S8192_d1 : S8192x1024.ReducesTo [1] S8192
  bcast_S_S8192 : S_.BroadcastsInDim S8192 (![] : Fin 0 → Fin S8192.rank)
  bcast_S_S8192x1024 : S_.BroadcastsInDim S8192x1024 (![] : Fin 0 → Fin S8192x1024.rank)
  reducesTo_S8192_S_d0 : S8192.ReducesTo [0] S_
  dot_S1024x8192_S8192x512_S1024x512_1_0_0_1_n_n_wf : DotDims.WF S1024x8192 S8192x512 S1024x512 [1] [0] [0] [1] [] []
  dot_S8192x512_S512x1024_S8192x1024_1_0_0_1_n_n_wf : DotDims.WF S8192x512 S512x1024 S8192x1024 [1] [0] [0] [1] [] []

variable [Facts₀]

def dot_S1024x8192_S8192x512_S1024x512_1_0_0_1_n_n : DotDims S1024x8192 S8192x512 S1024x512 where
  lhsContracting := [1]
  rhsContracting := [0]
  lhsNonContracting := [0]
  rhsNonContracting := [1]
  lhsBatch := []
  rhsBatch := []
  wf := dot_S1024x8192_S8192x512_S1024x512_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.KB0Runs.lean ====
import proofs.«153739_j8924942041499_2_alg».proof.Proof.Gen.Kernel.Launch
import proofs.«153739_j8924942041499_2_alg».proof.Proof.Gen.Kernel.Skeleton
import proofs.«153739_j8924942041499_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The first kernel region (the dictionary-update kernel, grid 2 × 4), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the features)'s current staging buffer holds its block at every point, for any proof data whose
    array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the labels). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (zero-fill the two accumulators), from the grid coordinates: the
    second coordinate is 0. -/
abbrev cond0_0 (i : grid0.Coords) : Prop := (Scalar.cmpi .ne (Scalar.extui (Scalar.cmpi .eq (BitVec.ofNat 32 (i 1).val) 0#32)) 0#32) = 1#1
/-- It holds at the first point of each run of four — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_2 : View sig .tc .vmem S1x1024x512 .f32 := (Memref.whole cc0_stg2_0 : Memref sig .tc .vmem S1x1024x512 .f32).view
abbrev VO0_3 : View sig .tc .vmem S1x1x1024 .f32 := (Memref.whole cc0_stg3_0 : Memref sig .tc .vmem S1x1x1024 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)

end Cert.Kernel.Hand0

end
-- ==== Proof.KB0RunA.lean ====
import proofs.«153739_j8924942041499_2_alg».proof.Proof.KB0Runs

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), when the second grid
    coordinate is 0 (the conditional taken: both accumulators are zero-filled, then accumulated into), with the proof
    that on whole staging memrefs — the inputs' at their contents, the outputs' at anything — the body runs to the
    continuation holding the inputs' as they were and each output's buffer with its pieces written. The pieces are the
    witness the run finds. -/
noncomputable def kernelRun0_A (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) :
    Σ' (L2 : List (View.Piece (Elt F) S1x1024x512 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__dict_update_kernel i arg2 harg2 arg3 harg3 arg4 harg4 arg5 harg5) K } := by
  refine ⟨?_, ?_, fun E K => ?run⟩
  case run =>
    simp only [cc0__dict_update_kernel_eq_skeleton]; unfold cc0__dict_update_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand0

end
-- ==== Proof.KB0RunB.lean ====
import proofs.«153739_j8924942041499_2_alg».proof.Proof.KB0RunA

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), when the second grid
    coordinate is not 0 (the conditional not taken: the accumulators are read and added to), with the proof that on
    whole staging memrefs — the inputs' at their contents, the two outputs' at their running contents `xo2`, `xo3` —
    the body runs to the continuation holding the inputs' as they were and each output's buffer with its pieces
    written. The pieces are the witness the run finds. -/
noncomputable def kernelRun0_B (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) :
    Σ' (L2 : List (View.Piece (Elt F) S1x1024x512 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__dict_update_kernel i arg2 harg2 arg3 harg3 arg4 harg4 arg5 harg5) K } := by
  refine ⟨?_, ?_, fun E K => ?run⟩
  case run =>
    simp only [cc0__dict_update_kernel_eq_skeleton]; unfold cc0__dict_update_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand0

end
-- ==== Proof.KB0Frame.lean ====
import proofs.«153739_j8924942041499_2_alg».proof.Proof.KB0RunB

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves in the two accumulators -/

/-- When the second grid coordinate is 0, the pieces stored into the feature-sums buffer tile it (two whole-buffer
    stores), so they cover it. -/
theorem cover0_A_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) (y : S1x1024x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1024x512.size (by sl_kernel_rfl) y

/-- What that case leaves in the feature-sums buffer: its pieces read back over junk. -/
def out0_A_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) : Vec F S1x1024x512 .f32 :=
  VO0_2.read (Elt F) (VO0_2.writes (Elt F) VO0_2.junk (kernelRun0_A c i arg2 harg2 arg3 harg3 arg4 harg4 arg5 harg5 hc0 x0 x1).1)

/-- The same for the counts buffer. -/
theorem cover0_A_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) (y : S1x1x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1024.size (by sl_kernel_rfl) y

def out0_A_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) : Vec F S1x1x1024 .f32 :=
  VO0_3.read (Elt F) (VO0_3.writes (Elt F) VO0_3.junk (kernelRun0_A c i arg2 harg2 arg3 harg3 arg4 harg4 arg5 harg5 hc0 x0 x1).2.1)

/-- When the second grid coordinate is not 0, the one piece stored into the feature-sums buffer is the whole buffer. -/
theorem cover0_B_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) (y : S1x1024x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1024x512.size (by sl_kernel_rfl) y

def out0_B_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) : Vec F S1x1024x512 .f32 :=
  VO0_2.read (Elt F) (VO0_2.writes (Elt F) VO0_2.junk (kernelRun0_B c i arg2 harg2 arg3 harg3 arg4 harg4 arg5 harg5 hc0 x0 x1 xo2 xo3).1)

theorem cover0_B_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) (y : S1x1x1024.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1024.size (by sl_kernel_rfl) y

def out0_B_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) : Vec F S1x1x1024 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- THE ACCUMULATION. What the two outputs' staging buffers (feature sums, counts) hold after the body at position
    `n`: at the first point of a run of four the zero-filled-then-accumulated contents; at a later point of the run the
    accumulation over what the point before left (the buffers are not written back inside a run). -/
def outsAt0 (c : Dev nD) : (n : ℕ) → n < cfg0.N → Vec F S1x1024x512 .f32 × Vec F S1x1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- `outsAt0` at the first point of a run: that case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

/-- `outsAt0` at a later point of a run: that case's contents, over what the point before left. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point
    `t` each input's buffer at its block and the two outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point of a run the feature-sums buffer holds what the body left at the point before: the point is not
    the first, the buffer was not written back between (the block index changes only after the fourth point of a
    run), the window is live and uncut. -/
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same for the counts buffer. -/
theorem before0_3_B (c : Dev nD) (t : Fin cfg0.N) (h0 : ¬t.val % 4 = 0) (d) :
    (dat0 V c).before 3 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks; the closed form says which case the point is in; at a
    later point of a run the two accumulators hold what the point before left; so the run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 8 := lt_of_lt_of_eq t.isLt (show cfg0.N = 8 from N_0)
  by_cases h0 : t.val % 4 = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.KB1Runs.lean ====
/-
  The second kernel region (the cross-entropy kernel: 2 halves × 8 tiles of 512 rows), what its body runs share.
  A window's block at a grid point is read off the array as the region finds it (a parameter `V`); every input window
  holds its block whether or not it was fetched at the point (the three whole-array windows are fetched once, and their
  index never moves); the body's one branch is on the tile number being 0; the normalised dictionary lives in a scratch
  buffer that is filled at tile 0 of each half and read at every tile.
-/
import proofs.«153739_j8924942041499_2_alg».proof.Proof.Gen.Kernel.Launch
import proofs.«153739_j8924942041499_2_alg».proof.Proof.Gen.Kernel.Skeleton
import proofs.«153739_j8924942041499_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: the tile number (grid coordinate 1) is 0. -/
abbrev cond1_0 (i : grid1.Coords) : Prop := (Scalar.cmpi .ne (Scalar.extui (Scalar.cmpi .eq (BitVec.ofNat 32 (i 1).val) 0#32)) 0#32) = 1#1
/-- It holds at the first tile of each half — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_6 : View sig .tc .vmem S1x1x1 .f32 := (Memref.whole cc1_stg6_0 : Memref sig .tc .vmem S1x1x1 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S1024x512 .bf16 := Memref.whole cc1_scratch0
abbrev VS1_0 : View sig .tc .vmem S1024x512 .bf16 := scM1_0.view

/-- The scoped buffers this region never touches (the first region's staging buffers), each whole at some contents. -/
def idle8 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant with the scratch as a memref owned at some contents: the untouched buffers, the scratch, the
    generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand1

end
-- ==== Proof.KB1RunA.lean ====
/-
  The cross-entropy kernel's body at a grid point where the tile number is 0: it zeroes the loss cell, builds the normalised dictionary from the statistics and stores it whole into the scratch, then adds this tile's loss.
  The pieces each buffer ends with are found by running the body symbolically.
-/
import proofs.«153739_j8924942041499_2_alg».proof.Proof.KB1Runs

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output cell and in the scratch, as pieces (last first), with the proof that on
    whole staging memrefs — the inputs' at their contents, the output's and the scratch's at anything — the body runs to a
    continuation holding the inputs' as they were, the output's and the scratch's with their pieces written. -/
noncomputable def kernelRun1_A (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) :
    Σ' (L6 : List (View.Piece (Elt F) S1x1x1 .f32)), { LS0 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__ce_kernel i arg2 harg2 arg3 harg3 arg4 harg4 arg5 harg5 arg6 harg6 arg7 harg7 arg8 harg8 arg9 harg9) K } := by
  refine ⟨?_, ?_, fun E K => ?run⟩
  case run =>
    simp only [cc1__ce_kernel_eq_skeleton]; unfold cc1__ce_kernel_skel
    simp only [k1_part2_eq_skeleton]; unfold k1_part2_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand1

end
-- ==== Proof.KB1RunB.lean ====
/-
  The cross-entropy kernel's body at a grid point where the tile number is not 0: it reads the normalised dictionary back from the scratch and adds this tile's loss to the cell.
  The pieces each buffer ends with are found by running the body symbolically.
-/
import proofs.«153739_j8924942041499_2_alg».proof.Proof.KB1RunA

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output cell and in the scratch, as pieces (last first), with the proof that on
    whole staging memrefs — the inputs' at their contents, the output's at what the tile before left, the scratch at what tile 0 stored — the body runs to a
    continuation holding the inputs' as they were, the output's with its pieces written, the scratch untouched. -/
noncomputable def kernelRun1_B (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) :
    Σ' (L6 : List (View.Piece (Elt F) S1x1x1 .f32)), { LS0 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1__ce_kernel i arg2 harg2 arg3 harg3 arg4 harg4 arg5 harg5 arg6 harg6 arg7 harg7 arg8 harg8 arg9 harg9) K } := by
  refine ⟨?_, [], fun E K => ?run⟩
  case run =>
    simp only [cc1__ce_kernel_eq_skeleton]; unfold cc1__ce_kernel_skel
    simp only [k1_part2_eq_skeleton]; unfold k1_part2_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.Kernel.Hand1

end
-- ==== Proof.KB1Frame.lean ====
/-
  The second kernel region: what the loss cell and the scratch hold after each grid point, the region's proof data
  with the scratch TRACKED (after any point the scratch holds the normalised dictionary the last tile 0 stored),
  and the body's obligation at every point.
-/
import proofs.«153739_j8924942041499_2_alg».proof.Proof.KB1RunB

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile 0's pieces for the loss cell cover it. -/
theorem cover1_A_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (y : S1x1x1.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S1x1x1.size (by sl_kernel_rfl) y

/-- What tile 0 leaves in the loss cell: its pieces read back. -/
def out1_A_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Tile 0's one piece for the scratch covers it. -/
theorem scover1_A_0 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (y : S1024x512.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).2.1 S1024x512.size (by sl_kernel_rfl) y

/-- What tile 0 leaves in the scratch: its piece read back. -/
def sout1_A_0 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) : Vec F S1024x512 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4 x5).2.1)

/-- A later tile's piece for the loss cell covers it. -/
theorem cover1_B_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) (y : S1x1x1.Idx) :
    ∃ pc ∈ (kernelRun1_B c i arg2 harg2 arg3 harg3 arg4 harg4 arg5 harg5 arg6 harg6 arg7 harg7 arg8 harg8 arg9 harg9 hc0 x0 x1 x2 x3 x4 x5 xo6 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo6 xs0).1 S1x1x1.size (by sl_kernel_rfl) y

/-- What a later tile leaves in the loss cell. -/
def out1_B_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xo6 xs0).1)

/-! ## Point by point -/

/-- What the loss cell's staging buffer and the scratch hold after the body at position `n`: at tile 0 of a half what
    that case leaves; at a later tile the cell accumulated over what the tile before left, the scratch as it was. -/
def outsAt1 (c : Dev nD) : (n : ℕ) → n < cfg1.N → Vec F S1x1x1 .f32 × Vec F S1024x512 .bf16
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1 (outsAt1 c n (Nat.lt_of_succ_lt hn)).2,
       (outsAt1 c n (Nat.lt_of_succ_lt hn)).2)

theorem outsAt1_A (c : Dev nD) (t : Fin cfg1.N) (h0 : t.val % 8 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the class's (every scoped buffer outside the
    staging at anything, the generator register); afterwards the same with the scratch at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the loss cell's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- At a later tile the loss cell's current staging buffer holds what the body left at the point before: the buffer is
    written back only after the last tile of a half. -/
theorem before1_6_B (c : Dev nD) (t : Fin cfg1.N) (h0 : ¬t.val % 8 = 0) (d) :
    (dat1 V c).before 6 t d = (outsAt1 V c (t.val - 1) (Nat.lt_of_le_of_lt (Nat.sub_le _ _) t.isLt)).1 := by
  have hN : t.val < 16 := lt_of_lt_of_eq t.isLt (show cfg1.N = 16 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point: the inputs' buffers hold their blocks; at tile 0 the case that fills the scratch runs (the
    scratch and the cell taken at anything), at a later tile the other case (the cell at what the tile before left,
    the scratch at what the invariant says); the invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ,
    after1_0, after1_1, after1_2, after1_3, after1_4, after1_5, after1_6]
  have hN : t.val < 16 := lt_of_lt_of_eq t.isLt (show cfg1.N = 16 from N_1)
  by_cases h0 : t.val % 8 = 0
  · rw [outsAt1_A V c t h0]
    unfold out1_A_6 sout1_A_0; (try dsimp only)
    by_cases hz : t.val = 0
    · rw [PhiS_castSucc V c t, PhiS_zero V c _ _ hz, PhiA1_eq]
      iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [I0 I1 I2 I3 I4 I5 I6 I7 HS0 Hg]
      · isplitl [I0 I1 I2 I3 I4 I5 I6 I7 HS0]
        · isplitl [I0]; · iexact I0
          isplitl [I1]; · iexact I1
          isplitl [I2]; · iexact I2
          isplitl [I3]; · iexact I3
          isplitl [I4]; · iexact I4
          isplitl [I5]; · iexact I5
          isplitl [I6]; · iexact I6
          isplitl [I7]; · iexact I7
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [I0 I1 I2 I3 I4 I5 I6 I7 HS0 Hg]
      · isplitl [I0 I1 I2 I3 I4 I5 I6 I7 HS0]
        · isplitl [I0]; · iexact I0
          isplitl [I1]; · iexact I1
          isplitl [I2]; · iexact I2
          isplitl [I3]; · iexact I3
          isplitl [I4]; · iexact I4
          isplitl [I5]; · iexact I5
          isplitl [I6]; · iexact I6
          isplitl [I7]; · iexact I7
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
  · rw [outsAt1_B V c t h0]
    simp only [before1_6_B V c t h0]
    unfold out1_B_6; (try dsimp only)
    have hz : t.val ≠ 0 := fun h => h0 (by rw [h])
    rw [PhiS_castSucc V c t, PhiS_pos V c _ _ hz]
    iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, ⟨%e6, H6⟩, HS0⟩
    isplitl [I0 I1 I2 I3 I4 I5 I6 I7 HS0 Hg]
    · isplitl [I0 I1 I2 I3 I4 I5 I6 I7 HS0]
      · isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨I0, I1, I2, I3, I4, I5, I6, I7, HS0⟩, Hg⟩
  isplitl [I0 I1 I2 I3 I4 I5 I6 I7 HS0]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand1

end
-- ==== Proof.KBMain.lean ====
/-
  @main of the two-region program as a run: the unscoped buffers' contents at every boundary between its five stretches
  (host operations, the statistics region, host operations, the cross-entropy region, host operations) as a fold from
  the launch memory — a host stretch applies its operations, a region leaves its windows' arrays at what its write-backs
  left and every other buffer as it was —, each region as a segment entered from one boundary's contents and left at
  the next, and the launch over the five segments: every weakly fair execution terminates with every unscoped buffer at
  the last boundary's contents. The argument arrays are never written, so the fold at an argument walks back to the
  launch memory.
-/
import proofs.«153739_j8924942041499_2_alg».proof.Proof.KB0Frame
import proofs.«153739_j8924942041499_2_alg».proof.Proof.KB1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Hand0 (dat0 A_eq0 body_obligation0)
open Cert.Kernel.Hand1 (dat1 A_eq1 body_obligation1 hin1 hout1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the statistics region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the cross-entropy region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the cross-entropy region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## No stretch and no region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end's contents, the generator register. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered from every unscoped buffer at the boundary before it, left at the boundary after it.
    Its arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary before it, left at the boundary after it.
    Its arrays are split out of the unscoped buffers and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact hA.trans (hin1 (V3 m ρ) c)
  hout c := by
    have hA : (Pipeline.ΦA spec1 c : sProp 𝕄)
        ⊢ iprop((∃ r, prngReg c r) ∗ Pipeline.ownSems0 (fun k : PEmpty => (k.elim : SemLoc sig)) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.Kernel.Hand

end
-- ==== Proof.KI0Runs.lean ====
import proofs.«153739_j8924942041499_2_alg».proof.Proof.Gen.KernelIdeal.Launch
import proofs.«153739_j8924942041499_2_alg».proof.Proof.Gen.KernelIdeal.Skeleton
import proofs.«153739_j8924942041499_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The first kernel region (the dictionary-update kernel, grid 2 × 4), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the features)'s current staging buffer holds its block at every point, for any proof data whose
    array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the labels). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (zero-fill the two accumulators), from the grid coordinates: the
    second coordinate is 0. -/
abbrev cond0_0 (i : grid0.Coords) : Prop := (Scalar.cmpi .ne (Scalar.extui (Scalar.cmpi .eq (BitVec.ofNat 32 (i 1).val) 0#32)) 0#32) = 1#1
/-- It holds at the first point of each run of four — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each output window, through which its contents are stated (the choice does not matter). -/
abbrev VO0_2 : View sig .tc .vmem S1x1024x512 .f32 := (Memref.whole cc0_stg2_0 : Memref sig .tc .vmem S1x1024x512 .f32).view
abbrev VO0_3 : View sig .tc .vmem S1x1x1024 .f32 := (Memref.whole cc0_stg3_0 : Memref sig .tc .vmem S1x1x1024 .f32).view
/-- Each window's current staging memref at point `t`, spelled as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)

end Cert.KernelIdeal.Hand0

end
-- ==== Proof.KI0RunA.lean ====
import proofs.«153739_j8924942041499_2_alg».proof.Proof.KI0Runs

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), when the second grid
    coordinate is 0 (the conditional taken: both accumulators are zero-filled, then accumulated into), with the proof
    that on whole staging memrefs — the inputs' at their contents, the outputs' at anything — the body runs to the
    continuation holding the inputs' as they were and each output's buffer with its pieces written. The pieces are the
    witness the run finds. -/
noncomputable def kernelRun0_A (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) :
    Σ' (L2 : List (View.Piece (Elt F) S1x1024x512 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__dict_update_kernel i arg2 harg2 arg3 harg3 arg4 harg4 arg5 harg5) K } := by
  refine ⟨?_, ?_, fun E K => ?run⟩
  case run =>
    simp only [cc0__dict_update_kernel_eq_skeleton]; unfold cc0__dict_update_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand0

end
-- ==== Proof.KI0RunB.lean ====
import proofs.«153739_j8924942041499_2_alg».proof.Proof.KI0RunA

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref, as pieces (last first), when the second grid
    coordinate is not 0 (the conditional not taken: the accumulators are read and added to), with the proof that on
    whole staging memrefs — the inputs' at their contents, the two outputs' at their running contents `xo2`, `xo3` —
    the body runs to the continuation holding the inputs' as they were and each output's buffer with its pieces
    written. The pieces are the witness the run finds. -/
noncomputable def kernelRun0_B (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) :
    Σ' (L2 : List (View.Piece (Elt F) S1x1024x512 .f32)), { L3 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__dict_update_kernel i arg2 harg2 arg3 harg3 arg4 harg4 arg5 harg5) K } := by
  refine ⟨?_, ?_, fun E K => ?run⟩
  case run =>
    simp only [cc0__dict_update_kernel_eq_skeleton]; unfold cc0__dict_update_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand0

end
-- ==== Proof.KI0Frame.lean ====
import proofs.«153739_j8924942041499_2_alg».proof.Proof.KI0RunB

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves in the two accumulators -/

/-- When the second grid coordinate is 0, the pieces stored into the feature-sums buffer tile it (two whole-buffer
    stores), so they cover it. -/
theorem cover0_A_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) (y : S1x1024x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1024x512.size (by sl_kernel_rfl) y

/-- What that case leaves in the feature-sums buffer: its pieces read back over junk. -/
def out0_A_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) : Vec F S1x1024x512 .f32 :=
  VO0_2.read (Elt F) (VO0_2.writes (Elt F) VO0_2.junk (kernelRun0_A c i arg2 harg2 arg3 harg3 arg4 harg4 arg5 harg5 hc0 x0 x1).1)

/-- The same for the counts buffer. -/
theorem cover0_A_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) (y : S1x1x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1024.size (by sl_kernel_rfl) y

def out0_A_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i)
    (x0 : Vec F S1024x512 .f32) (x1 : Vec F S1024x1 .i32) : Vec F S1x1x1024 .f32 :=
  VO0_3.read (Elt F) (VO0_3.writes (Elt F) VO0_3.junk (kernelRun0_A c i arg2 harg2 arg3 harg3 arg4 harg4 arg5 harg5 hc0 x0 x1).2.1)

/-- When the second grid coordinate is not 0, the one piece stored into the feature-sums buffer is the whole buffer. -/
theorem cover0_B_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) (y : S1x1024x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1024x512.size (by sl_kernel_rfl) y

def out0_B_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) : Vec F S1x1024x512 .f32 :=
  VO0_2.read (Elt F) (VO0_2.writes (Elt F) VO0_2.junk (kernelRun0_B c i arg2 harg2 arg3 harg3 arg4 harg4 arg5 harg5 hc0 x0 x1 xo2 xo3).1)

theorem cover0_B_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) (y : S1x1x1024.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1024.size (by sl_kernel_rfl) y

def out0_B_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i)
    (x0 : Vec F S1024x512 .f32) (x1 : Vec F S1024x1 .i32) (xo2 : Vec F S1x1024x512 .f32) (xo3 : Vec F S1x1x1024 .f32) : Vec F S1x1x1024 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- THE ACCUMULATION. What the two outputs' staging buffers (feature sums, counts) hold after the body at position
    `n`: at the first point of a run of four the zero-filled-then-accumulated contents; at a later point of the run the
    accumulation over what the point before left (the buffers are not written back inside a run). -/
def outsAt0 (c : Dev nD) : (n : ℕ) → n < cfg0.N → Vec F S1x1024x512 .f32 × Vec F S1x1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).1 (outsAt0 c n (Nat.lt_of_succ_lt hn)).2)

/-- `outsAt0` at the first point of a run: that case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

/-- `outsAt0` at a later point of a run: that case's contents, over what the point before left. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point
    `t` each input's buffer at its block and the two outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point of a run the feature-sums buffer holds what the body left at the point before: the point is not
    the first, the buffer was not written back between (the block index changes only after the fourth point of a
    run), the window is live and uncut. -/
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same for the counts buffer. -/
theorem before0_3_B (c : Dev nD) (t : Fin cfg0.N) (h0 : ¬t.val % 4 = 0) (d) :
    (dat0 V c).before 3 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks; the closed form says which case the point is in; at a
    later point of a run the two accumulators hold what the point before left; so the run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 8 := lt_of_lt_of_eq t.isLt (show cfg0.N = 8 from N_0)
  by_cases h0 : t.val % 4 = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.KI1Runs.lean ====
/-
  The second kernel region (the cross-entropy kernel: 2 halves × 8 tiles of 512 rows), what its body runs share.
  A window's block at a grid point is read off the array as the region finds it (a parameter `V`); every input window
  holds its block whether or not it was fetched at the point (the three whole-array windows are fetched once, and their
  index never moves); the body's one branch is on the tile number being 0; the normalised dictionary lives in a scratch
  buffer that is filled at tile 0 of each half and read at every tile.
-/
import proofs.«153739_j8924942041499_2_alg».proof.Proof.Gen.KernelIdeal.Launch
import proofs.«153739_j8924942041499_2_alg».proof.Proof.Gen.KernelIdeal.Skeleton
import proofs.«153739_j8924942041499_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: the tile number (grid coordinate 1) is 0. -/
abbrev cond1_0 (i : grid1.Coords) : Prop := (Scalar.cmpi .ne (Scalar.extui (Scalar.cmpi .eq (BitVec.ofNat 32 (i 1).val) 0#32)) 0#32) = 1#1
/-- It holds at the first tile of each half — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_6 : View sig .tc .vmem S1x1x1 .f32 := (Memref.whole cc1_stg6_0 : Memref sig .tc .vmem S1x1x1 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S1024x512 .bf16 := Memref.whole cc1_scratch0
abbrev VS1_0 : View sig .tc .vmem S1024x512 .bf16 := scM1_0.view

/-- The scoped buffers this region never touches (the first region's staging buffers), each whole at some contents. -/
def idle8 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class invariant with the scratch as a memref owned at some contents: the untouched buffers, the scratch, the
    generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand1

end
-- ==== Proof.KI1RunA.lean ====
/-
  The cross-entropy kernel's body at a grid point where the tile number is 0: it zeroes the loss cell, builds the normalised dictionary from the statistics and stores it whole into the scratch, then adds this tile's loss.
  The pieces each buffer ends with are found by running the body symbolically.
-/
import proofs.«153739_j8924942041499_2_alg».proof.Proof.KI1Runs

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output cell and in the scratch, as pieces (last first), with the proof that on
    whole staging memrefs — the inputs' at their contents, the output's and the scratch's at anything — the body runs to a
    continuation holding the inputs' as they were, the output's and the scratch's with their pieces written. -/
noncomputable def kernelRun1_A (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) :
    Σ' (L6 : List (View.Piece (Elt F) S1x1x1 .f32)), { LS0 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__ce_kernel i arg2 harg2 arg3 harg3 arg4 harg4 arg5 harg5 arg6 harg6 arg7 harg7 arg8 harg8 arg9 harg9) K } := by
  refine ⟨?_, ?_, fun E K => ?run⟩
  case run =>
    simp only [cc1__ce_kernel_eq_skeleton]; unfold cc1__ce_kernel_skel
    simp only [k1_part2_eq_skeleton]; unfold k1_part2_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand1

end
-- ==== Proof.KI1RunB.lean ====
/-
  The cross-entropy kernel's body at a grid point where the tile number is not 0: it reads the normalised dictionary back from the scratch and adds this tile's loss to the cell.
  The pieces each buffer ends with are found by running the body symbolically.
-/
import proofs.«153739_j8924942041499_2_alg».proof.Proof.KI1RunA

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output cell and in the scratch, as pieces (last first), with the proof that on
    whole staging memrefs — the inputs' at their contents, the output's at what the tile before left, the scratch at what tile 0 stored — the body runs to a
    continuation holding the inputs' as they were, the output's with its pieces written, the scratch untouched. -/
noncomputable def kernelRun1_B (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) :
    Σ' (L6 : List (View.Piece (Elt F) S1x1x1 .f32)), { LS0 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1__ce_kernel i arg2 harg2 arg3 harg3 arg4 harg4 arg5 harg5 arg6 harg6 arg7 harg7 arg8 harg8 arg9 harg9) K } := by
  refine ⟨?_, [], fun E K => ?run⟩
  case run =>
    simp only [cc1__ce_kernel_eq_skeleton]; unfold cc1__ce_kernel_skel
    simp only [k1_part2_eq_skeleton]; unfold k1_part2_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.KernelIdeal.Hand1

end
-- ==== Proof.KI1Frame.lean ====
/-
  The second kernel region: what the loss cell and the scratch hold after each grid point, the region's proof data
  with the scratch TRACKED (after any point the scratch holds the normalised dictionary the last tile 0 stored),
  and the body's obligation at every point.
-/
import proofs.«153739_j8924942041499_2_alg».proof.Proof.KI1RunB

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile 0's pieces for the loss cell cover it. -/
theorem cover1_A_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (y : S1x1x1.Idx) :
    ∃ pc ∈ (kernelRun1_A c i arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).1 S1x1x1.size (by sl_kernel_rfl) y

/-- What tile 0 leaves in the loss cell: its pieces read back. -/
def out1_A_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4 x5).1)

/-- Tile 0's one piece for the scratch covers it. -/
theorem scover1_A_0 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (y : S1024x512.Idx) :
    ∃ pc ∈ (kernelRun1_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 x0 x1 x2 x3 x4 x5).2.1 S1024x512.size (by sl_kernel_rfl) y

/-- What tile 0 leaves in the scratch: its piece read back. -/
def sout1_A_0 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) : Vec F S1024x512 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4 x5).2.1)

/-- A later tile's piece for the loss cell covers it. -/
theorem cover1_B_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) (y : S1x1x1.Idx) :
    ∃ pc ∈ (kernelRun1_B c i arg2 harg2 arg3 harg3 arg4 harg4 arg5 harg5 arg6 harg6 arg7 harg7 arg8 harg8 arg9 harg9 hc0 x0 x1 x2 x3 x4 x5 xo6 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 x5 xo6 xs0).1 S1x1x1.size (by sl_kernel_rfl) y

/-- What a later tile leaves in the loss cell. -/
def out1_B_6 (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 x5 xo6 xs0).1)

/-! ## Point by point -/

/-- What the loss cell's staging buffer and the scratch hold after the body at position `n`: at tile 0 of a half what
    that case leaves; at a later tile the cell accumulated over what the tile before left, the scratch as it was. -/
def outsAt1 (c : Dev nD) : (n : ℕ) → n < cfg1.N → Vec F S1x1x1 .f32 × Vec F S1024x512 .bf16
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
              sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1 (outsAt1 c n (Nat.lt_of_succ_lt hn)).2,
       (outsAt1 c n (Nat.lt_of_succ_lt hn)).2)

theorem outsAt1_A (c : Dev nD) (t : Fin cfg1.N) (h0 : t.val % 8 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1 (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the class's (every scoped buffer outside the
    staging at anything, the generator register); afterwards the same with the scratch at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the loss cell's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- At a later tile the loss cell's current staging buffer holds what the body left at the point before: the buffer is
    written back only after the last tile of a half. -/
theorem before1_6_B (c : Dev nD) (t : Fin cfg1.N) (h0 : ¬t.val % 8 = 0) (d) :
    (dat1 V c).before 6 t d = (outsAt1 V c (t.val - 1) (Nat.lt_of_le_of_lt (Nat.sub_le _ _) t.isLt)).1 := by
  have hN : t.val < 16 := lt_of_lt_of_eq t.isLt (show cfg1.N = 16 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 4000000 in
/-- The body at any point: the inputs' buffers hold their blocks; at tile 0 the case that fills the scratch runs (the
    scratch and the cell taken at anything), at a later tile the other case (the cell at what the tile before left,
    the scratch at what the invariant says); the invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ,
    after1_0, after1_1, after1_2, after1_3, after1_4, after1_5, after1_6]
  have hN : t.val < 16 := lt_of_lt_of_eq t.isLt (show cfg1.N = 16 from N_1)
  by_cases h0 : t.val % 8 = 0
  · rw [outsAt1_A V c t h0]
    unfold out1_A_6 sout1_A_0; (try dsimp only)
    by_cases hz : t.val = 0
    · rw [PhiS_castSucc V c t, PhiS_zero V c _ _ hz, PhiA1_eq]
      iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [I0 I1 I2 I3 I4 I5 I6 I7 HS0 Hg]
      · isplitl [I0 I1 I2 I3 I4 I5 I6 I7 HS0]
        · isplitl [I0]; · iexact I0
          isplitl [I1]; · iexact I1
          isplitl [I2]; · iexact I2
          isplitl [I3]; · iexact I3
          isplitl [I4]; · iexact I4
          isplitl [I5]; · iexact I5
          isplitl [I6]; · iexact I6
          isplitl [I7]; · iexact I7
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [I0 I1 I2 I3 I4 I5 I6 I7 HS0 Hg]
      · isplitl [I0 I1 I2 I3 I4 I5 I6 I7 HS0]
        · isplitl [I0]; · iexact I0
          isplitl [I1]; · iexact I1
          isplitl [I2]; · iexact I2
          isplitl [I3]; · iexact I3
          isplitl [I4]; · iexact I4
          isplitl [I5]; · iexact I5
          isplitl [I6]; · iexact I6
          isplitl [I7]; · iexact I7
          unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
  · rw [outsAt1_B V c t h0]
    simp only [before1_6_B V c t h0]
    unfold out1_B_6; (try dsimp only)
    have hz : t.val ≠ 0 := fun h => h0 (by rw [h])
    rw [PhiS_castSucc V c t, PhiS_pos V c _ _ hz]
    iintro ⟨⟨⟨I0, I1, I2, I3, I4, I5, I6, I7, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, ⟨%e6, H6⟩, HS0⟩
    isplitl [I0 I1 I2 I3 I4 I5 I6 I7 HS0 Hg]
    · isplitl [I0 I1 I2 I3 I4 I5 I6 I7 HS0]
      · isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨I0, I1, I2, I3, I4, I5, I6, I7, HS0⟩, Hg⟩
  isplitl [I0 I1 I2 I3 I4 I5 I6 I7 HS0]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand1

end
-- ==== Proof.KIMain.lean ====
/-
  @main of the two-region program as a run: the unscoped buffers' contents at every boundary between its five stretches
  (host operations, the statistics region, host operations, the cross-entropy region, host operations) as a fold from
  the launch memory — a host stretch applies its operations, a region leaves its windows' arrays at what its write-backs
  left and every other buffer as it was —, each region as a segment entered from one boundary's contents and left at
  the next, and the launch over the five segments: every weakly fair execution terminates with every unscoped buffer at
  the last boundary's contents. The argument arrays are never written, so the fold at an argument walks back to the
  launch memory.
-/
import proofs.«153739_j8924942041499_2_alg».proof.Proof.KI0Frame
import proofs.«153739_j8924942041499_2_alg».proof.Proof.KI1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand0 (dat0 A_eq0 body_obligation0)
open Cert.KernelIdeal.Hand1 (dat1 A_eq1 body_obligation1 hin1 hout1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the statistics region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the cross-entropy region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the cross-entropy region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## No stretch and no region writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end's contents, the generator register. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered from every unscoped buffer at the boundary before it, left at the boundary after it.
    Its arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary before it, left at the boundary after it.
    Its arrays are split out of the unscoped buffers and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact hA.trans (hin1 (V3 m ρ) c)
  hout c := by
    have hA : (Pipeline.ΦA spec1 c : sProp 𝕄)
        ⊢ iprop((∃ r, prngReg c r) ∗ Pipeline.ownSems0 (fun k : PEmpty => (k.elim : SemLoc sig)) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.KernelIdeal.Hand

end
-- ==== Proof.Spec.lean ====
/-
  The mixed-label cross-entropy against an updated, normalised dictionary, as functions of COORDINATES over the
  extended reals: what the tiled program and the flat program each compute, written once.

  Inputs: logits `pred b c` (8192 rows, 1024 classes), features `feat b d` (512 wide), a dictionary `dw c d`, integer
  labels `tgt b`. With `oh b c` the indicator of `tgt b = c`:
    count c        = Σ_b oh b c                         sumFeat c d = Σ_b oh b c · feat b d
    newDict c d    = dw c d + 1/10 · ((sumFeat c d / (count c + 1e-6) − dw c d) · [count c > 0])
    dictN, featN   = rows divided by max(‖row‖₂, 1e-8)   simi b c    = Σ_d featN b d · dictN c d
    soft b ·       = softmax of simi b ·                 tp b c      = 1/2 · (1/2 · soft b c + 1/2 · oh b c)
    lp b ·         = log-softmax of pred b ·
  The flat form sums over all 8192 rows at once and negates each probability; the tiled form sums the statistics over
  2 halves × 4 tiles × 1024 rows and the loss over 2 halves × 8 tiles × 512 rows, negating each row's sum (as `0 − x`).
  Float literals are kept as their binary words (`Ideal.ofBits`): the same word stands on both sides.
-/
import Idealize.ShloMosaic.PureOps.Ideal
import Mathlib.Algebra.BigOperators.Fin

noncomputable section

namespace Cert.Spec

open Idealize.ShloMosaic

/-- Row `r` of tile `i` (1024 rows) of half `k` (4 tiles): the statistics' tiling of the 8192 rows. -/
def row4 (k : Fin 2) (i : Fin 4) (r : Fin 1024) : Fin 8192 := ⟨1024 * (4 * k.val + i.val) + r.val, by omega⟩
/-- Row `r` of tile `i` (512 rows) of half `k` (8 tiles): the loss's tiling of the 8192 rows. -/
def row8 (k : Fin 2) (i : Fin 8) (r : Fin 512) : Fin 8192 := ⟨512 * (8 * k.val + i.val) + r.val, by omega⟩

/-- The literals, as the extended reals their words denote: 1e-6, 1/10, 1e-8, 1/2 and 8192 as f32. -/
def eps6 : EReal := Ideal.ofBits .f32 0x358637BD#32
def tenth : EReal := Ideal.ofBits .f32 0x3DCCCCCD#32
def eps8 : EReal := Ideal.ofBits .f32 0x322BCC77#32
def half : EReal := Ideal.ofBits .f32 0x3F000000#32
def nrows : EReal := Ideal.ofBits .f32 0x46000000#32

variable (pred : Fin 8192 → Fin 1024 → EReal) (feat : Fin 8192 → Fin 512 → EReal)
  (dw : Fin 1024 → Fin 512 → EReal) (tgt : Fin 8192 → BitVec 32)

/-- The label indicator: 1 where row `b`'s label is class `c`, else 0 (a label outside 0..1023 marks no class). -/
def oh (b : Fin 8192) (c : Fin 1024) : EReal := if tgt b = BitVec.ofNat 32 c.val then 1 else 0

/-- Per-class counts and feature sums, over all rows at once … -/
def cntR (c : Fin 1024) : EReal := ∑ b : Fin 8192, oh tgt b c
def sfR (c : Fin 1024) (d : Fin 512) : EReal := ∑ b : Fin 8192, oh tgt b c * feat b d
/-- … and tile by tile. -/
def cntK (c : Fin 1024) : EReal := ∑ k : Fin 2, ∑ i : Fin 4, ∑ r : Fin 1024, oh tgt (row4 k i r) c
def sfK (c : Fin 1024) (d : Fin 512) : EReal :=
  ∑ k : Fin 2, ∑ i : Fin 4, ∑ r : Fin 1024, oh tgt (row4 k i r) c * feat (row4 k i r) d

section Downstream

-- Everything after the statistics, over ANY feature sums `sf` and counts `cn`.
variable (sf : Fin 1024 → Fin 512 → EReal) (cn : Fin 1024 → EReal)

def mask (c : Fin 1024) : EReal := if 0 < cn c then 1 else 0
def newDict (c : Fin 1024) (d : Fin 512) : EReal :=
  dw c d + tenth * ((Ideal.div (sf c d) (cn c + eps6) - dw c d) * mask cn c)
def dnorm (c : Fin 1024) : EReal :=
  max (Ideal.sqrt (∑ d : Fin 512, newDict dw sf cn c d * newDict dw sf cn c d)) eps8
def dictN (c : Fin 1024) (d : Fin 512) : EReal := Ideal.div (newDict dw sf cn c d) (dnorm dw sf cn c)
def fnorm (b : Fin 8192) : EReal := max (Ideal.sqrt (∑ d : Fin 512, feat b d * feat b d)) eps8
def featN (b : Fin 8192) (d : Fin 512) : EReal := Ideal.div (feat b d) (fnorm feat b)
def simi (b : Fin 8192) (c : Fin 1024) : EReal := ∑ d : Fin 512, featN feat b d * dictN dw sf cn c d
def smax (b : Fin 8192) : EReal := Finset.univ.sup fun c : Fin 1024 => simi feat dw sf cn b c
def sexp (b : Fin 8192) (c : Fin 1024) : EReal := Ideal.exp (simi feat dw sf cn b c - smax feat dw sf cn b)
def soft (b : Fin 8192) (c : Fin 1024) : EReal :=
  Ideal.div (sexp feat dw sf cn b c) (∑ c' : Fin 1024, sexp feat dw sf cn b c')
def tp (b : Fin 8192) (c : Fin 1024) : EReal := half * (half * soft feat dw sf cn b c + half * oh tgt b c)

end Downstream

def pmax (b : Fin 8192) : EReal := Finset.univ.sup fun c : Fin 1024 => pred b c
def lp (b : Fin 8192) (c : Fin 1024) : EReal :=
  (pred b c - pmax pred b) - Ideal.log (∑ c' : Fin 1024, Ideal.exp (pred b c' - pmax pred b))

/-- The flat form: every row's every class, each probability negated, summed, over 8192. -/
def refLoss : EReal :=
  Ideal.div (∑ b : Fin 8192, ∑ c : Fin 1024, (-(tp feat dw tgt (sfR feat tgt) (cntR tgt) b c)) * lp pred b c) nrows

/-- The tiled form: halves, tiles, rows; each row's sum subtracted from zero; over 8192. -/
def kerLoss : EReal :=
  Ideal.div (∑ k : Fin 2, ∑ i : Fin 8, ∑ r : Fin 512,
    (0 - ∑ c : Fin 1024, tp feat dw tgt (sfK feat tgt) (cntK tgt) (row8 k i r) c * lp pred (row8 k i r) c)) nrows

end Cert.Spec

end
-- ==== Proof.LibIdxSums.lean ====
/-
  Sums over the index set of a rank-1 or rank-3 array, taken coordinate by coordinate.

  An index of an array of shape [n] is its one coordinate, and an index of an array of shape [n0, n1, n2] is its three
  coordinates; so a sum over the index set is the sum over the coordinate, or the iterated sum over the three
  coordinates. Only commutativity and associativity of the addition enter.
-/
import Idealize.ShloMosaic.Lib.ValueIdx

open scoped BigOperators

namespace Cert.LibIdxSums

open Idealize.ShloMosaic Idealize.ShloMosaic.ValueIdx

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the iterated sum over its three coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.KIHost.lean ====
/-
  The host stretches of the two-region program read at an index, over the extended reals: the labels reshaped to a
  column; the two halves' counts added and turned into a column; the two halves' loss cells added and divided by the
  number of rows; and the buffers the cross-entropy region reads that no stretch and no region before it has changed.
-/
import proofs.«153739_j8924942041499_2_alg».proof.Proof.KIMain
import proofs.«153739_j8924942041499_2_alg».proof.Proof.Spec
import proofs.«153739_j8924942041499_2_alg».proof.Proof.LibIdxSums
import proofs.«153739_j8924942041499_2_alg».proof.Proof.LibKeepdims
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Cert.KernelIdeal.Hand0 (dat0 A_eq0)
open Cert.KernelIdeal.Hand1 (dat1 A_eq1)
open Idealize.ShloMosaic.ValueIdx

variable (m : (ℓ : Loc nD τ sig) → Buf (Elt Ideal) ℓ) (ρ : Dev nD → PrngReg) (c : Dev nD)

/-- A host stretch leaves a buffer that none of its operations writes as it was. -/
local macro "keeps_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The last stretch: the result -/

/-- The result: the two halves' loss cells added, over the number of rows. -/
theorem W5_result : (W5 m ρ c (Proc.devRef .tc main_v6) : FVec Ideal S_ .f32)
    = fun _ => Ideal.div (∑ k : Fin 2, (W4 m ρ c (Proc.devRef .tc main_v4) : FVec Ideal S2x1x1 .f32) (ix3 k 0 0)) Cert.Spec.nrows := by
  show StableHlo.after hostOps2 (W4 m ρ c) (Proc.devRef .tc main_v6) = _
  after_results
  funext j
  refine congrArg₂ Ideal.div ?_ rfl
  refine (Ideal.hostReduceAdd_total reducesTo_S2x1x1_S_d0_1_2 (fun b => b.elim0) _ _ j).trans ?_
  refine (congrArg₂ (fun a b : EReal => a + b) Ideal.ofBits_zero_f32 (Cert.LibIdxSums.sum_idx3 _)).trans ?_
  refine (zero_add _).trans ?_
  refine Finset.sum_congr rfl fun k _ => ?_
  rw [Fin.sum_univ_one, Fin.sum_univ_one]

/-! ## The middle stretch: the counts -/

/-- The counts as a column: entry `(p, 0)` is the sum of the two halves' counts of class `p`. -/
theorem V3_counts (p : Fin 1024) (z : Fin 1) : (V3 m ρ c main_v3 : FVec Ideal S1024x1 .f32) (ix2 p z)
    = (∑ k : Fin 2, (V2 m ρ c main_v1_1 : FVec Ideal S2x1x1024 .f32) (ix3 k 0 p) : EReal) := by
  have e : (W3 m ρ c (Proc.devRef .tc main_v3) : FVec Ideal S1024x1 .f32)
      = shapeCast S1024x1 (Host.reduceAdd (F := Ideal) (W2 m ρ c (Proc.devRef .tc main_v1_1) : FVec Ideal S2x1x1024 .f32)
          (constant (F := Ideal) S_ .f32 0x00000000#32) reducesTo_S2x1x1024_S1x1024_d0 h_S_) shapeCasts_S1x1024_S1024x1 := by
    show StableHlo.after hostOps1 (W2 m ρ c) (Proc.devRef .tc main_v3) = _
    after_results
    rfl
  have hred : S2x1x1024.Reduces [0] S1x1024 := by decide
  refine (congrFun e (ix2 p z)).trans ?_
  refine (shapeCast_apply _ shapeCasts_S1x1024_S1024x1 (ix2 p z) (ix2 (0 : Fin 1) p) (by
    have hz : z.val = 0 := by omega
    rw [Shape.rowMajor_val_two, Shape.rowMajor_val_two]
    show (0 : ℕ) * 1024 + p.val = p.val * 1 + z.val
    rw [hz]; omega)).trans ?_
  refine (Ideal.hostReduceAdd_single reducesTo_S2x1x1024_S1x1024_d0 hred _ _ (ix2 (0 : Fin 1) p)).trans ?_
  refine (congrArg₂ (fun a b : EReal => a + b) Ideal.ofBits_zero_f32 rfl).trans ?_
  refine (zero_add _).trans ?_
  refine Finset.sum_congr rfl fun k _ => congrArg _ ?_
  funext a
  apply Fin.ext
  match a with
  | ⟨0, _⟩ => rfl
  | ⟨1, _⟩ => rfl
  | ⟨2, _⟩ => rfl

/-! ## The first stretch: the labels -/

/-- The labels as a column: entry `(b, 0)` is label `b`. -/
theorem V1_labels (b : Fin 8192) (z : Fin 1) : (V1 m ρ c main_v0 : IVec S8192x1 32) (ix2 b z)
    = (m ((c : Thread nD τ).loc main_arg3) : IVec S8192 32) (ix1 b) := by
  have e : V1 m ρ c main_v0 = shapeCast S8192x1 (m ((c : Thread nD τ).loc main_arg3)) shapeCasts_S8192_S8192x1 := by
    show StableHlo.after hostOps0 (W0 m ρ c) (Proc.devRef .tc main_v0) = _
    after_results
    rfl
  rw [e]
  exact Cert.LibKeepdims.shapeCast_a_a1_apply _ _ b z

/-! ## What the cross-entropy region reads unchanged -/

/-- The first stretch writes the label column only. -/
theorem V1_main_arg1 : V1 m ρ c main_arg1 = m ((c : Thread nD τ).loc main_arg1) :=
  calc W1 m ρ c (Proc.devRef .tc main_arg1)
    _ = W0 m ρ c (Proc.devRef .tc main_arg1) := by keeps_host hostOps0
    _ = m ((c : Thread nD τ).loc main_arg1) := rfl

/-- The statistics region's second output, at its exit. -/
theorem V2_main_v1_1 : V2 m ρ c main_v1_1 = (dat0 (V1 m ρ) c).arrAt 3 cfg0.N := W2_arr m ρ c 3

theorem V3_main_arg0 : V3 m ρ c main_arg0 = m ((c : Thread nD τ).loc main_arg0) :=
  calc W3 m ρ c (Proc.devRef .tc main_arg0)
    _ = W2 m ρ c (Proc.devRef .tc main_arg0) := by keeps_host hostOps1
    _ = W1 m ρ c (Proc.devRef .tc main_arg0) := W2_of_ne m ρ c main_arg0 (by decide)
    _ = W0 m ρ c (Proc.devRef .tc main_arg0) := by keeps_host hostOps0
    _ = m ((c : Thread nD τ).loc main_arg0) := rfl

theorem V3_main_arg1 : V3 m ρ c main_arg1 = m ((c : Thread nD τ).loc main_arg1) :=
  calc W3 m ρ c (Proc.devRef .tc main_arg1)
    _ = W2 m ρ c (Proc.devRef .tc main_arg1) := by keeps_host hostOps1
    _ = W1 m ρ c (Proc.devRef .tc main_arg1) :=
      (W2_arr m ρ c 0).trans (((dat0 (V1 m ρ) c).arrAt_in 0 rfl _).trans (A_eq0 (V1 m ρ) c 0))
    _ = m ((c : Thread nD τ).loc main_arg1) := V1_main_arg1 m ρ c

theorem V3_main_arg2 : V3 m ρ c main_arg2 = m ((c : Thread nD τ).loc main_arg2) :=
  calc W3 m ρ c (Proc.devRef .tc main_arg2)
    _ = W2 m ρ c (Proc.devRef .tc main_arg2) := by keeps_host hostOps1
    _ = W1 m ρ c (Proc.devRef .tc main_arg2) := W2_of_ne m ρ c main_arg2 (by decide)
    _ = W0 m ρ c (Proc.devRef .tc main_arg2) := by keeps_host hostOps0
    _ = m ((c : Thread nD τ).loc main_arg2) := rfl

/-- The label column reaches the cross-entropy region as the first stretch left it: the statistics region only reads it. -/
theorem V3_main_v0 : V3 m ρ c main_v0 = V1 m ρ c main_v0 :=
  calc W3 m ρ c (Proc.devRef .tc main_v0)
    _ = W2 m ρ c (Proc.devRef .tc main_v0) := by keeps_host hostOps1
    _ = W1 m ρ c (Proc.devRef .tc main_v0) :=
      (W2_arr m ρ c 1).trans (((dat0 (V1 m ρ) c).arrAt_in 1 rfl _).trans (A_eq0 (V1 m ρ) c 1))

/-- The statistics region's first output reaches the cross-entropy region as the region left it. -/
theorem V3_main_v1_0 : V3 m ρ c main_v1_0 = (dat0 (V1 m ρ) c).arrAt 2 cfg0.N :=
  calc W3 m ρ c (Proc.devRef .tc main_v1_0)
    _ = W2 m ρ c (Proc.devRef .tc main_v1_0) := by keeps_host hostOps1
    _ = (dat0 (V1 m ρ) c).arrAt 2 cfg0.N := W2_arr m ρ c 2

end Cert.KernelIdeal.Hand

end
-- ==== Proof.KI1Value.lean ====
/-
  The second kernel region, what its body leaves read back as VALUES: each case's found pieces are the skeleton's
  payloads of the buffers' contents — tile 0 stores the normalised dictionary into the scratch and leaves zero plus the
  tile's loss in the cell; a later tile leaves the cell plus the tile's loss, the dictionary read from the scratch.
-/
import proofs.«153739_j8924942041499_2_alg».proof.Proof.KI1Frame
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile leaves, in the loss cell holding `xo6`, the cell plus this tile's loss: the loss of the logits block `x0`
    against the mixed labels built from the features block `x1`, the scratch's dictionary `xs0` and the labels `x5`. -/
theorem out_B (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : ¬cond1_0 i)
    (x0 : Vec F S512x1024 .f32) (x1 : Vec F S512x512 .f32) (x2 : Vec F S2x1024x512 .f32) (x3 : Vec F S1024x1 .f32) (x4 : Vec F S1024x512 .f32) (x5 : Vec F S512x1 .i32) (xo6 : Vec F S1x1x1 .f32) (xs0 : Vec F S1024x512 .bf16) :
    out1_B_6 c i arg2 harg2 arg3 harg3 arg4 harg4 arg5 harg5 arg6 harg6 arg7 harg7 arg8 harg8 arg9 harg9 hc0 x0 x1 x2 x3 x4 x5 xo6 xs0 = k1_pay1 (k1_pay5 x1 xs0 x5) x0 xo6 := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 x5 xo6 xs0)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S1024x512) hz2, View.ld_unit_zero (S := S512x1) hz2, View.ld_unit_zero (S := S1024x1) hz2,
    View.ld_unit_zero (S := S512x1024) hz2, View.ld_unit_zero (S := S1x1x1) hz3]

/-- Tile 0 leaves in the scratch the normalised dictionary built from the two halves of the feature sums, the counts
    and the old dictionary. -/
theorem sout_A (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) :
    sout1_A_0 c i arg2 harg2 arg3 harg3 arg4 harg4 arg5 harg5 arg6 harg6 arg7 harg7 arg8 harg8 arg9 harg9 hc0 x0 x1 x2 x3 x4 x5 = k1_pay4 (k1_pay3 (View.ld x2 (Rect.unit (s := S2x1024x512) ![0, 0, 0] S1x1024x512.size inb_S2x1024x512_S1x1024x512_0_0_0)) (View.ld x2 (Rect.unit (s := S2x1024x512) ![1, 0, 0] S1x1024x512.size inb_S2x1024x512_S1x1024x512_1_0_0)) x3 x4 x4) := by
  unfold sout1_A_0
  rw [View.read_writes_eq_canon _ _ _ (scover1_A_0 c i arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S1024x512) hz2, View.ld_unit_zero (S := S512x1) hz2, View.ld_unit_zero (S := S1024x1) hz2,
    View.ld_unit_zero (S := S512x1024) hz2, View.ld_unit_zero (S := S1x1x1) hz3]

/-- Tile 0 leaves in the loss cell zero plus this tile's loss, the mixed labels built from the dictionary it has just
    stored. -/
theorem out_A (c : Dev nD) (i : grid1.Coords) (arg2 : Memref sig .tc .vmem S512x1024 .f32) (harg2 : arg2.IsWhole) (arg3 : Memref sig .tc .vmem S512x512 .f32) (harg3 : arg3.IsWhole) (arg4 : Memref sig .tc .vmem S2x1024x512 .f32) (harg4 : arg4.IsWhole) (arg5 : Memref sig .tc .vmem S1024x1 .f32) (harg5 : arg5.IsWhole) (arg6 : Memref sig .tc .vmem S1024x512 .f32) (harg6 : arg6.IsWhole) (arg7 : Memref sig .tc .vmem S512x1 .i32) (harg7 : arg7.IsWhole) (arg8 : Memref sig .tc .vmem S1x1x1 .f32) (harg8 : arg8.IsWhole) (arg9 : Memref sig .tc .vmem S1024x512 .bf16) (harg9 : arg9.IsWhole) (hc0 : cond1_0 i)
    (x0 : Vec F S512x1024 .f32) (x1 : Vec F S512x512 .f32) (x2 : Vec F S2x1024x512 .f32) (x3 : Vec F S1024x1 .f32) (x4 : Vec F S1024x512 .f32) (x5 : Vec F S512x1 .i32) :
    out1_A_6 c i arg2 harg2 arg3 harg3 arg4 harg4 arg5 harg5 arg6 harg6 arg7 harg7 arg8 harg8 arg9 harg9 hc0 x0 x1 x2 x3 x4 x5 = k1_pay1 (k1_pay5 x1 (k1_pay4 (k1_pay3 (View.ld x2 (Rect.unit (s := S2x1024x512) ![0, 0, 0] S1x1024x512.size inb_S2x1024x512_S1x1024x512_0_0_0)) (View.ld x2 (Rect.unit (s := S2x1024x512) ![1, 0, 0] S1x1024x512.size inb_S2x1024x512_S1x1024x512_1_0_0)) x3 x4 x4)) x5) x0 k1_pay2 := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S1x1x1) hz3, View.readCov_unit_zero (S := S1x1x1) _ hz3, View.readCov_unit_zero (S := S1024x512) _ hz2]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S1024x512) hz2, View.ld_unit_zero (S := S512x1) hz2, View.ld_unit_zero (S := S1024x1) hz2,
    View.ld_unit_zero (S := S512x1024) hz2, View.ld_unit_zero (S := S1x1x1) hz3]

end Cert.KernelIdeal.Hand1

end
-- ==== Proof.KI1Blocks.lean ====
/-
  The second kernel region's windows read at coordinates: at grid point `t` (half `t / 8`, tile `t % 8`) the logits,
  features and labels windows hold rows `512·t … 512·t + 511` of their arrays; the feature sums, the counts column and
  the dictionary are staged whole.
-/
import proofs.«153739_j8924942041499_2_alg».proof.Proof.KI1Frame
import Idealize.ShloMosaic.Lib.Pipeline.Value
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- Row `r` of the tile of grid point `t`. -/
def rowT (t : Fin cfg1.N) (r : Fin 512) : Fin 8192 :=
  ⟨512 * t.val + r.val, by have : t.val < 16 := lt_of_lt_of_eq t.isLt (show cfg1.N = 16 from N_1); omega⟩

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 3) = 0 ∧ win1_2.index t (1 : Fin 3) = 0 ∧ win1_2.index t (2 : Fin 3) = 0 :=
  (by decide +kernel : ∀ t : Fin grid1.N, win1_2.index t (0 : Fin 3) = 0 ∧ win1_2.index t (1 : Fin 3) = 0 ∧ win1_2.index t (2 : Fin 3) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- The logits window at point `t`, at row `r` and class `q`: the logits array at the tile's row. -/
theorem iblk1_0_apply (c : Dev nD) (t : Fin cfg1.N) (r : Fin 512) (q : Fin 1024) :
    (iblk1 V c 0 t : Vec F S512x1024 .f32) (ix2 r q) = V c main_arg0 (ix2 (rowT t r) q) := by
  unfold iblk1
  rw [View.read_apply]
  show V c main_arg0 _ = V c main_arg0 _
  refine congrArg (V c main_arg0) ?_
  funext a
  apply Fin.ext
  match a with
  | ⟨0, _⟩ => show win1_0.index t 0 * 512 + 1 * r.val = 512 * t.val + r.val; rw [(idx1_0 t).1]; omega
  | ⟨1, _⟩ => show win1_0.index t 1 * 1024 + 1 * q.val = q.val; rw [(idx1_0 t).2]; omega

/-- The features window at point `t`. -/
theorem iblk1_1_apply (c : Dev nD) (t : Fin cfg1.N) (r : Fin 512) (d : Fin 512) :
    (iblk1 V c 1 t : Vec F S512x512 .f32) (ix2 r d) = V c main_arg1 (ix2 (rowT t r) d) := by
  unfold iblk1
  rw [View.read_apply]
  show V c main_arg1 _ = V c main_arg1 _
  refine congrArg (V c main_arg1) ?_
  funext a
  apply Fin.ext
  match a with
  | ⟨0, _⟩ => show win1_1.index t 0 * 512 + 1 * r.val = 512 * t.val + r.val; rw [(idx1_1 t).1]; omega
  | ⟨1, _⟩ => show win1_1.index t 1 * 512 + 1 * d.val = d.val; rw [(idx1_1 t).2]; omega

/-- The feature sums' window (both halves, whole). -/
theorem iblk1_2_apply (c : Dev nD) (t : Fin cfg1.N) (k : Fin 2) (p : Fin 1024) (d : Fin 512) :
    (iblk1 V c 2 t : Vec F S2x1024x512 .f32) (ix3 k p d) = V c main_v1_0 (ix3 k p d) := by
  unfold iblk1
  rw [View.read_apply]
  show V c main_v1_0 _ = V c main_v1_0 _
  refine congrArg (V c main_v1_0) ?_
  funext a
  apply Fin.ext
  match a with
  | ⟨0, _⟩ => show win1_2.index t 0 * 2 + 1 * k.val = k.val; rw [(idx1_2 t).1]; omega
  | ⟨1, _⟩ => show win1_2.index t 1 * 1024 + 1 * p.val = p.val; rw [(idx1_2 t).2.1]; omega
  | ⟨2, _⟩ => show win1_2.index t 2 * 512 + 1 * d.val = d.val; rw [(idx1_2 t).2.2]; omega

/-- The counts column's window (whole). -/
theorem iblk1_3_apply (c : Dev nD) (t : Fin cfg1.N) (p : Fin 1024) (z : Fin 1) :
    (iblk1 V c 3 t : Vec F S1024x1 .f32) (ix2 p z) = V c main_v3 (ix2 p z) := by
  unfold iblk1
  rw [View.read_apply]
  show V c main_v3 _ = V c main_v3 _
  refine congrArg (V c main_v3) ?_
  funext a
  apply Fin.ext
  match a with
  | ⟨0, _⟩ => show win1_3.index t 0 * 1024 + 1 * p.val = p.val; rw [(idx1_3 t).1]; omega
  | ⟨1, _⟩ => show win1_3.index t 1 * 1 + 1 * z.val = z.val; rw [(idx1_3 t).2]; omega

/-- The dictionary's window (whole). -/
theorem iblk1_4_apply (c : Dev nD) (t : Fin cfg1.N) (p : Fin 1024) (d : Fin 512) :
    (iblk1 V c 4 t : Vec F S1024x512 .f32) (ix2 p d) = V c main_arg2 (ix2 p d) := by
  unfold iblk1
  rw [View.read_apply]
  show V c main_arg2 _ = V c main_arg2 _
  refine congrArg (V c main_arg2) ?_
  funext a
  apply Fin.ext
  match a with
  | ⟨0, _⟩ => show win1_4.index t 0 * 1024 + 1 * p.val = p.val; rw [(idx1_4 t).1]; omega
  | ⟨1, _⟩ => show win1_4.index t 1 * 512 + 1 * d.val = d.val; rw [(idx1_4 t).2]; omega

/-- The labels window at point `t`. -/
theorem iblk1_5_apply (c : Dev nD) (t : Fin cfg1.N) (r : Fin 512) (z : Fin 1) :
    (iblk1 V c 5 t : Vec F S512x1 .i32) (ix2 r z) = V c main_v0 (ix2 (rowT t r) z) := by
  unfold iblk1
  rw [View.read_apply]
  show V c main_v0 _ = V c main_v0 _
  refine congrArg (V c main_v0) ?_
  funext a
  apply Fin.ext
  match a with
  | ⟨0, _⟩ => show win1_5.index t 0 * 512 + 1 * r.val = 512 * t.val + r.val; rw [(idx1_5 t).1]; omega
  | ⟨1, _⟩ => show win1_5.index t 1 * 1 + 1 * z.val = z.val; rw [(idx1_5 t).2]; omega

end Cert.KernelIdeal.Hand1

end
-- ==== Proof.LibRowReduce.lean ====
/-
  Reductions of a matrix along its rows, read at a row, over the extended reals.

  Reducing an [n, m] matrix over its second axis leaves a vector of length n. Its entry p is the row's fold: for a
  maximum, the fold of max from the initial value over the m entries of row p; for a sum, the initial value plus the sum
  of the m entries of row p. This holds for the device's reductions and for the host's alike, the operand index over
  row p with second coordinate k being (p, k).
-/
import Idealize.ShloMosaic.Lib.ValueIdx
import Idealize.ShloMosaic.PureOps.Ideal.Laws

namespace Cert.LibRowReduce

open Idealize.ShloMosaic Idealize.ShloMosaic.ValueIdx

variable {n m : ℕ}

/-- Over row `p`, the operand index with second coordinate `k` is `(p, k)`. -/
theorem lift_row (h : (⟨2, ![n, m]⟩ : Shape).Reduces [(1 : Fin 2)] ⟨1, ![n]⟩) (p : Fin n) (k : Fin m) :
    h.lift (ix1 p) k = ix2 p k := by
  funext c
  apply Fin.ext
  show h.liftVal (ix1 p) k.val c = (ix2 p k c).val
  unfold Shape.Reduces.liftVal
  match c with
  | ⟨0, _⟩ => rw [dif_neg (by simp), dif_pos (by simp)]
  | ⟨1, _⟩ => rw [dif_pos (by simp)]

/-- The device's row maximum at row `p`: the fold of max from the accumulator's value over the row. -/
theorem multiReduction_max_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.maximumf.neutral φ hφ) (p : Fin n) :
    multiReduction .maximumf [(1 : Fin 2)] ⟨1, ![n]⟩ src acc h hφ hacc (ix1 p)
      = (Finset.univ : Finset (Fin m)).fold max (Ideal.ofBits φ acc) (fun k => src (ix2 p k)) := by
  refine (Ideal.multiReduction_maximumf_single src acc h hφ hacc (ix1 p)).trans ?_
  show (Finset.univ : Finset (Fin m)).fold max (Ideal.ofBits φ acc) (src ∘ h.lift (ix1 p)) = _
  exact congrArg (fun g => (Finset.univ : Finset (Fin m)).fold max (Ideal.ofBits φ acc) g)
    (funext fun k => congrArg src (lift_row h p k))

/-- The device's row sum at row `p`: the sum of the row. -/
theorem multiReduction_add_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.add.neutral φ hφ) (p : Fin n) :
    multiReduction .add [(1 : Fin 2)] ⟨1, ![n]⟩ src acc h hφ hacc (ix1 p) = ∑ k : Fin m, src (ix2 p k) := by
  refine (Ideal.multiReduction_add_single src acc h hφ hacc (ix1 p)).trans ?_
  show ∑ k : Fin m, src (h.lift (ix1 p) k) = _
  exact Finset.sum_congr rfl fun k _ => congrArg src (lift_row h p k)

/-- The host's row reduction by a commutative, associative operation at row `p`: the fold from the initial value. -/
theorem hostReduce_row {α : Type} {u : Shape} (f : α → α → α) [Std.Commutative f] [Std.Associative f]
    (x : (⟨2, ![n, m]⟩ : Shape).Idx → α) (init : u.Idx → α)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduce f x init h' hu (ix1 p)
      = (Finset.univ : Finset (Fin m)).fold f (init (Shape.Idx.first hu)) (fun k => x (ix2 p k)) := by
  refine (Host.reduce_eq_fold_single f x init h' h hu (ix1 p)).trans ?_
  show (Finset.univ : Finset (Fin m)).fold f (init (Shape.Idx.first hu)) (x ∘ h.lift (ix1 p)) = _
  exact congrArg (fun g => (Finset.univ : Finset (Fin m)).fold f (init (Shape.Idx.first hu)) g)
    (funext fun k => congrArg x (lift_row h p k))

/-- The host's row sum at row `p`: the initial value plus the sum of the row. -/
theorem hostReduceAdd_row {φ : FTy} {u : Shape} (x : FVec Ideal ⟨2, ![n, m]⟩ φ) (init : u.Idx → Ideal φ)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduceAdd x init h' hu (ix1 p) = init (Shape.Idx.first hu) + ∑ k : Fin m, x (ix2 p k) := by
  refine (Ideal.hostReduceAdd_single h' h x (init (Shape.Idx.first hu)) (ix1 p)).trans ?_
  show init (Shape.Idx.first hu) + ∑ k : Fin m, x (h.lift (ix1 p) k) = _
  exact congrArg (fun s => init (Shape.Idx.first hu) + s) (Finset.sum_congr rfl fun k _ => congrArg x (lift_row h p k))

end Cert.LibRowReduce
-- ==== Proof.LibSupBlocks.lean ====
/-
  A maximum taken block by block.

  Over a linear order with a least element, folding `max` from the least element over a finite set is the set's
  supremum; and the supremum over `Fin (a * b)` is the supremum over the `a` blocks of the suprema over the `b` members
  of each block, member `k` of block `s` being index `b * s + k`. So a column maximum computed tile by tile and then
  combined over the tiles is the column maximum.
-/
import Idealize.ShloMosaic.Lib.ValueIdx

namespace Cert.LibSupBlocks

variable {α : Type*} [LinearOrder α] [OrderBot α]

/-- Folding `max` from the least element is the supremum. -/
theorem fold_max_bot_eq_sup {ι : Type*} (s : Finset ι) (f : ι → α) : s.fold max ⊥ f = s.sup f := by
  classical
  induction s using Finset.induction_on with
  | empty => simp
  | insert i s hi ih => rw [Finset.fold_insert hi, Finset.sup_insert, ih]

/-- Member `k` of block `s` lies below `a * b`. -/
theorem blk_lt {a b : ℕ} (s : Fin a) (k : Fin b) : b * s.val + k.val < a * b := by
  have hs : s.val + 1 ≤ a := s.isLt
  have hk := k.isLt
  calc b * s.val + k.val < b * s.val + b := by omega
    _ = b * (s.val + 1) := by ring
    _ ≤ b * a := Nat.mul_le_mul_left b hs
    _ = a * b := Nat.mul_comm b a

/-- The supremum over `Fin (a * b)`, block by block. -/
theorem sup_fin_blocks {a b : ℕ} (g : Fin (a * b) → α) :
    (Finset.univ : Finset (Fin (a * b))).sup g
      = (Finset.univ : Finset (Fin a)).sup fun s => (Finset.univ : Finset (Fin b)).sup fun k => g ⟨b * s.val + k.val, blk_lt s k⟩ := by
  apply le_antisymm
  · refine Finset.sup_le fun r _ => ?_
    have hr : r.val < a * b := r.isLt
    have hb : 0 < b := Nat.pos_of_ne_zero fun h => by subst h; simp at hr
    have hq : r.val / b < a := Nat.div_lt_of_lt_mul (lt_of_lt_of_eq hr (Nat.mul_comm a b))
    have hm : r.val % b < b := Nat.mod_lt _ hb
    have e : r = ⟨b * (⟨r.val / b, hq⟩ : Fin a).val + (⟨r.val % b, hm⟩ : Fin b).val, blk_lt _ _⟩ :=
      Fin.ext (Nat.div_add_mod r.val b).symm
    calc g r = g ⟨b * (⟨r.val / b, hq⟩ : Fin a).val + (⟨r.val % b, hm⟩ : Fin b).val, blk_lt _ _⟩ := congrArg g e
      _ ≤ (Finset.univ : Finset (Fin b)).sup fun k => g ⟨b * (⟨r.val / b, hq⟩ : Fin a).val + k.val, blk_lt _ k⟩ :=
          Finset.le_sup (f := fun k : Fin b => g ⟨b * (⟨r.val / b, hq⟩ : Fin a).val + k.val, blk_lt _ k⟩) (Finset.mem_univ _)
      _ ≤ _ := Finset.le_sup (f := fun s : Fin a => (Finset.univ : Finset (Fin b)).sup fun k => g ⟨b * s.val + k.val, blk_lt s k⟩)
          (Finset.mem_univ (⟨r.val / b, hq⟩ : Fin a))
  · refine Finset.sup_le fun s _ => Finset.sup_le fun k _ => ?_
    exact Finset.le_sup (f := g) (Finset.mem_univ _)

end Cert.LibSupBlocks
-- ==== Proof.KI1PayLib.lean ====
/-
  Reading the cross-entropy kernel's vector arithmetic at an index, over the extended reals: the pieces shared by its
  payloads. A row reduction kept as a column and spread back over the row is constant along the row: the row's
  supremum for a maximum taken from `-∞`, the row's sum for a sum. A reduction down the columns of an `[n, m]`
  matrix has at `q` the sum of column `q`.
-/
import proofs.«153739_j8924942041499_2_alg».proof.Proof.Gen.KernelIdeal.Skeleton
import proofs.«153739_j8924942041499_2_alg».proof.Proof.Spec
import Idealize.ShloMosaic.Lib.ValueIdx
import Idealize.ShloMosaic.Lib.Pipeline.Value
import Idealize.ShloMosaic.PureOps.Ideal.Laws
import proofs.«153739_j8924942041499_2_alg».proof.Proof.LibKeepdims
import proofs.«153739_j8924942041499_2_alg».proof.Proof.LibRowReduce
import proofs.«153739_j8924942041499_2_alg».proof.Proof.LibSupBlocks

noncomputable section

namespace Cert.KernelIdeal.Pay1

open Cert.KernelIdeal Cert.KernelIdeal.Gen Idealize.ShloMosaic ValueIdx

/-- The word `0xFF800000` is `-∞`: sign set, exponent all ones, significand zero. -/
theorem ofBits_neg_inf : Ideal.ofBits .f32 0xFF800000#32 = ⊥ := by
  show Ideal.ieee 8 23 (0xFF800000#32) = ⊥
  delta Ideal.ieee
  simp

/-- The elementwise exponential, logarithm and square root read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem sqrt_apply {s : Shape} {φ : FTy} (a : FVec Ideal s φ) (i : s.Idx) : sqrt a i = Ideal.sqrt (a i) := rfl

/-- Over column `q`, the operand index with first coordinate `k` is `(k, q)`. -/
theorem lift_col {n m : ℕ} (h : (⟨2, ![n, m]⟩ : Shape).Reduces [(0 : Fin 2)] ⟨1, ![m]⟩) (q : Fin m) (k : Fin n) :
    h.lift (ix1 q) k = ix2 k q := by
  funext c
  apply Fin.ext
  show h.liftVal (ix1 q) k.val c = (ix2 k q c).val
  unfold Shape.Reduces.liftVal
  match c with
  | ⟨0, _⟩ => rw [dif_pos (by simp)]
  | ⟨1, _⟩ => rw [dif_neg (by simp), dif_neg (by simp)]; rfl

/-- A sum down the columns, at column `q`: the sum of the column. -/
theorem multiReduction_add_col {n m : ℕ} {φ : FTy} (src : FVec Ideal ⟨2, ![n, m]⟩ φ) (acc : BitVec φ.bits)
    (h : (⟨2, ![n, m]⟩ : Shape).Reduces [(0 : Fin 2)] ⟨1, ![m]⟩) (hφ : FKind.Formats φ)
    (hacc : acc = FKind.add.neutral φ hφ) (q : Fin m) :
    multiReduction .add [(0 : Fin 2)] ⟨1, ![m]⟩ src acc h hφ hacc (ix1 q) = ∑ k : Fin n, src (ix2 k q) := by
  refine (Ideal.multiReduction_add_single src acc h hφ hacc (ix1 q)).trans ?_
  show ∑ k : Fin n, src (h.lift (ix1 q) k) = _
  exact Finset.sum_congr rfl fun k _ => congrArg src (lift_col h q k)

/-- A row maximum from `-∞`, kept as a column and spread over the row: at `(r, c)` the supremum of row `r`. -/
theorem rowMaxB_apply {n m : ℕ} (v : FVec Ideal ⟨2, ![n, m]⟩ .f32)
    (h : (⟨2, ![n, m]⟩ : Shape).Reduces [(1 : Fin 2)] ⟨1, ![n]⟩) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, m]⟩)
    (r : Fin n) (c : Fin m) :
    broadcastTo ⟨2, ![n, m]⟩
        (shapeCast ⟨2, ![n, 1]⟩ (multiReduction .maximumf [(1 : Fin 2)] ⟨1, ![n]⟩ v 0xFF800000#32 h hφ hacc) hc) hb (ix2 r c)
      = Finset.univ.sup fun k : Fin m => v (ix2 r k) := by
  refine (Cert.LibKeepdims.column_apply _ hc hb r c).trans ?_
  refine (Cert.LibRowReduce.multiReduction_max_row v _ h hφ hacc r).trans ?_
  rw [ofBits_neg_inf]
  exact Cert.LibSupBlocks.fold_max_bot_eq_sup _ _

/-- A row sum kept as a column: at `(r, 0)` the sum of row `r`. -/
theorem rowSumC_apply {n m : ℕ} (v : FVec Ideal ⟨2, ![n, m]⟩ .f32) (acc : BitVec 32)
    (h : (⟨2, ![n, m]⟩ : Shape).Reduces [(1 : Fin 2)] ⟨1, ![n]⟩) (hφ : FKind.Formats .f32)
    (hacc : acc = FKind.add.neutral .f32 hφ)
    (hc : (⟨1, ![n]⟩ : Shape).ShapeCasts ⟨2, ![n, 1]⟩) (r : Fin n) (u : Fin 1) :
    shapeCast ⟨2, ![n, 1]⟩ (multiReduction .add [(1 : Fin 2)] ⟨1, ![n]⟩ v acc h hφ hacc) hc (ix2 r u)
      = ∑ k : Fin m, v (ix2 r k) :=
  (Cert.LibKeepdims.shapeCast_a_a1_apply _ hc r u).trans (Cert.LibRowReduce.multiReduction_add_row v acc h hφ hacc r)

end Cert.KernelIdeal.Pay1

end
-- ==== Proof.KI1PayLoss.lean ====
/-
  The cross-entropy kernel's loss payload read at its one entry, over the extended reals: the accumulator plus, over
  the tile's 512 rows, zero minus the row's sum of weight times log-softmax of the logits; and the zero payload.
-/
import proofs.«153739_j8924942041499_2_alg».proof.Proof.Gen.KernelIdeal.Skeleton
import proofs.«153739_j8924942041499_2_alg».proof.Proof.Spec
import Idealize.ShloMosaic.Lib.ValueIdx
import Idealize.ShloMosaic.Lib.Pipeline.Value
import Idealize.ShloMosaic.PureOps.Ideal.Laws
import proofs.«153739_j8924942041499_2_alg».proof.Proof.LibKeepdims
import proofs.«153739_j8924942041499_2_alg».proof.Proof.LibRowReduce
import proofs.«153739_j8924942041499_2_alg».proof.Proof.KI1PayLib

noncomputable section

namespace Cert.KernelIdeal.Pay1

open Cert.KernelIdeal Cert.KernelIdeal.Gen Idealize.ShloMosaic ValueIdx

/-- The payload that clears the accumulator is zero. -/
theorem pay_zero : k1_pay2 (F := Ideal) (ix3 0 0 0) = 0 := by
  show Ideal.ofBits .f32 0x00000000#32 = 0
  exact Ideal.ofBits_zero_f32

/-- The loss payload: the accumulator plus the tile's rows' negated weighted log-softmax sums. -/
theorem pay_loss (v37 : FVec Ideal S512x1024 .f32) (v38 : Vec Ideal S512x1024 .f32) (v56 : Vec Ideal S1x1x1 .f32)
    (pred T : Fin 8192 → Fin 1024 → EReal) (rowOf : Fin 512 → Fin 8192)
    (h37 : ∀ r c, v37 (ix2 r c) = T (rowOf r) c) (h38 : ∀ r c, v38 (ix2 r c) = pred (rowOf r) c) :
    k1_pay1 (F := Ideal) v37 v38 v56 (ix3 0 0 0)
      = v56 (ix3 0 0 0) + ∑ r : Fin 512, (0 - ∑ c : Fin 1024, T (rowOf r) c * Cert.Spec.lp pred (rowOf r) c) := by
  -- the row's greatest logit, spread over the row
  have hmax : ∀ (r : Fin 512) (c : Fin 1024),
      broadcastTo S512x1024 (shapeCast S512x1 (multiReduction (F := Ideal) .maximumf [1] S512 v38 0xFF800000#32
        reduces_S512x1024_S512 (.inl rfl) rfl) shapeCasts_S512_S512x1) broadcasts_S512x1_S512x1024 (ix2 r c)
        = Cert.Spec.pmax pred (rowOf r) := fun r c =>
    (rowMaxB_apply v38 _ _ _ _ _ r c).trans (congrArg Finset.univ.sup (funext fun k => h38 r k))
  delta k1_pay1
  dsimp only
  refine (shapeCast_apply _ shapeCasts_S1x1_S1x1x1 (ix3 0 0 0) (ix2 (0 : Fin 1) (0 : Fin 1)) rfl).trans ?_
  refine (addf_apply _ _ _).trans ?_
  refine congrArg₂ (fun a b : EReal => a + b) ?_ ?_
  · exact shapeCast_apply v56 shapeCasts_S1x1x1_S1x1 (ix2 (0 : Fin 1) (0 : Fin 1)) (ix3 0 0 0) rfl
  · refine (shapeCast_apply _ shapeCasts_S1_S1x1 (ix2 (0 : Fin 1) (0 : Fin 1)) (ix1 (0 : Fin 1)) rfl).trans ?_
    refine (multiReduction_add_col _ _ _ _ _ (0 : Fin 1)).trans ?_
    refine Finset.sum_congr rfl fun r _ => ?_
    refine (subf_apply _ _ _).trans ?_
    refine congrArg₂ (fun a b : EReal => a - b) Ideal.ofBits_zero_f32 ?_
    refine (rowSumC_apply _ _ _ _ _ _ r 0).trans ?_
    refine Finset.sum_congr rfl fun c _ => ?_
    refine (mulf_apply _ _ _).trans ?_
    refine congrArg₂ (fun a b : EReal => a * b) (h37 r c) ?_
    -- the log-softmax of the logits at (r, c)
    refine (subf_apply _ _ _).trans ?_
    refine congrArg₂ (fun a b : EReal => a - b) ?_ ?_
    · refine (subf_apply _ _ _).trans ?_
      exact congrArg₂ (fun a b : EReal => a - b) (h38 r c) (hmax r c)
    · refine (Cert.LibKeepdims.broadcastTo_a1_ab_apply _ _ r c).trans ?_
      refine (log_apply _ _).trans ?_
      refine congrArg Ideal.log ?_
      refine (rowSumC_apply _ _ _ _ _ _ r 0).trans ?_
      refine Finset.sum_congr rfl fun k _ => ?_
      refine (exp_apply _ _).trans ?_
      refine congrArg Ideal.exp ?_
      refine (subf_apply _ _ _).trans ?_
      exact congrArg₂ (fun a b : EReal => a - b) (h38 r k) (hmax r k)

end Cert.KernelIdeal.Pay1

end
-- ==== Proof.KI1PayDict.lean ====
/-
  The cross-entropy kernel's dictionary payload read at an entry, over the extended reals: the dictionary moved one
  tenth of the way to the classes' mean features (classes that are present only), each row then divided by its
  Euclidean norm clamped below by 1e-8. Rounding to the narrow format changes nothing at the extended reals.
-/
import proofs.«153739_j8924942041499_2_alg».proof.Proof.Gen.KernelIdeal.Skeleton
import proofs.«153739_j8924942041499_2_alg».proof.Proof.Spec
import Idealize.ShloMosaic.Lib.ValueIdx
import Idealize.ShloMosaic.Lib.Pipeline.Value
import Idealize.ShloMosaic.PureOps.Ideal.Laws
import proofs.«153739_j8924942041499_2_alg».proof.Proof.LibKeepdims
import proofs.«153739_j8924942041499_2_alg».proof.Proof.LibRowReduce
import proofs.«153739_j8924942041499_2_alg».proof.Proof.KI1PayLib

noncomputable section

namespace Cert.KernelIdeal.Pay1

open Cert.KernelIdeal Cert.KernelIdeal.Gen Idealize.ShloMosaic ValueIdx

/-- A block `[1, a, b]` viewed as the matrix `[a, b]` reads `(0, i, j)` at `(i, j)`. -/
theorem shapeCast_1ab_ab_apply {α : Type} {a b : ℕ} (x : (⟨3, ![1, a, b]⟩ : Shape).Idx → α)
    (h : (⟨3, ![1, a, b]⟩ : Shape).ShapeCasts ⟨2, ![a, b]⟩) (u : Fin 1) (i : Fin a) (j : Fin b) :
    shapeCast ⟨2, ![a, b]⟩ x h (ix2 i j) = x (ix3 u i j) :=
  shapeCast_apply x h _ _ (by
    have hu : u.val = 0 := by omega
    rw [Shape.rowMajor_val_three, Shape.rowMajor_val_two]
    show (u.val * a + i.val) * b + j.val = i.val * b + j.val
    rw [hu, Nat.zero_mul, Nat.zero_add])

/-- A comparison "greater than zero" widened to an integer and converted to a float is the indicator of `0 < x`. -/
theorem mask_apply (x : EReal) :
    FloatOps.sitofp (F := Ideal) .f32
        ((FloatOps.cmpf (F := Ideal) .ogt x (Ideal.ofBits .f32 0x00000000#32)).setWidth 32)
      = if 0 < x then 1 else 0 := by
  show ((((BitVec.ofBool (decide (Ideal.ofBits .f32 0x00000000#32 < x))).setWidth 32).toInt : ℝ) : EReal) = _
  rw [Ideal.ofBits_zero_f32]
  by_cases h : 0 < x
  · rw [if_pos h, decide_eq_true h]
    show (((1 : ℤ) : ℝ) : EReal) = 1
    norm_num
  · rw [if_neg h, decide_eq_false h]
    show (((0 : ℤ) : ℝ) : EReal) = 0
    norm_num

/-- A matrix whose rows are divided by their Euclidean norms clamped below by a constant: at `(r, d)` the entry over
    the greater of the root of the row's sum of squares and the constant. -/
theorem rowNormalize_apply {n m : ℕ} (v : FVec Ideal ⟨2, ![n, m]⟩ .f32) (nd : Fin n → Fin m → EReal)
    (hv : ∀ r d, v (ix2 r d) = nd r d) (w : BitVec 32) (acc : BitVec 32)
    (h : (⟨2, ![n, m]⟩ : Shape).Reduces [(1 : Fin 2)] ⟨1, ![n]⟩) (hφ : FKind.Formats .f32)
    (hacc : acc = FKind.add.neutral .f32 hφ)
    (hc : (⟨1, ![n]⟩ : Shape).ShapeCasts ⟨2, ![n, 1]⟩) (hb : (⟨2, ![n, 1]⟩ : Shape).Broadcasts ⟨2, ![n, m]⟩)
    (r : Fin n) (d : Fin m) :
    divf v (broadcastTo ⟨2, ![n, m]⟩
        (maximumf (sqrt (shapeCast ⟨2, ![n, 1]⟩ (multiReduction .add [(1 : Fin 2)] ⟨1, ![n]⟩ (mulf v v) acc h hφ hacc) hc))
          (broadcast ⟨2, ![n, 1]⟩ (Scalar.ofBits (F := Ideal) .f32 w))) hb) (ix2 r d)
      = Ideal.div (nd r d) (max (Ideal.sqrt (∑ k : Fin m, nd r k * nd r k)) (Ideal.ofBits .f32 w)) := by
  refine (divf_apply _ _ _).trans ?_
  refine congrArg₂ Ideal.div (hv r d) ?_
  refine (Cert.LibKeepdims.broadcastTo_a1_ab_apply _ hb r d).trans ?_
  refine (maximumf_apply _ _ _).trans ?_
  refine congrArg₂ (fun a b : EReal => max a b) ?_ rfl
  refine (sqrt_apply _ _).trans ?_
  refine congrArg Ideal.sqrt ?_
  refine (rowSumC_apply _ acc h hφ hacc hc r 0).trans ?_
  refine Finset.sum_congr rfl fun k _ => ?_
  refine (mulf_apply _ _ _).trans ?_
  exact congrArg₂ (fun a b : EReal => a * b) (hv r k) (hv r k)

/-- The dictionary payload is the updated, normalised dictionary. -/
theorem pay_dict (v68 v70 : Vec Ideal S1x1024x512 .f32) (v73 : Vec Ideal S1024x1 .f32)
    (v83 v87 : Vec Ideal S1024x512 .f32) (dw sf : Fin 1024 → Fin 512 → EReal) (cn : Fin 1024 → EReal)
    (h68 : ∀ c d, v68 (ix3 0 c d) + v70 (ix3 0 c d) = sf c d) (h73 : ∀ c, v73 (ix2 c 0) = cn c)
    (h83 : ∀ c d, v83 (ix2 c d) = dw c d) (h87 : ∀ c d, v87 (ix2 c d) = dw c d) (c : Fin 1024) (d : Fin 512) :
    k1_pay4 (F := Ideal) (k1_pay3 v68 v70 v73 v83 v87) (ix2 c d) = Cert.Spec.dictN dw sf cn c d := by
  have h74 : ∀ c : Fin 1024, shapeCast S1024x1 v73 shapeCasts_S1024x1_S1024x1 (ix2 c (0 : Fin 1)) = cn c := fun c =>
    (congrFun (shapeCast_self v73 shapeCasts_S1024x1_S1024x1) _).trans (h73 c)
  delta k1_pay4 k1_pay3
  dsimp only
  refine (congrFun (shapeCast_self _ shapeCasts_S1024x512_S1024x512) _).trans ?_
  refine (truncf_apply (φ := .f32) (ψ := .bf16) _ bitsLt_bf16_f32 (ix2 c d)).trans ?_
  refine rowNormalize_apply _ (Cert.Spec.newDict dw sf cn) (fun c d => ?_) _ _ _ _ _ _ _ c d
  -- the updated dictionary at (c, d)
  refine (addf_apply _ _ _).trans ?_
  refine congrArg₂ (fun a b : EReal => a + b) (h87 c d) ?_
  refine (mulf_apply _ _ _).trans ?_
  refine congrArg₂ (fun a b : EReal => a * b) rfl ?_
  refine (mulf_apply _ _ _).trans ?_
  refine congrArg₂ (fun a b : EReal => a * b) ?_ ?_
  · refine (subf_apply _ _ _).trans ?_
    refine congrArg₂ (fun a b : EReal => a - b) ?_ (h83 c d)
    refine (divf_apply _ _ _).trans ?_
    refine congrArg₂ Ideal.div ?_ ?_
    · refine (addf_apply _ _ _).trans ?_
      refine Eq.trans (congrArg₂ (fun a b : EReal => a + b)
        (shapeCast_1ab_ab_apply v68 _ 0 c d) (shapeCast_1ab_ab_apply v70 _ 0 c d)) (h68 c d)
    · refine (Cert.LibKeepdims.broadcastTo_a1_ab_apply _ _ c d).trans ?_
      refine (addf_apply _ _ _).trans ?_
      exact congrArg₂ (fun a b : EReal => a + b) (h74 c) rfl
  · refine (Cert.LibKeepdims.broadcastTo_a1_ab_apply _ _ c d).trans ?_
    refine (mask_apply _).trans ?_
    rw [h74 c]
    rfl

end Cert.KernelIdeal.Pay1

end
-- ==== Proof.LibDotRhsLast.lean ====
/-
  A matrix product against a right operand contracted on its LAST axis, read at an entry, over the extended reals.

  The product of an [M, K] array x with an [N, K] array w into [M, N] — the second axis of BOTH operands contracted, no
  batch axes, no transpose written out — has at (p, q) the value  Σ_k x(p, k) · w(q, k):  row p of x against row q of w.
  For the device's product into the zero accumulator this is the exact finite sum over the contracted coordinate, and the
  contraction index of a one-axis contraction is that coordinate.
-/
import Idealize.ShloMosaic.Lib.ValueIdx
import Idealize.ShloMosaic.PureOps.Ideal.Laws

namespace Cert.LibDotRhsLast

open Idealize.ShloMosaic Idealize.ShloMosaic.ValueIdx

variable {M K N : ℕ}

/-- The left operand's row coordinate is the result's row coordinate. -/
theorem lhs_row (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column coordinate. -/
theorem rhs_row (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At the k-th contraction coordinate the left operand is read at (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => exact lhs_row _ _
  | ⟨1, _⟩ => exact (lhs_col _ _).trans hk

/-- At the k-th contraction coordinate the right operand is read at (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => exact rhs_row _ _
  | ⟨1, _⟩ => exact (rhs_col _ _).trans hk

/-- The device's product into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    matmul (DotDims.transposedRhs M K N) prec x w (constant (F := Ideal) ⟨2, ![M, N]⟩ .f32 0x00000000#32) (ix2 p q)
      = ∑ k : Fin K, x (ix2 p k) * w (ix2 q k) := by
  refine (Ideal.matmul_constant_zero_apply (DotDims.transposedRhs M K N) prec x w (ix2 p q)).trans ?_
  refine (Equiv.sum_comp (contrEquiv1 (DotDims.transposedRhs M K N) K rfl rfl).symm _).symm.trans ?_
  exact Finset.sum_congr rfl fun k _ => by rw [lhsIdx_eq p q k, rhsIdx_eq p q k]

end Cert.LibDotRhsLast
-- ==== Proof.KI1PayTp.lean ====
/-
  The cross-entropy kernel's target-probability payload read at an entry, over the extended reals: one half of (one
  half of the softmax, along the classes, of the similarities between the normalised features and the normalised
  dictionary, plus one half of the label's indicator).
-/
import proofs.«153739_j8924942041499_2_alg».proof.Proof.Gen.KernelIdeal.Skeleton
import proofs.«153739_j8924942041499_2_alg».proof.Proof.Spec
import Idealize.ShloMosaic.Lib.ValueIdx
import Idealize.ShloMosaic.Lib.Pipeline.Value
import Idealize.ShloMosaic.PureOps.Ideal.Laws
import proofs.«153739_j8924942041499_2_alg».proof.Proof.LibKeepdims
import proofs.«153739_j8924942041499_2_alg».proof.Proof.LibRowReduce
import proofs.«153739_j8924942041499_2_alg».proof.Proof.LibDotRhsLast
import proofs.«153739_j8924942041499_2_alg».proof.Proof.KI1PayLib
import proofs.«153739_j8924942041499_2_alg».proof.Proof.KI1PayDict

noncomputable section

namespace Cert.KernelIdeal.Pay1

open Cert.KernelIdeal Cert.KernelIdeal.Gen Idealize.ShloMosaic ValueIdx

/-- An integer comparison "equal" widened to an integer and converted to a float is the indicator of equality. -/
theorem onehot_apply (x y : BitVec 32) :
    FloatOps.sitofp (F := Ideal) .f32 ((IntOp.cmpi .eq x y).setWidth 32) = if x = y then 1 else 0 := by
  show ((((BitVec.ofBool (x == y)).setWidth 32).toInt : ℝ) : EReal) = _
  by_cases h : x = y
  · rw [if_pos h, beq_iff_eq.mpr h]
    show (((1 : ℤ) : ℝ) : EReal) = 1
    norm_num
  · rw [if_neg h, beq_eq_false_iff_ne.mpr h]
    show (((0 : ℤ) : ℝ) : EReal) = 0
    norm_num

/-- The softmax along the rows: the exponential of the entry less the row's supremum, over the row's sum of those. -/
theorem softmaxRow_apply {n m : ℕ} (v : FVec Ideal ⟨2, ![n, m]⟩ .f32) (s : Fin n → Fin m → EReal)
    (hv : ∀ r c, v (ix2 r c) = s r c) (acc : BitVec 32)
    (h : (⟨2, ![n, m]⟩ : Shape).Reduces [(1 : Fin 2)] ⟨1, ![n]⟩) (hφ : FKind.Formats .f32)
    (hneg : (0xFF800000#32 : BitVec 32) = FKind.maximumf.neutral .f32 hφ) (hφ' : FKind.Formats .f32)
    (hacc : acc = FKind.add.neutral .f32 hφ')
    (hc : (⟨1, ![n]⟩ : Shape).ShapeCasts ⟨2, ![n, 1]⟩) (hb : (⟨2, ![n, 1]⟩ : Shape).Broadcasts ⟨2, ![n, m]⟩)
    (r : Fin n) (c : Fin m) :
    divf (exp (subf v (broadcastTo ⟨2, ![n, m]⟩
          (shapeCast ⟨2, ![n, 1]⟩ (multiReduction .maximumf [(1 : Fin 2)] ⟨1, ![n]⟩ v 0xFF800000#32 h hφ hneg) hc) hb)))
        (broadcastTo ⟨2, ![n, m]⟩ (shapeCast ⟨2, ![n, 1]⟩ (multiReduction .add [(1 : Fin 2)] ⟨1, ![n]⟩
          (exp (subf v (broadcastTo ⟨2, ![n, m]⟩
            (shapeCast ⟨2, ![n, 1]⟩ (multiReduction .maximumf [(1 : Fin 2)] ⟨1, ![n]⟩ v 0xFF800000#32 h hφ hneg) hc) hb)))
          acc h hφ' hacc) hc) hb) (ix2 r c)
      = Ideal.div (Ideal.exp (s r c - Finset.univ.sup fun k : Fin m => s r k))
          (∑ k : Fin m, Ideal.exp (s r k - Finset.univ.sup fun k' : Fin m => s r k')) := by
  have hexp : ∀ k : Fin m, exp (subf v (broadcastTo ⟨2, ![n, m]⟩
        (shapeCast ⟨2, ![n, 1]⟩ (multiReduction .maximumf [(1 : Fin 2)] ⟨1, ![n]⟩ v 0xFF800000#32 h hφ hneg) hc) hb)) (ix2 r k)
      = Ideal.exp (s r k - Finset.univ.sup fun k' : Fin m => s r k') := fun k => by
    refine (exp_apply _ _).trans ?_
    refine congrArg Ideal.exp ?_
    refine (subf_apply _ _ _).trans ?_
    refine congrArg₂ (fun a b : EReal => a - b) (hv r k) ?_
    exact (rowMaxB_apply v h hφ hneg hc hb r k).trans (congrArg Finset.univ.sup (funext fun k' => hv r k'))
  refine (divf_apply _ _ _).trans ?_
  refine congrArg₂ Ideal.div (hexp c) ?_
  refine (Cert.LibKeepdims.broadcastTo_a1_ab_apply _ hb r c).trans ?_
  refine (rowSumC_apply _ acc h hφ' hacc hc r 0).trans ?_
  exact Finset.sum_congr rfl fun k _ => hexp k

/-- The target-probability payload is the mixed target probability of the tile's rows. -/
theorem pay_tp (v3 : Vec Ideal S512x512 .f32) (v13 : Vec Ideal S1024x512 .bf16) (v24 : Vec Ideal S512x1 .i32)
    (feat : Fin 8192 → Fin 512 → EReal) (dw sf : Fin 1024 → Fin 512 → EReal) (cn : Fin 1024 → EReal)
    (tgt : Fin 8192 → BitVec 32) (rowOf : Fin 512 → Fin 8192)
    (h3 : ∀ r d, v3 (ix2 r d) = feat (rowOf r) d) (h13 : ∀ c d, v13 (ix2 c d) = Cert.Spec.dictN dw sf cn c d)
    (h24 : ∀ r, v24 (ix2 r 0) = tgt (rowOf r)) (r : Fin 512) (c : Fin 1024) :
    k1_pay5 (F := Ideal) v3 v13 v24 (ix2 r c) = Cert.Spec.tp feat dw tgt sf cn (rowOf r) c := by
  delta k1_pay5
  dsimp only
  refine (mulf_apply _ _ _).trans ?_
  refine congrArg₂ (fun a b : EReal => a * b) rfl ?_
  refine (addf_apply _ _ _).trans ?_
  refine congrArg₂ (fun a b : EReal => a + b) ?_ ?_
  · refine (mulf_apply _ _ _).trans ?_
    refine congrArg₂ (fun a b : EReal => a * b) rfl ?_
    -- the softmax of the similarities
    refine softmaxRow_apply _ (fun r c => Cert.Spec.simi feat dw sf cn (rowOf r) c) (fun r c => ?_) _ _ _ _ _ _ _ _ r c
    -- a similarity: row r of the normalised features against row c of the normalised dictionary
    refine (Cert.LibDotRhsLast.matmul_zero_apply (φ₁ := .bf16) (φ₂ := .bf16) none _ _ r c).trans ?_
    refine Finset.sum_congr rfl fun k _ => ?_
    refine congrArg₂ (fun a b : EReal => a * b) ?_ (h13 c k)
    refine (truncf_apply (φ := .f32) (ψ := .bf16) _ bitsLt_bf16_f32 (ix2 r k)).trans ?_
    exact rowNormalize_apply v3 (fun r d => feat (rowOf r) d) h3 _ _ _ _ _ _ _ r k
  · refine (mulf_apply _ _ _).trans ?_
    refine congrArg₂ (fun a b : EReal => a * b) rfl ?_
    -- the label's indicator
    refine (onehot_apply _ _).trans ?_
    have e1 : broadcastTo S512x1024 (shapeCast S512x1 v24 shapeCasts_S512x1_S512x1) broadcasts_S512x1_S512x1024 (ix2 r c)
        = tgt (rowOf r) :=
      (Cert.LibKeepdims.broadcastTo_a1_ab_apply _ _ r c).trans
        ((congrFun (shapeCast_self v24 shapeCasts_S512x1_S512x1) _).trans (h24 r))
    have e2 : iota .tc S512x1024 32 [1] iota_S512x1024_d1_w32 (ix2 r c) = BitVec.ofNat 32 c.val :=
      iota_single_apply .tc S512x1024 32 1 iota_S512x1024_d1_w32 (ix2 r c)
    rw [e1, e2]
    rfl

end Cert.KernelIdeal.Pay1

end
-- ==== Proof.KI1Pay.lean ====
/-
  The cross-entropy kernel's payloads read at an index, over the extended reals: the zero payload and the loss
  payload, the dictionary payload, the target-probability payload.
-/
import proofs.«153739_j8924942041499_2_alg».proof.Proof.KI1PayLoss
import proofs.«153739_j8924942041499_2_alg».proof.Proof.KI1PayDict
import proofs.«153739_j8924942041499_2_alg».proof.Proof.KI1PayTp
-- ==== Proof.KI1Chain.lean ====
/-
  The second kernel region at the ideal values, point by point: after every grid point the scratch holds the normalised
  dictionary (built from the staged statistics and the old dictionary) and the loss cell holds the running loss of the
  current half — restarted at tile 0, each tile adding its 512 rows' losses; by induction on the point over the two
  cases' payloads read at coordinates.
-/
import proofs.«153739_j8924942041499_2_alg».proof.Proof.KI1Value
import proofs.«153739_j8924942041499_2_alg».proof.Proof.KI1Blocks
import proofs.«153739_j8924942041499_2_alg».proof.Proof.KI1Pay
import proofs.«153739_j8924942041499_2_alg».proof.Proof.Spec
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay1 (pay_loss pay_dict pay_tp)

open Idealize.ShloMosaic.ValueIdx

variable (V : (c : Dev nD) → (b : Ref sig .tc) → Buf (Elt Ideal) ((c : Thread nD τ).loc b)) (c : Dev nD)

/-- The region's arrays read at coordinates. -/
def predV (b : Fin 8192) (q : Fin 1024) : EReal := (V c main_arg0 : FVec Ideal S8192x1024 .f32) (ix2 b q)
def featV (b : Fin 8192) (d : Fin 512) : EReal := (V c main_arg1 : FVec Ideal S8192x512 .f32) (ix2 b d)
def dwV (p : Fin 1024) (d : Fin 512) : EReal := (V c main_arg2 : FVec Ideal S1024x512 .f32) (ix2 p d)
def tgtV (b : Fin 8192) : BitVec 32 := (V c main_v0 : IVec S8192x1 32) (ix2 b 0)
def sfHalf (k : Fin 2) (p : Fin 1024) (d : Fin 512) : EReal := (V c main_v1_0 : FVec Ideal S2x1024x512 .f32) (ix3 k p d)
def sfV (p : Fin 1024) (d : Fin 512) : EReal := sfHalf V c 0 p d + sfHalf V c 1 p d
def cnV (p : Fin 1024) : EReal := (V c main_v3 : FVec Ideal S1024x1 .f32) (ix2 p 0)

/-- One tile's loss: its 512 rows, each row's class-sum subtracted from zero. -/
def tile (n : ℕ) (hn : n < cfg1.N) : EReal :=
  ∑ r : Fin 512, (0 - ∑ q : Fin 1024,
    Cert.Spec.tp (featV V c) (dwV V c) (tgtV V c) (sfV V c) (cnV V c) (rowT ⟨n, hn⟩ r) q * Cert.Spec.lp (predV V c) (rowT ⟨n, hn⟩ r) q)

/-- The loss cell after point `n`: restarted from zero at tile 0 of a half, else the cell before plus the tile. -/
def lossChain : (n : ℕ) → n < cfg1.N → EReal
  | 0, h => 0 + tile V c 0 h
  | n + 1, h => if (n + 1) % 8 = 0 then 0 + tile V c (n + 1) h else lossChain n (Nat.lt_of_succ_lt h) + tile V c (n + 1) h

/-- The two halves of the staged feature sums, loaded through their rectangles, read at coordinates. -/
theorem ld_half0 (x2 : Vec Ideal S2x1024x512 .f32) (p : Fin 1024) (d : Fin 512) :
    (View.ld x2 (Rect.unit (s := S2x1024x512) ![0, 0, 0] S1x1024x512.size inb_S2x1024x512_S1x1024x512_0_0_0)) (ix3 0 p d) = x2 (ix3 0 p d) := by
  show x2 _ = x2 _
  refine congrArg x2 ?_
  funext a
  apply Fin.ext
  match a with
  | ⟨0, _⟩ => rfl
  | ⟨1, _⟩ => show 0 + 1 * p.val = p.val; omega
  | ⟨2, _⟩ => show 0 + 1 * d.val = d.val; omega
theorem ld_half1 (x2 : Vec Ideal S2x1024x512 .f32) (p : Fin 1024) (d : Fin 512) :
    (View.ld x2 (Rect.unit (s := S2x1024x512) ![1, 0, 0] S1x1024x512.size inb_S2x1024x512_S1x1024x512_1_0_0)) (ix3 0 p d) = x2 (ix3 1 p d) := by
  show x2 _ = x2 _
  refine congrArg x2 ?_
  funext a
  apply Fin.ext
  match a with
  | ⟨0, _⟩ => rfl
  | ⟨1, _⟩ => show 0 + 1 * p.val = p.val; omega
  | ⟨2, _⟩ => show 0 + 1 * d.val = d.val; omega

/-- Tile 0's dictionary payload of the staged statistics is the normalised dictionary. -/
theorem dict_of_blocks (t : Fin cfg1.N) (p : Fin 1024) (d : Fin 512) :
    k1_pay4 (F := Ideal) (k1_pay3 (View.ld (iblk1 V c 2 t : Vec Ideal S2x1024x512 .f32) (Rect.unit (s := S2x1024x512) ![0, 0, 0] S1x1024x512.size inb_S2x1024x512_S1x1024x512_0_0_0))
        (View.ld (iblk1 V c 2 t : Vec Ideal S2x1024x512 .f32) (Rect.unit (s := S2x1024x512) ![1, 0, 0] S1x1024x512.size inb_S2x1024x512_S1x1024x512_1_0_0))
        (iblk1 V c 3 t) (iblk1 V c 4 t) (iblk1 V c 4 t)) (ix2 p d)
      = Cert.Spec.dictN (dwV V c) (sfV V c) (cnV V c) p d :=
  pay_dict _ _ (iblk1 V c 3 t) (iblk1 V c 4 t) (iblk1 V c 4 t) (dwV V c) (sfV V c) (cnV V c)
    (fun p d => by rw [ld_half0, ld_half1, iblk1_2_apply, iblk1_2_apply]; rfl)
    (fun p => (iblk1_3_apply V c t p 0).trans rfl)
    (fun p d => (iblk1_4_apply V c t p d).trans rfl) (fun p d => (iblk1_4_apply V c t p d).trans rfl) p d

/-- What the cell and the scratch hold after point `n`: the running loss of the half so far, and the normalised
    dictionary — by induction on the point. -/
theorem outsAt_eq : ∀ (n : ℕ) (h : n < cfg1.N),
    (outsAt1 V c n h).1 (ix3 0 0 0) = lossChain V c n h
      ∧ ∀ p d, (outsAt1 V c n h).2 (ix2 p d) = Cert.Spec.dictN (dwV V c) (sfV V c) (cnV V c) p d
  | 0, h => by
    rw [outsAt1_A V c ⟨0, h⟩ rfl, out_A, sout_A]
    refine ⟨?_, fun p d => dict_of_blocks V c ⟨0, h⟩ p d⟩
    refine (pay_loss _ (iblk1 V c 0 ⟨0, h⟩) _ (predV V c) (Cert.Spec.tp (featV V c) (dwV V c) (tgtV V c) (sfV V c) (cnV V c)) (rowT ⟨0, h⟩)
      (fun r q => pay_tp (iblk1 V c 1 ⟨0, h⟩) _ (iblk1 V c 5 ⟨0, h⟩) (featV V c) (dwV V c) (sfV V c) (cnV V c) (tgtV V c) (rowT ⟨0, h⟩)
        (fun r d => (iblk1_1_apply V c ⟨0, h⟩ r d).trans rfl) (fun p d => dict_of_blocks V c ⟨0, h⟩ p d) (fun r => (iblk1_5_apply V c ⟨0, h⟩ r 0).trans rfl) r q)
      (fun r q => (iblk1_0_apply V c ⟨0, h⟩ r q).trans rfl)).trans ?_
    rw [Cert.KernelIdeal.Pay1.pay_zero]; rfl
  | n + 1, h => by
    obtain ⟨ih1, ih2⟩ := outsAt_eq n (Nat.lt_of_succ_lt h)
    by_cases h0 : (n + 1) % 8 = 0
    · rw [outsAt1_A V c ⟨n + 1, h⟩ h0, out_A, sout_A]
      refine ⟨?_, fun p d => dict_of_blocks V c ⟨n + 1, h⟩ p d⟩
      refine (pay_loss _ (iblk1 V c 0 ⟨n + 1, h⟩) _ (predV V c) (Cert.Spec.tp (featV V c) (dwV V c) (tgtV V c) (sfV V c) (cnV V c)) (rowT ⟨n + 1, h⟩)
        (fun r q => pay_tp (iblk1 V c 1 ⟨n + 1, h⟩) _ (iblk1 V c 5 ⟨n + 1, h⟩) (featV V c) (dwV V c) (sfV V c) (cnV V c) (tgtV V c) (rowT ⟨n + 1, h⟩)
          (fun r d => (iblk1_1_apply V c ⟨n + 1, h⟩ r d).trans rfl) (fun p d => dict_of_blocks V c ⟨n + 1, h⟩ p d) (fun r => (iblk1_5_apply V c ⟨n + 1, h⟩ r 0).trans rfl) r q)
        (fun r q => (iblk1_0_apply V c ⟨n + 1, h⟩ r q).trans rfl)).trans ?_
      rw [Cert.KernelIdeal.Pay1.pay_zero]; show _ = lossChain V c (n + 1) h; rw [lossChain, if_pos h0]; rfl
    · have hB : ¬(⟨n + 1, h⟩ : Fin cfg1.N).val % 8 = 0 := h0
      rw [outsAt1_B V c ⟨n + 1, h⟩ hB, out_B]
      refine ⟨?_, ih2⟩
      refine (pay_loss _ (iblk1 V c 0 ⟨n + 1, h⟩) _ (predV V c) (Cert.Spec.tp (featV V c) (dwV V c) (tgtV V c) (sfV V c) (cnV V c)) (rowT ⟨n + 1, h⟩)
        (fun r q => pay_tp (iblk1 V c 1 ⟨n + 1, h⟩) _ (iblk1 V c 5 ⟨n + 1, h⟩) (featV V c) (dwV V c) (sfV V c) (cnV V c) (tgtV V c) (rowT ⟨n + 1, h⟩)
          (fun r d => (iblk1_1_apply V c ⟨n + 1, h⟩ r d).trans rfl) ih2 (fun r => (iblk1_5_apply V c ⟨n + 1, h⟩ r 0).trans rfl) r q)
        (fun r q => (iblk1_0_apply V c ⟨n + 1, h⟩ r q).trans rfl)).trans ?_
      show _ = lossChain V c (n + 1) h
      rw [lossChain, if_neg h0]
      exact congrArg (· + tile V c (n + 1) h) ih1

end Cert.KernelIdeal.Hand1

end
-- ==== Proof.KI1Final.lean ====
/-
  The second kernel region at the ideal values, its result array: the last tile of each half is the one point that
  writes the half's loss cell back, so the array ends with each half's running loss after its last tile, and that
  running loss is the sum of the half's eight tiles.
-/
import proofs.«153739_j8924942041499_2_alg».proof.Proof.KI1Chain

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b)) (c : Dev nD)

/-- The loss window's block index at point `t` is the half `t / 8`; its block is one cell. -/
theorem idx1_6 : ∀ t : Fin cfg1.N, win1_6.index t (0 : Fin 3) = t.val / 8 ∧ win1_6.index t (1 : Fin 3) = 0 ∧ win1_6.index t (2 : Fin 3) = 0 :=
  (by decide +kernel : ∀ t : Fin grid1.N, win1_6.index t (0 : Fin 3) = t.val / 8 ∧ win1_6.index t (1 : Fin 3) = 0 ∧ win1_6.index t (2 : Fin 3) = 0)
theorem xsize1_6 : ∀ t : Fin cfg1.N, ∀ a : Fin 3, win1_6.xsize (grid1.coords t) a = 1 :=
  (by decide +kernel : ∀ t : Fin grid1.N, ∀ a : Fin 3, win1_6.xsize (grid1.coords t) a = 1)

theorem lossChain_congr {n n' : ℕ} (e : n = n') (h : n < cfg1.N) (h' : n' < cfg1.N) : lossChain V c n h = lossChain V c n' h' := by
  subst e; rfl

/-- The loss array after the region: half `k`'s cell holds the running loss after the half's last tile. -/
def lossArr (j : S2x1x1.Idx) : EReal :=
  lossChain V c (8 * (j 0).val + 7) (by have : (j 0).val < 2 := (j 0).isLt; rw [show cfg1.N = 16 from N_1]; omega)

/-- The write-back after the last tile of a half writes that half's cell. -/
theorem flushed_eq (t : Fin cfg1.N) (hf : (cfg1.win 6).flush t = true) :
    (dat1 V c).flushed 6 t = ((cfg1.win 6).blk t).view.read (Elt Ideal) (lossArr V c) := by
  have hN : t.val < 16 := lt_of_lt_of_eq t.isLt (show cfg1.N = 16 from N_1)
  have h7 : t.val % 8 = 7 := (flush1_6 t).mp hf
  show (cfg1.win 6).cut (grid1.coords t) ((dat1 V c).after 6 t) = _
  rw [after1_6]
  funext y
  show (outsAt1 V c t.val t.isLt).1 y = lossArr V c (((cfg1.win 6).blk t).view.emb y)
  have hy : (y : S1x1x1.Idx) = ix3 0 0 0 := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => show (y 2).val = 0; have : (y 2).val < 1 := (y 2).isLt; omega
  rw [show (outsAt1 V c t.val t.isLt).1 y = (outsAt1 V c t.val t.isLt).1 (ix3 0 0 0) from congrArg _ hy, (outsAt_eq V c t.val t.isLt).1]
  unfold lossArr
  refine lossChain_congr V c ?_ _ _
  show t.val = 8 * (win1_6.index t 0 * 1 + 1 * (y 0).val) + 7
  have : (y 0).val < 1 := (y 0).isLt
  rw [(idx1_6 t).1]; omega

/-- Every cell of the loss array is written back by the last tile of its half. -/
theorem cover6 (j : S2x1x1.Idx) : ∃ t : Fin cfg1.N, (cfg1.win 6).flush t = true ∧ j ∈ ((cfg1.win 6).blk t).view.set := by
  have hj0 : (j 0).val < 2 := (j 0).isLt
  have hj1 : (j 1).val < 1 := (j 1).isLt
  have hj2 : (j 2).val < 1 := (j 2).isLt
  have ht : 8 * (j 0).val + 7 < cfg1.N := by rw [show cfg1.N = 16 from N_1]; omega
  refine ⟨⟨8 * (j 0).val + 7, ht⟩, (flush1_6 _).mpr (by show (8 * (j 0).val + 7) % 8 = 7; omega), ?_⟩
  generalize htt : (⟨8 * (j 0).val + 7, ht⟩ : Fin cfg1.N) = t
  have htv : t.val = 8 * (j 0).val + 7 := by rw [← htt]
  show j ∈ ((View.whole main_v4).slice (win1_6.rect t)).set
  rw [View.set_slice_whole, Rect.mem_set_unit]
  intro a
  match a with
  | ⟨0, _⟩ =>
    show win1_6.index t 0 * 1 ≤ (j 0 : ℕ) ∧ (j 0 : ℕ) < win1_6.index t 0 * 1 + win1_6.xsize (grid1.coords t) 0
    rw [(idx1_6 t).1, xsize1_6 t 0]; rw [htv]; omega
  | ⟨1, _⟩ =>
    show win1_6.index t 1 * 1 ≤ (j 1 : ℕ) ∧ (j 1 : ℕ) < win1_6.index t 1 * 1 + win1_6.xsize (grid1.coords t) 1
    rw [(idx1_6 t).2.1, xsize1_6 t 1]; omega
  | ⟨2, _⟩ =>
    show win1_6.index t 2 * 1 ≤ (j 2 : ℕ) ∧ (j 2 : ℕ) < win1_6.index t 2 * 1 + win1_6.xsize (grid1.coords t) 2
    rw [(idx1_6 t).2.2, xsize1_6 t 2]; omega

/-- So the loss array ends holding each half's running loss after its last tile. -/
theorem final6 : (dat1 V c).arrAt 6 cfg1.N = lossArr V c :=
  (dat1 V c).arrAt_eq_of_cover 6 (lossArr V c) (fun t hf => flushed_eq V c t hf) (cover6)

/-! ## The running loss is the sum of the half's tiles -/

theorem lossChain_start (n : ℕ) (h : n < cfg1.N) (h0 : n % 8 = 0) : lossChain V c n h = 0 + tile V c n h := by
  cases n with
  | zero => rfl
  | succ n => show (if (n + 1) % 8 = 0 then _ else _) = _; rw [if_pos h0]

theorem lossChain_step (n : ℕ) (h : n + 1 < cfg1.N) (h0 : ¬(n + 1) % 8 = 0) :
    lossChain V c (n + 1) h = lossChain V c n (Nat.lt_of_succ_lt h) + tile V c (n + 1) h := by
  show (if (n + 1) % 8 = 0 then _ else _) = _; rw [if_neg h0]

/-- A tile's loss by its position alone (zero past the grid). -/
def tileN (n : ℕ) : EReal := if h : n < cfg1.N then tile V c n h else 0

theorem lossChain_sum (k : ℕ) : ∀ (i : ℕ) (h : 8 * k + i < cfg1.N), i < 8 →
    lossChain V c (8 * k + i) h = ∑ j ∈ Finset.range (i + 1), tileN V c (8 * k + j)
  | 0, h, _ => by
    rw [lossChain_start V c _ h (by omega), zero_add, Finset.sum_range_one, tileN, dif_pos h]
  | i + 1, h, hi => by
    have h' : 8 * k + i < cfg1.N := by omega
    rw [show lossChain V c (8 * k + (i + 1)) h = lossChain V c ((8 * k + i) + 1) h from rfl,
      lossChain_step V c (8 * k + i) h (by omega), lossChain_sum k i h' (by omega), Finset.sum_range_succ _ (i + 1)]
    congr 1
    rw [tileN, dif_pos (show 8 * k + (i + 1) < cfg1.N from h)]
    rfl

end Cert.KernelIdeal.Hand1

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KI0Value.lean ====
/-
  The VALUES of the first kernel region (the dictionary-update kernel) over the extended reals.

  On a grid of 2 halves × 4 tiles the kernel zero-fills two accumulators at the first tile of a half and at every tile
  adds, with `oh r cc` the indicator that row `r` of the labels tile carries class `cc`:
    counts[cc]      += Σ_r oh r cc               (a column sum of the one-hot matrix)
    sums[cc, d]     += Σ_r oh r cc · feat r d    (the transposed one-hot matrix times the features tile)
  The accumulators are written back after the fourth tile of each half. So the result arrays end at
    sums[k, cc, d]  = Σ_{i<4} Σ_{r<1024} oh(row4 k i r, cc) · feat(row4 k i r, d)
    counts[k, 0, cc] = Σ_{i<4} Σ_{r<1024} oh(row4 k i r, cc)
  Steps: what each case of the body leaves is the payload of the blocks (any float values); the payloads at an index
  over the extended reals (the one-hot entry, the column sum, the product over its one contracted axis; the narrowing
  to bf16 is the identity there); the running sums by induction on the point; the tiles as rows of the arrays; the
  write-backs cover the arrays.
-/
import proofs.«153739_j8924942041499_2_alg».proof.Proof.KI0Frame
import proofs.«153739_j8924942041499_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«153739_j8924942041499_2_alg».proof.Proof.LibDotSingle
import proofs.«153739_j8924942041499_2_alg».proof.Proof.LibIdxSums
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case leaves, as the body's arithmetic of the blocks (any float values) -/

/-- A later point of a run leaves, in the feature-sums buffer holding `xo2`, `xo2` plus the product of the tile's
    transposed one-hot matrix with the features tile: its one covering store's payload, whose loads read whole buffers. -/
theorem out_B_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i) (x0 : Vec F S1024x512 .f32) (x1 : Vec F S1024x1 .i32) (xo2 : Vec F S1x1024x512 .f32) (xo3 : Vec F S1x1x1024 .f32) :
    out0_B_2 c i arg2 harg2 arg3 harg3 arg4 harg4 arg5 harg5 hc0 x0 x1 xo2 xo3 = k0_pay5 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, View.ld_unit_zero (S := S1024x512) hz2, View.ld_unit_zero (S := S1024x1) hz2, View.ld_unit_zero (S := S1x1024x512) hz3]

/-- and in the counts buffer holding `xo3`, `xo3` plus the column sums of the tile's one-hot matrix. -/
theorem out_B_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : ¬cond0_0 i) (x0 : Vec F S1024x512 .f32) (x1 : Vec F S1024x1 .i32) (xo2 : Vec F S1x1024x512 .f32) (xo3 : Vec F S1x1x1024 .f32) :
    out0_B_3 c i arg2 harg2 arg3 harg3 arg4 harg4 arg5 harg5 hc0 x0 x1 xo2 xo3 = k0_pay4 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_unit_zero hz3]
  simp only [View.readAt_eq_ld, harg3.read_unread, harg5.read_unread, View.ld_unit_zero (S := S1024x1) hz2, View.ld_unit_zero (S := S1x1x1024) hz3]

/-- The first point of a run stores the zero block, reads it back, and leaves the same arithmetic over the zero block. -/
theorem out_A_2 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i) (x0 : Vec F S1024x512 .f32) (x1 : Vec F S1024x1 .i32) :
    out0_A_2 c i arg2 harg2 arg3 harg3 arg4 harg4 arg5 harg5 hc0 x0 x1 = k0_pay5 x1 x0 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1024x512) hz3, View.readCov_unit_zero (S := S1x1024x512) _ hz3]
  simp only [View.readAt_eq_ld, harg2.read_unread, harg3.read_unread, View.ld_unit_zero (S := S1024x512) hz2, View.ld_unit_zero (S := S1024x1) hz2]

theorem out_A_3 (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1x1024x512 .f32) (harg4 : arg4.IsWhole) (arg5 : Memref sig .tc .vmem S1x1x1024 .f32) (harg5 : arg5.IsWhole) (hc0 : cond0_0 i) (x0 : Vec F S1024x512 .f32) (x1 : Vec F S1024x1 .i32) :
    out0_A_3 c i arg2 harg2 arg3 harg3 arg4 harg4 arg5 harg5 hc0 x0 x1 = k0_pay4 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1024) hz3, View.readCov_unit_zero (S := S1x1x1024) _ hz3]
  simp only [View.readAt_eq_ld, harg3.read_unread, View.ld_unit_zero (S := S1024x1) hz2]

/-! ## The body's arithmetic at an index, over the extended reals -/

section AtIdeal
open Idealize.ShloMosaic.ValueIdx

/-- The tile's label indicator: 1 where row `r` of the labels tile carries class `cc`, else 0. -/
def ohT (x1 : Vec Ideal S1024x1 .i32) (r : Fin 1024) (cc : Fin 1024) : EReal :=
  if x1 (ix2 r 0) = BitVec.ofNat 32 cc.val then 1 else 0

/-- An equality test widened to 32 bits and converted to a float is the indicator of the equality. -/
theorem sitofp_eq_indicator (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    rw [if_pos rfl]
    have e : (IntOp.cmpi .eq a a).setWidth 32 = 1#32 := by
      unfold IntOp.cmpi
      simp
    rw [e]
    norm_num
  · rw [if_neg h]
    have hb : (a == b) = false := by simpa using h
    have e : (IntOp.cmpi .eq a b).setWidth 32 = 0#32 := by
      unfold IntOp.cmpi
      simp only [hb]
      rfl
    rw [e]
    norm_num

/-- The one-hot matrix of the labels tile at (row, class). -/
theorem pay3_apply (x1 : Vec Ideal S1024x1 .i32) (r cc : Fin 1024) :
    k0_pay3 (F := Ideal) x1 (ix2 r cc) = ohT x1 r cc := by
  unfold k0_pay3 ohT
  show FloatOps.sitofp (F := Ideal) .f32 ((IntOp.cmpi .eq (broadcastTo S1024x1024 (shapeCast S1024x1 x1 shapeCasts_S1024x1_S1024x1) broadcasts_S1024x1_S1024x1024 (ix2 r cc)) (iota .tc S1024x1024 32 [1] iota_S1024x1024_d1_w32 (ix2 r cc))).setWidth 32) = _
  have e1 : broadcastTo S1024x1024 (shapeCast S1024x1 x1 shapeCasts_S1024x1_S1024x1) broadcasts_S1024x1_S1024x1024 (ix2 r cc) = x1 (ix2 r 0) :=
    (broadcastTo_apply (shapeCast S1024x1 x1 shapeCasts_S1024x1_S1024x1) broadcasts_S1024x1_S1024x1024 (ix2 r cc) (ix2 r 0)
      (fun a => by match a with | ⟨0, _⟩ => rfl | ⟨1, _⟩ => rfl)).trans (congrFun (shapeCast_self x1 shapeCasts_S1024x1_S1024x1) _)
  have e2 : iota .tc S1024x1024 32 [1] iota_S1024x1024_d1_w32 (ix2 r cc) = BitVec.ofNat 32 cc.val :=
    iota_single_apply .tc S1024x1024 32 1 iota_S1024x1024_d1_w32 (ix2 r cc)
  rw [e1, e2]
  exact sitofp_eq_indicator _ _

/-- Over class `cc`, the operand index of the column reduction with first coordinate `k` is `(k, cc)`. -/
theorem lift_col (h : S1024x1024.Reduces [(0 : Fin 2)] S1024) (cc : Fin 1024) (k : Fin 1024) :
    h.lift (ix1 cc) k = ix2 k cc := by
  funext c
  apply Fin.ext
  show h.liftVal (ix1 cc) k.val c = (ix2 k cc c).val
  unfold Shape.Reduces.liftVal
  match c with
  | ⟨0, _⟩ => rw [dif_pos (by simp)]
  | ⟨1, _⟩ => rw [dif_neg (by simp), dif_neg (by simp)]; rfl

/-- The counts payload at class `cc`: the running count plus the number of rows of the tile labelled `cc`. -/
theorem pay4_apply (x1 : Vec Ideal S1024x1 .i32) (acc : Vec Ideal S1x1x1024 .f32) (cc : Fin 1024) :
    k0_pay4 (F := Ideal) x1 acc (ix3 0 0 cc) = acc (ix3 0 0 cc) + ∑ r : Fin 1024, ohT x1 r cc := by
  unfold k0_pay4
  refine (shapeCast_ab_1ab_apply _ shapeCasts_S1x1024_S1x1x1024 0 0 cc).trans ?_
  refine congrArg₂ (· + ·) (shapeCast_1ab_ab_apply acc shapeCasts_S1x1x1024_S1x1024 0 cc) ?_
  refine (shapeCast_a_1a_apply _ shapeCasts_S1024_S1x1024 0 cc).trans ?_
  refine (Ideal.multiReduction_add_single (k0_pay3 (F := Ideal) x1) 0x00000000#32 reduces_S1024x1024_S1024 (.inl rfl) rfl (ix1 cc)).trans ?_
  exact Finset.sum_congr rfl fun r _ => (congrArg (k0_pay3 (F := Ideal) x1) (lift_col reduces_S1024x1024_S1024 cc r)).trans (pay3_apply x1 r cc)

/-- The matrix product's dimension numbers: both operands contracted on their first axis. -/
abbrev D0 := dot_S1024x1024_S1024x512_S1024x512_0_0_1_1_n_n

theorem D0_rank : D0.contr.rank = 1 := rfl
theorem D0_size : D0.contr.size ⟨0, by have := D0_rank; omega⟩ = 1024 := rfl

/-- The left operand's second coordinate is the result's first … -/
theorem D0_lhs_1 (j : S1024x512.Idx) (q : D0.contr.Idx) : (D0.lhsIdx j q 1).val = (j 0).val := by
  unfold DotDims.lhsIdx
  rw [dif_neg (show ¬(1 : Fin S1024x1024.rank) ∈ D0.lhsBatch from List.not_mem_nil),
    dif_pos (show (1 : Fin S1024x1024.rank) ∈ D0.lhsNonContracting from List.mem_singleton.mpr rfl)]
  rfl

/-- … and the right operand's second coordinate is the result's second. -/
theorem D0_rhs_1 (j : S1024x512.Idx) (q : D0.contr.Idx) : (D0.rhsIdx j q 1).val = (j 1).val := by
  unfold DotDims.rhsIdx
  rw [dif_neg (show ¬(1 : Fin S1024x512.rank) ∈ D0.rhsBatch from List.not_mem_nil),
    dif_pos (show (1 : Fin S1024x512.rank) ∈ D0.rhsNonContracting from List.mem_singleton.mpr rfl)]
  rfl

/-- At the `k`-th contraction coordinate the left operand (the one-hot matrix) is read at (k, cc) … -/
theorem D0_lhs (cc : Fin 1024) (d : Fin 512) (k : Fin 1024) :
    D0.lhsIdx (ix2 cc d) ((contrEquiv1 D0 1024 D0_rank D0_size).symm k) = ix2 k cc := by
  have hk := contrEquiv1_symm_val D0 1024 D0_rank D0_size k
  funext a
  apply Fin.ext
  match a with
  | ⟨0, _⟩ => exact (D0.lhsIdx_val_of_single rfl _ _).trans hk
  | ⟨1, _⟩ => exact D0_lhs_1 _ _

/-- … and the right operand (the features tile) at (k, d). -/
theorem D0_rhs (cc : Fin 1024) (d : Fin 512) (k : Fin 1024) :
    D0.rhsIdx (ix2 cc d) ((contrEquiv1 D0 1024 D0_rank D0_size).symm k) = ix2 k d := by
  have hk := contrEquiv1_symm_val D0 1024 D0_rank D0_size k
  funext a
  apply Fin.ext
  match a with
  | ⟨0, _⟩ => exact (D0.rhsIdx_val_of_single rfl _ _).trans hk
  | ⟨1, _⟩ => exact D0_rhs_1 _ _

/-- The feature-sums payload at (class, feature): the running sum plus the tile's rows labelled `cc`, their feature
    `d` summed (the narrowing to bf16 is the identity over the extended reals). -/
theorem pay5_apply (x1 : Vec Ideal S1024x1 .i32) (x0 : Vec Ideal S1024x512 .f32) (acc : Vec Ideal S1x1024x512 .f32)
    (cc : Fin 1024) (d : Fin 512) :
    k0_pay5 (F := Ideal) x1 x0 acc (ix3 0 cc d) = acc (ix3 0 cc d) + ∑ r : Fin 1024, ohT x1 r cc * x0 (ix2 r d) := by
  unfold k0_pay5
  refine (shapeCast_ab_1ab_apply _ shapeCasts_S1024x512_S1x1024x512 0 cc d).trans ?_
  refine congrArg₂ (· + ·) (shapeCast_1ab_ab_apply acc shapeCasts_S1x1024x512_S1024x512 cc d) ?_
  refine (Cert.LibDotSingle.matmul_zero_apply D0 1024 D0_rank D0_size none _ _ (ix2 cc d) (fun k => ix2 k cc) (fun k => ix2 k d)
    (D0_lhs cc d) (D0_rhs cc d)).trans ?_
  exact Finset.sum_congr rfl fun r _ => congrArg (· * x0 (ix2 r d)) (pay3_apply x1 r cc)

end AtIdeal

/-! ## The accumulators point by point, as the body's arithmetic (any float values) -/

section Points
variable (V : (c : Dev nD) → (b : Ref sig .tc) → Buf (Elt F) ((c : Thread nD τ).loc b))

/-- At the first point of a run the feature-sums buffer ends at the payload over the zero block … -/
theorem outs2_A (c : Dev nD) (t : Fin cfg0.N) (h0 : t.val % 4 = 0) :
    (outsAt0 V c t.val t.isLt).1 = k0_pay5 (iblk0 V c 1 t) (iblk0 V c 0 t) k0_pay1 := by
  rw [outsAt0_A V c t h0]
  dsimp only
  exact out_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)

/-- … and the counts buffer likewise; -/
theorem outs3_A (c : Dev nD) (t : Fin cfg0.N) (h0 : t.val % 4 = 0) :
    (outsAt0 V c t.val t.isLt).2 = k0_pay4 (iblk0 V c 1 t) k0_pay2 := by
  rw [outsAt0_A V c t h0]
  dsimp only
  exact out_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)

/-- at a later point, at the payload over what the point before left. -/
theorem outs2_B (c : Dev nD) (t : Fin cfg0.N) (h0 : ¬t.val % 4 = 0) :
    (outsAt0 V c t.val t.isLt).1 = k0_pay5 (iblk0 V c 1 t) (iblk0 V c 0 t)
      (outsAt0 V c (t.val - 1) (Nat.lt_of_le_of_lt (Nat.sub_le _ _) t.isLt)).1 := by
  rw [outsAt0_B V c t h0]
  dsimp only
  exact out_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2

theorem outs3_B (c : Dev nD) (t : Fin cfg0.N) (h0 : ¬t.val % 4 = 0) :
    (outsAt0 V c t.val t.isLt).2 = k0_pay4 (iblk0 V c 1 t)
      (outsAt0 V c (t.val - 1) (Nat.lt_of_le_of_lt (Nat.sub_le _ _) t.isLt)).2 := by
  rw [outsAt0_B V c t h0]
  dsimp only
  exact out_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2

end Points

/-! ## The running sums over the extended reals -/

section Sums
open Idealize.ShloMosaic.ValueIdx
variable (V : (c : Dev nD) → (b : Ref sig .tc) → Buf (Elt Ideal) ((c : Thread nD τ).loc b)) (c : Dev nD)

/-- The zero blocks read 0. -/
theorem pay1_apply (cc : Fin 1024) (d : Fin 512) : k0_pay1 (F := Ideal) (ix3 0 cc d) = 0 := by
  unfold k0_pay1
  refine (shapeCast_ab_1ab_apply _ shapeCasts_S1024x512_S1x1024x512 0 cc d).trans ?_
  exact Ideal.ofBits_zero_f32
theorem pay2_apply (cc : Fin 1024) : k0_pay2 (F := Ideal) (ix3 0 0 cc) = 0 := by
  unfold k0_pay2
  refine (shapeCast_ab_1ab_apply _ shapeCasts_S1x1024_S1x1x1024 0 0 cc).trans ?_
  exact Ideal.ofBits_zero_f32

/-- Point `p`'s contribution to the feature sum of class `cc`, feature `d`: its tile's rows labelled `cc`, their
    feature `d` summed (0 past the grid) … -/
def T2 (p : ℕ) (cc : Fin 1024) (d : Fin 512) : EReal :=
  if h : p < cfg0.N then ∑ r : Fin 1024, ohT (iblk0 V c 1 ⟨p, h⟩) r cc * (iblk0 V c 0 ⟨p, h⟩ : Vec Ideal S1024x512 .f32) (ix2 r d) else 0
/-- … and to the count of class `cc`. -/
def T3 (p : ℕ) (cc : Fin 1024) : EReal :=
  if h : p < cfg0.N then ∑ r : Fin 1024, ohT (iblk0 V c 1 ⟨p, h⟩) r cc else 0

theorem step2_A (t : Fin cfg0.N) (h0 : t.val % 4 = 0) (cc : Fin 1024) (d : Fin 512) :
    (outsAt0 V c t.val t.isLt).1 (ix3 0 cc d) = T2 V c t.val cc d := by
  refine (congrFun (outs2_A V c t h0) (ix3 0 cc d)).trans ?_
  refine (pay5_apply _ _ _ cc d).trans ?_
  rw [pay1_apply, zero_add]
  unfold T2
  rw [dif_pos t.isLt]

theorem step2_B (t : Fin cfg0.N) (h0 : ¬t.val % 4 = 0) (cc : Fin 1024) (d : Fin 512) :
    (outsAt0 V c t.val t.isLt).1 (ix3 0 cc d)
      = (outsAt0 V c (t.val - 1) (Nat.lt_of_le_of_lt (Nat.sub_le _ _) t.isLt)).1 (ix3 0 cc d) + T2 V c t.val cc d := by
  refine (congrFun (outs2_B V c t h0) (ix3 0 cc d)).trans ?_
  refine (pay5_apply _ _ _ cc d).trans ?_
  unfold T2
  rw [dif_pos t.isLt]

theorem step3_A (t : Fin cfg0.N) (h0 : t.val % 4 = 0) (cc : Fin 1024) :
    (outsAt0 V c t.val t.isLt).2 (ix3 0 0 cc) = T3 V c t.val cc := by
  refine (congrFun (outs3_A V c t h0) (ix3 0 0 cc)).trans ?_
  refine (pay4_apply _ _ cc).trans ?_
  rw [pay2_apply, zero_add]
  unfold T3
  rw [dif_pos t.isLt]

theorem step3_B (t : Fin cfg0.N) (h0 : ¬t.val % 4 = 0) (cc : Fin 1024) :
    (outsAt0 V c t.val t.isLt).2 (ix3 0 0 cc)
      = (outsAt0 V c (t.val - 1) (Nat.lt_of_le_of_lt (Nat.sub_le _ _) t.isLt)).2 (ix3 0 0 cc) + T3 V c t.val cc := by
  refine (congrFun (outs3_B V c t h0) (ix3 0 0 cc)).trans ?_
  refine (pay4_apply _ _ cc).trans ?_
  unfold T3
  rw [dif_pos t.isLt]

/-- The feature-sums buffer after point `n`: the contributions of the points of `n`'s run up to `n`. -/
theorem outs2_eq (cc : Fin 1024) (d : Fin 512) : ∀ (n : ℕ) (h : n < cfg0.N),
    (outsAt0 V c n h).1 (ix3 0 cc d) = ∑ i ∈ Finset.range (n % 4 + 1), T2 V c (4 * (n / 4) + i) cc d
  | 0, h => by
    refine (step2_A V c ⟨0, h⟩ rfl cc d).trans ?_
    simp
  | n + 1, h => by
    by_cases h0 : (n + 1) % 4 = 0
    · refine (step2_A V c ⟨n + 1, h⟩ h0 cc d).trans ?_
      show T2 V c (n + 1) cc d = _
      have e : 4 * ((n + 1) / 4) = n + 1 := by omega
      rw [h0, Nat.zero_add, Finset.sum_range_one, Nat.add_zero, e]
    · refine (step2_B V c ⟨n + 1, h⟩ h0 cc d).trans ?_
      show (outsAt0 V c n _).1 (ix3 0 cc d) + T2 V c (n + 1) cc d = _
      have e1 : (n + 1) % 4 + 1 = (n % 4 + 1) + 1 := by omega
      have e2 : (n + 1) / 4 = n / 4 := by omega
      have e3 : 4 * (n / 4) + (n % 4 + 1) = n + 1 := by omega
      rw [outs2_eq cc d n (Nat.lt_of_succ_lt h), e1, e2, Finset.sum_range_succ _ (n % 4 + 1), e3]

/-- The counts buffer after point `n`, likewise. -/
theorem outs3_eq (cc : Fin 1024) : ∀ (n : ℕ) (h : n < cfg0.N),
    (outsAt0 V c n h).2 (ix3 0 0 cc) = ∑ i ∈ Finset.range (n % 4 + 1), T3 V c (4 * (n / 4) + i) cc
  | 0, h => by
    refine (step3_A V c ⟨0, h⟩ rfl cc).trans ?_
    simp
  | n + 1, h => by
    by_cases h0 : (n + 1) % 4 = 0
    · refine (step3_A V c ⟨n + 1, h⟩ h0 cc).trans ?_
      show T3 V c (n + 1) cc = _
      have e : 4 * ((n + 1) / 4) = n + 1 := by omega
      rw [h0, Nat.zero_add, Finset.sum_range_one, Nat.add_zero, e]
    · refine (step3_B V c ⟨n + 1, h⟩ h0 cc).trans ?_
      show (outsAt0 V c n _).2 (ix3 0 0 cc) + T3 V c (n + 1) cc = _
      have e1 : (n + 1) % 4 + 1 = (n % 4 + 1) + 1 := by omega
      have e2 : (n + 1) / 4 = n / 4 := by omega
      have e3 : 4 * (n / 4) + (n % 4 + 1) = n + 1 := by omega
      rw [outs3_eq cc n (Nat.lt_of_succ_lt h), e1, e2, Finset.sum_range_succ _ (n % 4 + 1), e3]

end Sums

/-! ## The blocks as rows of the arrays, and the result arrays -/

section Final
open Idealize.ShloMosaic.ValueIdx
variable (V : (c : Dev nD) → (b : Ref sig .tc) → Buf (Elt Ideal) ((c : Thread nD τ).loc b)) (c : Dev nD)

/-- The windows' block indices at point `t`: tile `t` of the rows for the two inputs, half `t / 4` for the two outputs. -/
theorem idx0 (t : Fin cfg0.N) : win0_0.index t 0 = t.val ∧ win0_0.index t 1 = 0 := by
  rcases fin_N0 t with rfl | rfl | rfl | rfl | rfl | rfl | rfl | rfl <;> decide
theorem idx1 (t : Fin cfg0.N) : win0_1.index t 0 = t.val ∧ win0_1.index t 1 = 0 := by
  rcases fin_N0 t with rfl | rfl | rfl | rfl | rfl | rfl | rfl | rfl <;> decide
theorem idx2 (t : Fin cfg0.N) : win0_2.index t 0 = t.val / 4 ∧ win0_2.index t 1 = 0 ∧ win0_2.index t 2 = 0 := by
  rcases fin_N0 t with rfl | rfl | rfl | rfl | rfl | rfl | rfl | rfl <;> decide
theorem idx3 (t : Fin cfg0.N) : win0_3.index t 0 = t.val / 4 ∧ win0_3.index t 1 = 0 ∧ win0_3.index t 2 = 0 := by
  rcases fin_N0 t with rfl | rfl | rfl | rfl | rfl | rfl | rfl | rfl <;> decide

/-- Row `r` of the features tile at point `t` is row `1024 t + r` of the features; -/
theorem iblk0_0_apply (t : Fin cfg0.N) (r : Fin 1024) (d : Fin 512) (hb : 1024 * t.val + r.val < 8192) :
    (iblk0 V c 0 t : Vec Ideal S1024x512 .f32) (ix2 r d) = V c main_arg1 (ix2 ⟨1024 * t.val + r.val, hb⟩ d) := by
  have hi := idx0 t
  unfold iblk0
  rw [View.read_apply]
  show V c main_arg1 _ = V c main_arg1 _
  refine congrArg (V c main_arg1) ?_
  funext a
  apply Fin.ext
  match a with
  | ⟨0, _⟩ => show win0_0.index t 0 * 1024 + 1 * r.val = 1024 * t.val + r.val; rw [hi.1]; omega
  | ⟨1, _⟩ => show win0_0.index t 1 * 512 + 1 * d.val = d.val; rw [hi.2]; omega

/-- and likewise of the labels tile. -/
theorem iblk0_1_apply (t : Fin cfg0.N) (r : Fin 1024) (hb : 1024 * t.val + r.val < 8192) :
    (iblk0 V c 1 t : Vec Ideal S1024x1 .i32) (ix2 r 0) = V c main_v0 (ix2 ⟨1024 * t.val + r.val, hb⟩ 0) := by
  have hi := idx1 t
  unfold iblk0
  rw [View.read_apply]
  show V c main_v0 _ = V c main_v0 _
  refine congrArg (V c main_v0) ?_
  funext a
  apply Fin.ext
  match a with
  | ⟨0, _⟩ => show win0_1.index t 0 * 1024 + 1 * r.val = 1024 * t.val + r.val; rw [hi.1]; omega
  | ⟨1, _⟩ => show win0_1.index t 1 * 1 + 1 * 0 = 0; rw [hi.2]

/-- The features and the labels as functions of coordinates. -/
abbrev featOf (b : Fin 8192) (d : Fin 512) : EReal := V c main_arg1 (ix2 b d)
abbrev tgtOf (b : Fin 8192) : BitVec 32 := V c main_v0 (ix2 b 0)

/-- Point `4 k + i`'s contributions, over the rows of tile `i` of half `k`. -/
theorem T2_eq (k : Fin 2) (i : Fin 4) (cc : Fin 1024) (d : Fin 512) :
    T2 V c (4 * k.val + i.val) cc d
      = ∑ r : Fin 1024, Cert.Spec.oh (tgtOf V c) (Cert.Spec.row4 k i r) cc * featOf V c (Cert.Spec.row4 k i r) d := by
  have hN : cfg0.N = 8 := N_0
  have hp : 4 * k.val + i.val < cfg0.N := by rw [hN]; omega
  unfold T2
  rw [dif_pos hp]
  refine Finset.sum_congr rfl fun r _ => ?_
  have hb : 1024 * (4 * k.val + i.val) + r.val < 8192 := by omega
  unfold ohT Cert.Spec.oh
  rw [iblk0_1_apply V c ⟨4 * k.val + i.val, hp⟩ r hb, iblk0_0_apply V c ⟨4 * k.val + i.val, hp⟩ r d hb]
  rfl

theorem T3_eq (k : Fin 2) (i : Fin 4) (cc : Fin 1024) :
    T3 V c (4 * k.val + i.val) cc = ∑ r : Fin 1024, Cert.Spec.oh (tgtOf V c) (Cert.Spec.row4 k i r) cc := by
  have hN : cfg0.N = 8 := N_0
  have hp : 4 * k.val + i.val < cfg0.N := by rw [hN]; omega
  unfold T3
  rw [dif_pos hp]
  refine Finset.sum_congr rfl fun r _ => ?_
  have hb : 1024 * (4 * k.val + i.val) + r.val < 8192 := by omega
  unfold ohT Cert.Spec.oh
  rw [iblk0_1_apply V c ⟨4 * k.val + i.val, hp⟩ r hb]
  rfl

/-- The closed forms the two result arrays end at: per half `k`, the four tiles' rows labelled `cc` — their feature
    `d` summed, and counted. -/
def R2 (k : Fin 2) (cc : Fin 1024) (d : Fin 512) : EReal :=
  ∑ i : Fin 4, ∑ r : Fin 1024, Cert.Spec.oh (tgtOf V c) (Cert.Spec.row4 k i r) cc * featOf V c (Cert.Spec.row4 k i r) d
def R3 (k : Fin 2) (cc : Fin 1024) : EReal :=
  ∑ i : Fin 4, ∑ r : Fin 1024, Cert.Spec.oh (tgtOf V c) (Cert.Spec.row4 k i r) cc

theorem half_lt (t : Fin cfg0.N) : t.val / 4 < 2 := by
  have hN : cfg0.N = 8 := N_0
  have := t.isLt
  omega

/-- After the last point of a run the feature-sums buffer holds the half's closed form … -/
theorem outs2_last (t : Fin cfg0.N) (h3 : t.val % 4 = 3) (cc : Fin 1024) (d : Fin 512) :
    (outsAt0 V c t.val t.isLt).1 (ix3 0 cc d) = R2 V c ⟨t.val / 4, half_lt t⟩ cc d := by
  refine (outs2_eq V c cc d t.val t.isLt).trans ?_
  rw [h3, Finset.sum_range]
  exact Finset.sum_congr rfl fun i _ => T2_eq V c ⟨t.val / 4, half_lt t⟩ i cc d

/-- … and the counts buffer likewise. -/
theorem outs3_last (t : Fin cfg0.N) (h3 : t.val % 4 = 3) (cc : Fin 1024) :
    (outsAt0 V c t.val t.isLt).2 (ix3 0 0 cc) = R3 V c ⟨t.val / 4, half_lt t⟩ cc := by
  refine (outs3_eq V c cc t.val t.isLt).trans ?_
  rw [h3, Finset.sum_range]
  exact Finset.sum_congr rfl fun i _ => T3_eq V c ⟨t.val / 4, half_lt t⟩ i cc

/-- The result arrays' closed forms as array contents. -/
def G2 : S2x1024x512.Idx → EReal := fun j => R2 V c (j 0) (j 1) (j 2)
def G3 : S2x1x1024.Idx → EReal := fun j => R3 V c (j 0) (j 2)

/-- What the last point of a run leaves in the feature-sums buffer, at a block index, is the closed form at the array
    index the block's view sends it to … -/
theorem flushed2_at (t : Fin cfg0.N) (h3 : t.val % 4 = 3) (u : Fin 1) (cc : Fin 1024) (d : Fin 512) :
    (cfg0.win 2).cut (grid0.coords t) (outsAt0 V c t.val t.isLt).1 (ix3 u cc d)
      = G2 V c (((cfg0.win 2).blk t).view.emb (ix3 u cc d)) := by
  have hi := idx2 t
  obtain rfl : u = 0 := Subsingleton.elim _ _
  show (outsAt0 V c t.val t.isLt).1 (ix3 0 cc d) = _
  rw [outs2_last V c t h3 cc d]
  have e : ((cfg0.win 2).blk t).view.emb (ix3 0 cc d) = (ix3 ⟨t.val / 4, half_lt t⟩ cc d : S2x1024x512.Idx) := by
    funext a
    apply Fin.ext
    match a with
    | ⟨0, _⟩ => show win0_2.index t 0 * 1 + 1 * 0 = t.val / 4; rw [hi.1]; omega
    | ⟨1, _⟩ => show win0_2.index t 1 * 1024 + 1 * cc.val = cc.val; rw [hi.2.1]; omega
    | ⟨2, _⟩ => show win0_2.index t 2 * 512 + 1 * d.val = d.val; rw [hi.2.2]; omega
  rw [e]
  rfl

/-- … so each write-back of the feature sums writes the closed form's block. -/
theorem flushed2_eq (t : Fin cfg0.N) (hf : (cfg0.win 2).flush t = true) :
    (dat0 V c).flushed 2 t = ((cfg0.win 2).blk t).view.read (Elt Ideal) (G2 V c) := by
  have h3 : t.val % 4 = 3 := (flush0_2 t).mp hf
  funext y
  show (cfg0.win 2).cut (grid0.coords t) ((dat0 V c).after 2 t) y = _
  rw [after0_2, View.read_apply]
  have key : ∀ y' : S1x1024x512.Idx, (cfg0.win 2).cut (grid0.coords t) (outsAt0 V c t.val t.isLt).1 y'
      = G2 V c (((cfg0.win 2).blk t).view.emb y') := fun y' => by
    rw [eq_ix3 y']
    exact flushed2_at V c t h3 (y' 0) (y' 1) (y' 2)
  exact key y

theorem flushed3_at (t : Fin cfg0.N) (h3 : t.val % 4 = 3) (u v : Fin 1) (cc : Fin 1024) :
    (cfg0.win 3).cut (grid0.coords t) (outsAt0 V c t.val t.isLt).2 (ix3 u v cc)
      = G3 V c (((cfg0.win 3).blk t).view.emb (ix3 u v cc)) := by
  have hi := idx3 t
  obtain rfl : u = 0 := Subsingleton.elim _ _
  obtain rfl : v = 0 := Subsingleton.elim _ _
  show (outsAt0 V c t.val t.isLt).2 (ix3 0 0 cc) = _
  rw [outs3_last V c t h3 cc]
  have e : ((cfg0.win 3).blk t).view.emb (ix3 0 0 cc) = (ix3 ⟨t.val / 4, half_lt t⟩ 0 cc : S2x1x1024.Idx) := by
    funext a
    apply Fin.ext
    match a with
    | ⟨0, _⟩ => show win0_3.index t 0 * 1 + 1 * 0 = t.val / 4; rw [hi.1]; omega
    | ⟨1, _⟩ => show win0_3.index t 1 * 1 + 1 * 0 = 0; rw [hi.2.1]
    | ⟨2, _⟩ => show win0_3.index t 2 * 1024 + 1 * cc.val = cc.val; rw [hi.2.2]; omega
  rw [e]
  rfl

theorem flushed3_eq (t : Fin cfg0.N) (hf : (cfg0.win 3).flush t = true) :
    (dat0 V c).flushed 3 t = ((cfg0.win 3).blk t).view.read (Elt Ideal) (G3 V c) := by
  have h3 : t.val % 4 = 3 := (flush0_3 t).mp hf
  funext y
  show (cfg0.win 3).cut (grid0.coords t) ((dat0 V c).after 3 t) y = _
  rw [after0_3, View.read_apply]
  have key : ∀ y' : S1x1x1024.Idx, (cfg0.win 3).cut (grid0.coords t) (outsAt0 V c t.val t.isLt).2 y'
      = G3 V c (((cfg0.win 3).blk t).view.emb y') := fun y' => by
    rw [eq_ix3 y']
    exact flushed3_at V c t h3 (y' 0) (y' 1) (y' 2)
  exact key y

/-- Every index of the feature sums lies in the block its half's last point writes back. -/
theorem cover2 (i : S2x1024x512.Idx) :
    ∃ t : Fin cfg0.N, (cfg0.win 2).flush t = true ∧ i ∈ ((cfg0.win 2).blk t).view.set := by
  have h0 : (i 0 : Nat) < 2 := (i 0).isLt
  have h1 : (i 1 : Nat) < 1024 := (i 1).isLt
  have h2 : (i 2 : Nat) < 512 := (i 2).isLt
  rcases (show (i 0 : ℕ) = 0 ∨ (i 0 : ℕ) = 1 by omega) with h | h
  ·
    refine ⟨t0_3, (flush0_2 t0_3).mpr rfl, ?_⟩
    show i ∈ ((View.whole main_v1_0).slice (win0_2.rect t0_3)).set
    rw [View.set_slice_whole, Rect.mem_set_unit]
    intro a
    match a with
    | ⟨0, _⟩ =>
      show win0_2.index t0_3 0 * win0_2.size 0 ≤ (i 0 : Nat) ∧ (i 0 : Nat) < win0_2.index t0_3 0 * win0_2.size 0 + win0_2.xsize (grid0.coords t0_3) 0
      rw [show win0_2.index t0_3 0 * win0_2.size 0 = 0 from by decide +kernel, show win0_2.xsize (grid0.coords t0_3) 0 = 1 from by decide +kernel]; omega
    | ⟨1, _⟩ =>
      show win0_2.index t0_3 1 * win0_2.size 1 ≤ (i 1 : Nat) ∧ (i 1 : Nat) < win0_2.index t0_3 1 * win0_2.size 1 + win0_2.xsize (grid0.coords t0_3) 1
      rw [show win0_2.index t0_3 1 * win0_2.size 1 = 0 from by decide +kernel, show win0_2.xsize (grid0.coords t0_3) 1 = 1024 from by decide +kernel]; omega
    | ⟨2, _⟩ =>
      show win0_2.index t0_3 2 * win0_2.size 2 ≤ (i 2 : Nat) ∧ (i 2 : Nat) < win0_2.index t0_3 2 * win0_2.size 2 + win0_2.xsize (grid0.coords t0_3) 2
      rw [show win0_2.index t0_3 2 * win0_2.size 2 = 0 from by decide +kernel, show win0_2.xsize (grid0.coords t0_3) 2 = 512 from by decide +kernel]; omega
  ·
    refine ⟨t0_7, (flush0_2 t0_7).mpr rfl, ?_⟩
    show i ∈ ((View.whole main_v1_0).slice (win0_2.rect t0_7)).set
    rw [View.set_slice_whole, Rect.mem_set_unit]
    intro a
    match a with
    | ⟨0, _⟩ =>
      show win0_2.index t0_7 0 * win0_2.size 0 ≤ (i 0 : Nat) ∧ (i 0 : Nat) < win0_2.index t0_7 0 * win0_2.size 0 + win0_2.xsize (grid0.coords t0_7) 0
      rw [show win0_2.index t0_7 0 * win0_2.size 0 = 1 from by decide +kernel, show win0_2.xsize (grid0.coords t0_7) 0 = 1 from by decide +kernel]; omega
    | ⟨1, _⟩ =>
      show win0_2.index t0_7 1 * win0_2.size 1 ≤ (i 1 : Nat) ∧ (i 1 : Nat) < win0_2.index t0_7 1 * win0_2.size 1 + win0_2.xsize (grid0.coords t0_7) 1
      rw [show win0_2.index t0_7 1 * win0_2.size 1 = 0 from by decide +kernel, show win0_2.xsize (grid0.coords t0_7) 1 = 1024 from by decide +kernel]; omega
    | ⟨2, _⟩ =>
      show win0_2.index t0_7 2 * win0_2.size 2 ≤ (i 2 : Nat) ∧ (i 2 : Nat) < win0_2.index t0_7 2 * win0_2.size 2 + win0_2.xsize (grid0.coords t0_7) 2
      rw [show win0_2.index t0_7 2 * win0_2.size 2 = 0 from by decide +kernel, show win0_2.xsize (grid0.coords t0_7) 2 = 512 from by decide +kernel]; omega

/-- Every index of the counts lies in the block its half's last point writes back. -/
theorem cover3 (i : S2x1x1024.Idx) :
    ∃ t : Fin cfg0.N, (cfg0.win 3).flush t = true ∧ i ∈ ((cfg0.win 3).blk t).view.set := by
  have h0 : (i 0 : Nat) < 2 := (i 0).isLt
  have h1 : (i 1 : Nat) < 1 := (i 1).isLt
  have h2 : (i 2 : Nat) < 1024 := (i 2).isLt
  rcases (show (i 0 : ℕ) = 0 ∨ (i 0 : ℕ) = 1 by omega) with h | h
  ·
    refine ⟨t0_3, (flush0_3 t0_3).mpr rfl, ?_⟩
    show i ∈ ((View.whole main_v1_1).slice (win0_3.rect t0_3)).set
    rw [View.set_slice_whole, Rect.mem_set_unit]
    intro a
    match a with
    | ⟨0, _⟩ =>
      show win0_3.index t0_3 0 * win0_3.size 0 ≤ (i 0 : Nat) ∧ (i 0 : Nat) < win0_3.index t0_3 0 * win0_3.size 0 + win0_3.xsize (grid0.coords t0_3) 0
      rw [show win0_3.index t0_3 0 * win0_3.size 0 = 0 from by decide +kernel, show win0_3.xsize (grid0.coords t0_3) 0 = 1 from by decide +kernel]; omega
    | ⟨1, _⟩ =>
      show win0_3.index t0_3 1 * win0_3.size 1 ≤ (i 1 : Nat) ∧ (i 1 : Nat) < win0_3.index t0_3 1 * win0_3.size 1 + win0_3.xsize (grid0.coords t0_3) 1
      rw [show win0_3.index t0_3 1 * win0_3.size 1 = 0 from by decide +kernel, show win0_3.xsize (grid0.coords t0_3) 1 = 1 from by decide +kernel]; omega
    | ⟨2, _⟩ =>
      show win0_3.index t0_3 2 * win0_3.size 2 ≤ (i 2 : Nat) ∧ (i 2 : Nat) < win0_3.index t0_3 2 * win0_3.size 2 + win0_3.xsize (grid0.coords t0_3) 2
      rw [show win0_3.index t0_3 2 * win0_3.size 2 = 0 from by decide +kernel, show win0_3.xsize (grid0.coords t0_3) 2 = 1024 from by decide +kernel]; omega
  ·
    refine ⟨t0_7, (flush0_3 t0_7).mpr rfl, ?_⟩
    show i ∈ ((View.whole main_v1_1).slice (win0_3.rect t0_7)).set
    rw [View.set_slice_whole, Rect.mem_set_unit]
    intro a
    match a with
    | ⟨0, _⟩ =>
      show win0_3.index t0_7 0 * win0_3.size 0 ≤ (i 0 : Nat) ∧ (i 0 : Nat) < win0_3.index t0_7 0 * win0_3.size 0 + win0_3.xsize (grid0.coords t0_7) 0
      rw [show win0_3.index t0_7 0 * win0_3.size 0 = 1 from by decide +kernel, show win0_3.xsize (grid0.coords t0_7) 0 = 1 from by decide +kernel]; omega
    | ⟨1, _⟩ =>
      show win0_3.index t0_7 1 * win0_3.size 1 ≤ (i 1 : Nat) ∧ (i 1 : Nat) < win0_3.index t0_7 1 * win0_3.size 1 + win0_3.xsize (grid0.coords t0_7) 1
      rw [show win0_3.index t0_7 1 * win0_3.size 1 = 0 from by decide +kernel, show win0_3.xsize (grid0.coords t0_7) 1 = 1 from by decide +kernel]; omega
    | ⟨2, _⟩ =>
      show win0_3.index t0_7 2 * win0_3.size 2 ≤ (i 2 : Nat) ∧ (i 2 : Nat) < win0_3.index t0_7 2 * win0_3.size 2 + win0_3.xsize (grid0.coords t0_7) 2
      rw [show win0_3.index t0_7 2 * win0_3.size 2 = 0 from by decide +kernel, show win0_3.xsize (grid0.coords t0_7) 2 = 1024 from by decide +kernel]; omega

/-- So the two result arrays end at the closed forms. -/
theorem sums_arr : (dat0 V c).arrAt 2 cfg0.N = G2 V c :=
  (dat0 V c).arrAt_eq_of_cover 2 (G2 V c) (flushed2_eq V c) (cover2)
theorem counts_arr : (dat0 V c).arrAt 3 cfg0.N = G3 V c :=
  (dat0 V c).arrAt_eq_of_cover 3 (G3 V c) (flushed3_eq V c) (cover3)

/-- THE VALUES. The feature-sums array at (half, class, feature): over the half's four tiles, the rows labelled with the
    class, their feature summed. -/
theorem value_sums (k : Fin 2) (cc : Fin 1024) (d : Fin 512) :
    (dat0 V c).arrAt 2 cfg0.N (ix3 k cc d)
      = ∑ i : Fin 4, ∑ r : Fin 1024, Cert.Spec.oh (tgtOf V c) (Cert.Spec.row4 k i r) cc * featOf V c (Cert.Spec.row4 k i r) d :=
  (congrFun (sums_arr V c) (ix3 k cc d)).trans rfl

/-- The counts array at (half, 0, class): over the half's four tiles, the number of rows labelled with the class. -/
theorem value_counts (k : Fin 2) (cc : Fin 1024) :
    (dat0 V c).arrAt 3 cfg0.N (ix3 k 0 cc)
      = ∑ i : Fin 4, ∑ r : Fin 1024, Cert.Spec.oh (tgtOf V c) (Cert.Spec.row4 k i r) cc :=
  (congrFun (counts_arr V c) (ix3 k 0 cc)).trans rfl

end Final

end Cert.KernelIdeal.Hand0

end
-- ==== Proof.KIValue.lean ====
/-
  The idealized kernel program's result: the last boundary's result cell is the tiled loss of the argument arrays.
  The end divides by 8192 the sum of the two halves' loss cells; each cell is the sum of its half's eight tiles of 512 rows
  (the cross-entropy region); the statistics that region reads are the first region's per-half sums over four tiles of
  1024 rows, the two halves added (the feature sums inside the region, the counts by a host reduction between them).
-/
import proofs.«153739_j8924942041499_2_alg».proof.Proof.KIMain
import proofs.«153739_j8924942041499_2_alg».proof.Proof.KIHost
import proofs.«153739_j8924942041499_2_alg».proof.Proof.KI1Final
import proofs.«153739_j8924942041499_2_alg».proof.Proof.KI0Value
import proofs.«153739_j8924942041499_2_alg».proof.Proof.Spec
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- Row `r` of the tile of grid point `8k + i` is row `r` of tile `i` of half `k`. -/
theorem rowT_eq (k : Fin 2) (i : Fin 8) (h : 8 * k.val + i.val < cfg1.N) (r : Fin 512) :
    rowT ⟨8 * k.val + i.val, h⟩ r = Cert.Spec.row8 k i r := Fin.ext rfl

/-- A half's loss cell as the sum of its eight tiles, every tile over its rows. -/
theorem lossArr_eq (k : Fin 2) :
    lossArr V c (ix3 k 0 0) = ∑ i : Fin 8, ∑ r : Fin 512, (0 - ∑ q : Fin 1024,
      Cert.Spec.tp (featV V c) (dwV V c) (tgtV V c) (sfV V c) (cnV V c) (Cert.Spec.row8 k i r) q * Cert.Spec.lp (predV V c) (Cert.Spec.row8 k i r) q) := by
  have hN : cfg1.N = 16 := N_1
  have hk : k.val < 2 := k.isLt
  unfold lossArr
  show lossChain V c (8 * k.val + 7) _ = _
  rw [lossChain_sum V c k.val 7 (by omega) (by omega), Finset.sum_range]
  refine Finset.sum_congr rfl fun i _ => ?_
  have hi : i.val < 8 := i.isLt
  have h : 8 * k.val + i.val < cfg1.N := by omega
  rw [tileN, dif_pos h]
  unfold tile
  refine Finset.sum_congr rfl fun r _ => ?_
  rw [rowT_eq k i h r]

end Cert.KernelIdeal.Hand1

namespace Cert.KernelIdeal.Hand

open Cert.KernelIdeal Cert.KernelIdeal.Gen
open Idealize.ShloMosaic Idealize.ShloMosaic.TcCoe Idealize.ShloMosaic.ValueIdx Idealize.SL.Sem
open Cert.KernelIdeal.Hand1 (predV featV dwV tgtV sfV sfHalf cnV lossArr final6 lossArr_eq)
open Cert.KernelIdeal.Hand0 (value_sums value_counts featOf tgtOf)

variable (m : (ℓ : Loc nD τ sig) → Buf (Elt Ideal) ℓ) (ρ : Dev nD → PrngReg) (c : Dev nD)

/-- The argument arrays at coordinates. -/
def predM (b : Fin 8192) (q : Fin 1024) : EReal := (m ((c : Thread nD τ).loc main_arg0) : FVec Ideal S8192x1024 .f32) (ix2 b q)
def featM (b : Fin 8192) (d : Fin 512) : EReal := (m ((c : Thread nD τ).loc main_arg1) : FVec Ideal S8192x512 .f32) (ix2 b d)
def dwM (p : Fin 1024) (d : Fin 512) : EReal := (m ((c : Thread nD τ).loc main_arg2) : FVec Ideal S1024x512 .f32) (ix2 p d)
def tgtM (b : Fin 8192) : BitVec 32 := (m ((c : Thread nD τ).loc main_arg3) : IVec S8192 32) (ix1 b)

theorem predV_eq : predV (V3 m ρ) c = predM m c := by
  funext b q; unfold predV predM; rw [V3_main_arg0]
theorem featV_eq : featV (V3 m ρ) c = featM m c := by
  funext b d; unfold featV featM; rw [V3_main_arg1]
theorem dwV_eq : dwV (V3 m ρ) c = dwM m c := by
  funext p d; unfold dwV dwM; rw [V3_main_arg2]
theorem tgtV_eq : tgtV (V3 m ρ) c = tgtM m c := by
  funext b; unfold tgtV tgtM; rw [V3_main_v0]; exact V1_labels m ρ c b 0
theorem featOf_eq : featOf (V1 m ρ) c = featM m c := by
  funext b d; show (V1 m ρ c main_arg1 : FVec Ideal S8192x512 .f32) (ix2 b d) = featM m c b d; unfold featM; rw [V1_main_arg1]
theorem tgtOf_eq : tgtOf (V1 m ρ) c = tgtM m c := by
  funext b; exact V1_labels m ρ c b 0

/-- The feature sums the second region reads are the tiled sums over all rows. -/
theorem sfV_eq : sfV (V3 m ρ) c = Cert.Spec.sfK (featM m c) (tgtM m c) := by
  funext p d
  unfold sfV sfHalf
  rw [V3_main_v1_0, value_sums (V1 m ρ) c 0 p d, value_sums (V1 m ρ) c 1 p d, featOf_eq, tgtOf_eq]
  unfold Cert.Spec.sfK
  rw [Fin.sum_univ_two]

/-- The counts the second region reads are the tiled counts over all rows. -/
theorem cnV_eq : cnV (V3 m ρ) c = Cert.Spec.cntK (tgtM m c) := by
  funext p
  unfold cnV
  rw [V3_counts m ρ c p 0, Fin.sum_univ_two, V2_main_v1_1, value_counts (V1 m ρ) c 0 p, value_counts (V1 m ρ) c 1 p, tgtOf_eq]
  unfold Cert.Spec.cntK
  rw [Fin.sum_univ_two]

/-- THE RESULT: the last boundary's result cell is the tiled loss of the arguments. -/
theorem result_eq : (W5 m ρ c (Proc.devRef .tc main_v6) : FVec Ideal S_ .f32)
    = fun _ => Cert.Spec.kerLoss (predM m c) (featM m c) (dwM m c) (tgtM m c) := by
  rw [W5_result m ρ c]
  funext _
  unfold Cert.Spec.kerLoss
  refine congrArg (fun x => Ideal.div x Cert.Spec.nrows) ?_
  refine Finset.sum_congr rfl fun k _ => ?_
  rw [show (W4 m ρ c (Proc.devRef .tc main_v4) : FVec Ideal S2x1x1 .f32) = lossArr (V3 m ρ) c from
    (W4_arr m ρ c 6).trans (final6 (V3 m ρ) c), lossArr_eq (V3 m ρ) c k, predV_eq, featV_eq, dwV_eq, tgtV_eq, sfV_eq, cnV_eq]

end Cert.KernelIdeal.Hand

end
-- ==== Proof.RefStats.lean ====
/-
  The flat program's label statistics and its updated dictionary, read at coordinates.

  The flat program builds the label indicator by comparing each row's label, broadcast along the classes, with the
  class number, broadcast along the rows, and converting the one-bit answer to a float: at row b and class c that is
  1 where the label of row b is c and 0 elsewhere. The per-class count is the column sum of the indicator, the
  per-class feature sum is the product of the transposed indicator with the features, and the updated dictionary
  moves each entry a tenth of the way to the class mean where the class occurs at all. Each of these, read at an
  index written by its coordinates, is the corresponding function of the specification.
-/
import proofs.«153739_j8924942041499_2_alg».proof.Proof.RefRead
import proofs.«153739_j8924942041499_2_alg».proof.Proof.Spec

noncomputable section

namespace Cert.RefBridge

open Cert.ReferenceIdeal Cert.ReferenceIdeal.Gen Cert.ReferenceIdeal.ReadP Idealize.ShloMosaic Idealize.ShloMosaic.ValueIdx

/-- The four argument arrays as functions of coordinates. -/
abbrev predOf (a0 : (⟨S8192x1024, .f32⟩ : BufTy).Contents (Elt Ideal)) : Fin 8192 → Fin 1024 → EReal := fun b c => a0 (ix2 b c)
abbrev featOf (a1 : (⟨S8192x512, .f32⟩ : BufTy).Contents (Elt Ideal)) : Fin 8192 → Fin 512 → EReal := fun b d => a1 (ix2 b d)
abbrev dwOf (a2 : (⟨S1024x512, .f32⟩ : BufTy).Contents (Elt Ideal)) : Fin 1024 → Fin 512 → EReal := fun c d => a2 (ix2 c d)
abbrev tgtOf (a3 : (⟨S8192, .i32⟩ : BufTy).Contents (Elt Ideal)) : Fin 8192 → BitVec 32 := fun b => a3 (ix1 b)
/-- The statistics taken over all rows at once, of the arrays. -/
abbrev sfOf (a1 : (⟨S8192x512, .f32⟩ : BufTy).Contents (Elt Ideal)) (a3 : (⟨S8192, .i32⟩ : BufTy).Contents (Elt Ideal)) :
    Fin 1024 → Fin 512 → EReal := Spec.sfR (featOf a1) (tgtOf a3)
abbrev cnOf (a3 : (⟨S8192, .i32⟩ : BufTy).Contents (Elt Ideal)) : Fin 1024 → EReal := Spec.cntR (tgtOf a3)

/-- The one-bit answer of an integer equality test, converted to a float, is 1 or 0. -/
theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  unfold IntOp.cmpi
  by_cases h : x = y
  · simp [h]
  · simp [h]

/-- The one-bit answer of a float "greater than" test, converted to a float, is 1 or 0. -/
theorem uitofp_cmpf_ogt (x y : EReal) :
    FloatOps.uitofp (F := Ideal) .f32 (FloatOps.cmpf (F := Ideal) (φ := .f32) .ogt x y) = if y < x then (1 : EReal) else 0 := by
  show (((Ideal.cmp .ogt x y).toNat : ℝ) : EReal) = _
  unfold Ideal.cmp
  by_cases h : y < x
  · simp [h]
  · simp [h]

variable (a1 : (⟨S8192x512, .f32⟩ : BufTy).Contents (Elt Ideal)) (a2 : (⟨S1024x512, .f32⟩ : BufTy).Contents (Elt Ideal))
  (a3 : (⟨S8192, .i32⟩ : BufTy).Contents (Elt Ideal))

/-- The indicator the statistics use, at row b and class c. -/
theorem oh0_eq (b : Fin 8192) (c : Fin 1024) :
    val_main_v0 (F := Ideal) a3 (ix2 b c) = Spec.oh (tgtOf a3) b c := by
  have e : idx_main_call0_v0 (idx_main_call0_v2 (ix2 b c)) = ix1 b :=
    funext fun a => Fin.ext (by match a with | ⟨0, _⟩ => rfl)
  rw [val_main_v0_apply, val_main_call0_v4_apply, val_main_call0_v2_apply, val_main_call0_v0_apply,
    val_main_call0_v3_apply, val_main_call0_v1_apply, uitofp_cmpi_eq, e]
  rfl

/-- The indicator the mixed label uses (the same comparison, made a second time), at row b and class c. -/
theorem oh3_eq (b : Fin 8192) (c : Fin 1024) :
    val_main_v30 (F := Ideal) a3 (ix2 b c) = Spec.oh (tgtOf a3) b c := by
  have e : idx_main_call3_v0 (idx_main_call3_v2 (ix2 b c)) = ix1 b :=
    funext fun a => Fin.ext (by match a with | ⟨0, _⟩ => rfl)
  rw [val_main_v30_apply, val_main_call3_v4_apply, val_main_call3_v2_apply, val_main_call3_v0_apply,
    val_main_call3_v3_apply, val_main_call3_v1_apply, uitofp_cmpi_eq, e]
  rfl

/-- The count of class c: the sum of the indicator over the rows. -/
theorem cnt_eq (c : Fin 1024) : val_main_v3 (F := Ideal) a3 (ix1 c) = Spec.cntR (tgtOf a3) c := by
  have e : ∀ k : Fin 8192, idx_main_v3 (ix1 c) k = ix2 k c := fun k =>
    funext fun a => Fin.ext (by match a with | ⟨0, _⟩ => rfl | ⟨1, _⟩ => rfl)
  rw [val_main_v3_apply, val_main_cst_apply]
  simp only [e, oh0_eq, Ideal.ofBits_def, Ideal.ofBits_zero_f32, zero_add]
  rfl

/-- The feature sum of class c at feature d: the indicator's column c against the features' column d. -/
theorem sf_eq (c : Fin 1024) (d : Fin 512) :
    val_main_v2 (F := Ideal) a1 a3 (ix2 c d) = Spec.sfR (featOf a1) (tgtOf a3) c d := by
  have el : ∀ k : Fin 8192, idx_main_v1 (lidx_main_v2 (ix2 c d) k) = ix2 k c := fun k =>
    funext fun a => Fin.ext (by match a with | ⟨0, _⟩ => rfl | ⟨1, _⟩ => rfl)
  have er : ∀ k : Fin 8192, ridx_main_v2 (ix2 c d) k = ix2 k d := fun k =>
    funext fun a => Fin.ext (by match a with | ⟨0, _⟩ => rfl | ⟨1, _⟩ => rfl)
  rw [val_main_v2_apply]
  simp only [val_main_v1_apply, el, er, oh0_eq]
  rfl

/-- The updated dictionary at class c and feature d. -/
theorem newDict_eq (c : Fin 1024) (d : Fin 512) :
    val_main_v17 (F := Ideal) a1 a2 a3 (ix2 c d)
      = Spec.newDict (dwOf a2) (sfOf a1 a3) (cnOf a3) c d := by
  have e10 : idx_main_v4 (idx_main_v10 (ix2 c d)) = ix1 c :=
    funext fun a => Fin.ext (by match a with | ⟨0, _⟩ => rfl)
  have e13 : idx_main_v4 (idx_main_v13 (ix2 c d)) = ix1 c :=
    funext fun a => Fin.ext (by match a with | ⟨0, _⟩ => rfl)
  simp only [val_main_v17_apply, val_main_v16_apply, val_main_v15_apply, val_main_cst_2_apply, val_main_v14_apply,
    val_main_v12_apply, val_main_v11_apply, val_main_v10_apply, val_main_v9_apply, val_main_v8_apply,
    val_main_cst_1_apply, val_main_v13_apply, val_main_v7_apply, val_main_v6_apply, val_main_v4_apply,
    val_main_v5_apply, val_main_cst_0_apply, e10, e13, cnt_eq, sf_eq, uitofp_cmpf_ogt,
    Ideal.ofBits_def, Ideal.ofBits_zero_f32, Ideal.addf_def, Ideal.mulf_def, Ideal.subf_def, Ideal.hostDivf_def]
  rfl

end Cert.RefBridge

end
-- ==== Proof.RefSimi.lean ====
/-
  The flat program's normalisations and its cosine similarity, read at coordinates.

  Each feature row and each row of the updated dictionary is divided by the larger of its Euclidean norm and 1e-8; the
  norm is the square root of the row's sum of squares, kept as a column and broadcast back along the row. The
  similarity of row b and class c is the product of the normalised feature row b with the normalised dictionary row
  c, the dictionary having been transposed for the product.
-/
import proofs.«153739_j8924942041499_2_alg».proof.Proof.RefStats

noncomputable section

namespace Cert.RefBridge

open Cert.ReferenceIdeal Cert.ReferenceIdeal.Gen Cert.ReferenceIdeal.ReadP Idealize.ShloMosaic Idealize.ShloMosaic.ValueIdx

variable (a1 : (⟨S8192x512, .f32⟩ : BufTy).Contents (Elt Ideal)) (a2 : (⟨S1024x512, .f32⟩ : BufTy).Contents (Elt Ideal))
  (a3 : (⟨S8192, .i32⟩ : BufTy).Contents (Elt Ideal))

/-- The norm of feature row b, floored at 1e-8 (the value kept in the one-column array). -/
theorem fnorm_eq (b : Fin 8192) : val_main_v20 (F := Ideal) a1 (ix2 b (0 : Fin 1)) = Spec.fnorm (featOf a1) b := by
  have e1 : idx_main_call1_v2 (ix2 b (0 : Fin 1)) = ix1 b := funext fun a => Fin.ext (by match a with | ⟨0, _⟩ => rfl)
  have e2 : ∀ k : Fin 512, idx_main_call1_v1 (ix1 b) k = ix2 b k := fun k => funext fun a => Fin.ext (by match a with | ⟨0, _⟩ => rfl | ⟨1, _⟩ => rfl)
  simp only [val_main_v20_apply, val_main_v18_apply, val_main_call1_v2_apply, e1, val_main_call1_v1_apply,
    val_main_call1_cst_apply, e2, val_main_call1_v0_apply, val_main_v19_apply, val_main_cst_3_apply,
    Ideal.ofBits_def, Ideal.ofBits_zero_f32, zero_add, Ideal.mulf_def, Ideal.hostUnary_sqrt_def, Ideal.maximumf_def]
  rfl

/-- The normalised features at row b and feature d. -/
theorem featN_eq (b : Fin 8192) (d : Fin 512) : val_main_v22 (F := Ideal) a1 (ix2 b d) = Spec.featN (featOf a1) b d := by
  have e : idx_main_v21 (ix2 b d) = ix2 b (0 : Fin 1) := funext fun a => Fin.ext (by match a with | ⟨0, _⟩ => rfl | ⟨1, _⟩ => rfl)
  simp only [val_main_v22_apply, val_main_v21_apply, e, fnorm_eq, Ideal.hostDivf_def]
  rfl

/-- The norm of row c of the updated dictionary, floored at 1e-8. -/
theorem dnorm_eq (c : Fin 1024) :
    val_main_v25 (F := Ideal) a1 a2 a3 (ix2 c (0 : Fin 1)) = Spec.dnorm (dwOf a2) (sfOf a1 a3) (cnOf a3) c := by
  have e1 : idx_main_call2_v2 (ix2 c (0 : Fin 1)) = ix1 c := funext fun a => Fin.ext (by match a with | ⟨0, _⟩ => rfl)
  have e2 : ∀ k : Fin 512, idx_main_call2_v1 (ix1 c) k = ix2 c k := fun k => funext fun a => Fin.ext (by match a with | ⟨0, _⟩ => rfl | ⟨1, _⟩ => rfl)
  simp only [val_main_v25_apply, val_main_v23_apply, val_main_call2_v2_apply, e1, val_main_call2_v1_apply,
    val_main_call2_cst_apply, e2, val_main_call2_v0_apply, newDict_eq, val_main_v24_apply, val_main_cst_4_apply,
    Ideal.ofBits_def, Ideal.ofBits_zero_f32, zero_add, Ideal.mulf_def, Ideal.hostUnary_sqrt_def, Ideal.maximumf_def]
  rfl

/-- The normalised dictionary at class c and feature d. -/
theorem dictN_eq (c : Fin 1024) (d : Fin 512) :
    val_main_v27 (F := Ideal) a1 a2 a3 (ix2 c d) = Spec.dictN (dwOf a2) (sfOf a1 a3) (cnOf a3) c d := by
  have e : idx_main_v26 (ix2 c d) = ix2 c (0 : Fin 1) := funext fun a => Fin.ext (by match a with | ⟨0, _⟩ => rfl | ⟨1, _⟩ => rfl)
  simp only [val_main_v27_apply, val_main_v26_apply, e, dnorm_eq, newDict_eq, Ideal.hostDivf_def]
  rfl

/-- The similarity of row b and class c. -/
theorem simi_eq (b : Fin 8192) (c : Fin 1024) :
    val_main_v29 (F := Ideal) a1 a2 a3 (ix2 b c) = Spec.simi (featOf a1) (dwOf a2) (sfOf a1 a3) (cnOf a3) b c := by
  have el : ∀ k : Fin 512, lidx_main_v29 (ix2 b c) k = ix2 b k := fun k => funext fun a => Fin.ext (by match a with | ⟨0, _⟩ => rfl | ⟨1, _⟩ => rfl)
  have er : ∀ k : Fin 512, idx_main_v28 (ridx_main_v29 (ix2 b c) k) = ix2 c k := fun k => funext fun a => Fin.ext (by match a with | ⟨0, _⟩ => rfl | ⟨1, _⟩ => rfl)
  rw [val_main_v29_apply]
  simp only [val_main_v28_apply, el, er, featN_eq, dictN_eq]
  rfl

end Cert.RefBridge

end
-- ==== Proof.RefLoss.lean ====
/-
  The flat program's softmax of the similarity, its mixed label, its log-softmax of the logits and its loss, read at
  coordinates.

  A row maximum of the flat program is a fold of max from −∞ over the row, followed by one more maximum with −∞: over
  the extended reals that is the supremum of the row. The softmax divides each exponential of a similarity less its
  row's maximum by the row's sum of them; the mixed label is half of (half the softmax plus half the indicator); the
  log-softmax is the logit less its row's maximum, less the logarithm of the row's sum of such exponentials. The loss
  sums, over every row and class, the negated mixed label times the log-softmax, and divides by the number of rows.
-/
import proofs.«153739_j8924942041499_2_alg».proof.Proof.RefSimi
import proofs.«153739_j8924942041499_2_alg».proof.Proof.LibRowReduce
import proofs.«153739_j8924942041499_2_alg».proof.Proof.LibSupBlocks
import proofs.«153739_j8924942041499_2_alg».proof.Proof.LibIdxSums

noncomputable section

namespace Cert.RefBridge

open Cert.ReferenceIdeal Cert.ReferenceIdeal.Gen Cert.ReferenceIdeal.ReadP Idealize.ShloMosaic Idealize.ShloMosaic.ValueIdx

/-- The word 0xFF800000 is −∞, the least extended real. -/
theorem ofBits_neg_inf : Ideal.ofBits .f32 0xFF800000#32 = (⊥ : EReal) := by simp [Ideal.ofBits, Ideal.ieee]

/-- A row maximum started from −∞, at row b: the supremum of the row. -/
theorem rowMax_eq (y : S8192x1024.Idx → EReal) (init : S_.Idx → EReal)
    (hinit : init (Shape.Idx.first h_S_) = (⊥ : EReal)) (b : Fin 8192) :
    Host.reduce (FloatOps.maximumf (F := Ideal) (φ := .f32)) y init reducesTo_S8192x1024_S8192_d1 h_S_ (ix1 b)
      = Finset.univ.sup fun c : Fin 1024 => y (ix2 b c) := by
  have h := Cert.LibRowReduce.hostReduce_row (n := 8192) (m := 1024) (max : EReal → EReal → EReal) y init
    reducesTo_S8192x1024_S8192_d1 (by decide) h_S_ b
  rw [hinit, Cert.LibSupBlocks.fold_max_bot_eq_sup] at h
  exact h

variable (a1 : (⟨S8192x512, .f32⟩ : BufTy).Contents (Elt Ideal)) (a2 : (⟨S1024x512, .f32⟩ : BufTy).Contents (Elt Ideal))
  (a3 : (⟨S8192, .i32⟩ : BufTy).Contents (Elt Ideal))

/-- The maximum of row b of the similarity. -/
theorem smax_eq (b : Fin 8192) : val_main_v33 (F := Ideal) a1 a2 a3 (ix1 b) = Spec.smax (featOf a1) (dwOf a2) (sfOf a1 a3) (cnOf a3) b := by
  rw [val_main_v33_apply, val_main_v32_apply, val_main_cst_6_apply]
  unfold val_main_v31
  rw [rowMax_eq _ _ (by rw [val_main_cst_5_apply]; exact ofBits_neg_inf) b]
  simp only [simi_eq, Ideal.ofBits_def, ofBits_neg_inf, Ideal.maximumf_def, max_bot_left]
  rfl

/-- The exponential of a similarity less its row's maximum. -/
theorem sexp_eq (b : Fin 8192) (c : Fin 1024) :
    val_main_v37 (F := Ideal) a1 a2 a3 (ix2 b c) = Spec.sexp (featOf a1) (dwOf a2) (sfOf a1 a3) (cnOf a3) b c := by
  have e : idx_main_v34 (idx_main_v35 (ix2 b c)) = ix1 b := funext fun a => Fin.ext (by match a with | ⟨0, _⟩ => rfl)
  simp only [val_main_v37_apply, val_main_v36_apply, val_main_v35_apply, val_main_v34_apply, e, simi_eq, smax_eq,
    Ideal.hostUnary_exp_def, Ideal.subf_def]
  rfl

/-- The softmax of the similarity at row b and class c. -/
theorem soft_eq (b : Fin 8192) (c : Fin 1024) :
    val_main_v41 (F := Ideal) a1 a2 a3 (ix2 b c) = Spec.soft (featOf a1) (dwOf a2) (sfOf a1 a3) (cnOf a3) b c := by
  have e : idx_main_v39 (idx_main_v40 (ix2 b c)) = ix1 b := funext fun a => Fin.ext (by match a with | ⟨0, _⟩ => rfl)
  have e2 : ∀ k : Fin 1024, idx_main_v38 (ix1 b) k = ix2 b k := fun k => funext fun a => Fin.ext (by match a with | ⟨0, _⟩ => rfl | ⟨1, _⟩ => rfl)
  simp only [val_main_v41_apply, val_main_v40_apply, val_main_v39_apply, e, val_main_v38_apply, val_main_cst_7_apply,
    e2, sexp_eq, Ideal.ofBits_def, Ideal.ofBits_zero_f32, zero_add, Ideal.hostDivf_def]
  rfl

/-- The mixed label at row b and class c. -/
theorem tp_eq (b : Fin 8192) (c : Fin 1024) :
    val_main_v48 (F := Ideal) a1 a2 a3 (ix2 b c)
      = Spec.tp (featOf a1) (dwOf a2) (tgtOf a3) (sfOf a1 a3) (cnOf a3) b c := by
  simp only [val_main_v48_apply, val_main_v47_apply, val_main_cst_10_apply, val_main_v46_apply, val_main_v43_apply,
    val_main_v42_apply, val_main_cst_8_apply, val_main_v45_apply, val_main_v44_apply, val_main_cst_9_apply,
    soft_eq, oh3_eq, Ideal.ofBits_def, Ideal.mulf_def, Ideal.addf_def]
  rfl

variable (a0 : (⟨S8192x1024, .f32⟩ : BufTy).Contents (Elt Ideal))

/-- The maximum of row b of the logits. -/
theorem pmax_eq (b : Fin 8192) : val_main_call4_v2 (F := Ideal) a0 (ix1 b) = Spec.pmax (predOf a0) b := by
  rw [val_main_call4_v2_apply, val_main_call4_v1_apply, val_main_call4_cst_0_apply]
  unfold val_main_call4_v0
  rw [rowMax_eq _ _ (by rw [val_main_call4_cst_apply]; exact ofBits_neg_inf) b]
  simp only [Ideal.ofBits_def, ofBits_neg_inf, Ideal.maximumf_def, max_bot_left]
  rfl

/-- The log-softmax of the logits at row b and class c. -/
theorem lp_eq (b : Fin 8192) (c : Fin 1024) : val_main_v49 (F := Ideal) a0 (ix2 b c) = Spec.lp (predOf a0) b c := by
  have e4 : ∀ c' : Fin 1024, idx_main_call4_v3 (idx_main_call4_v4 (ix2 b c')) = ix1 b := fun c' => funext fun a => Fin.ext (by match a with | ⟨0, _⟩ => rfl)
  have e10 : idx_main_call4_v8 (idx_main_call4_v10 (ix2 b c)) = ix1 b := funext fun a => Fin.ext (by match a with | ⟨0, _⟩ => rfl)
  have e7 : ∀ k : Fin 1024, idx_main_call4_v7 (ix1 b) k = ix2 b k := fun k => funext fun a => Fin.ext (by match a with | ⟨0, _⟩ => rfl | ⟨1, _⟩ => rfl)
  simp only [val_main_v49_apply, val_main_call4_v10_apply, val_main_call4_v9_apply, val_main_call4_v8_apply, e10,
    val_main_call4_v7_apply, val_main_call4_cst_1_apply, e7, val_main_call4_v6_apply, val_main_call4_v5_apply,
    val_main_call4_v4_apply, val_main_call4_v3_apply, e4, pmax_eq, Ideal.ofBits_def, Ideal.ofBits_zero_f32, zero_add,
    Ideal.subf_def, Ideal.hostUnary_exp_def, Ideal.hostUnary_log_def]
  rfl

/-- The flat program's result, at its one index: the loss of the specification. -/
theorem loss_eq (i : S_.Idx) :
    val_main_v54 (F := Ideal) a0 a1 a2 a3 i = Spec.refLoss (predOf a0) (featOf a1) (dwOf a2) (tgtOf a3) := by
  have e52 : ∀ (b : Fin 8192) (k : Fin 1024), idx_main_v52 (ix1 b) k = ix2 b k := fun b k => funext fun a => Fin.ext (by match a with | ⟨0, _⟩ => rfl | ⟨1, _⟩ => rfl)
  rw [val_main_v54_apply, val_main_v53_apply, val_main_cst_13_apply, val_main_cst_12_apply, Cert.LibIdxSums.sum_idx1]
  simp only [val_main_v52_apply, val_main_cst_11_apply, e52, val_main_v51_apply, val_main_v50_apply, tp_eq, lp_eq,
    Ideal.ofBits_def, Ideal.ofBits_zero_f32, zero_add, Ideal.mulf_def, Ideal.hostNegf_def, Ideal.negf_def,
    Ideal.hostDivf_def]
  rfl

end Cert.RefBridge

end
-- ==== Proof.RefIsSpec.lean ====
/-
  The flat program's result is the loss of the specification.

  The stages read so far compose: at its one index the flat program's result is the sum over all rows and classes of
  the negated mixed label times the log-softmax, over the number of rows, each ingredient being the specification's
  function of the four argument arrays read at coordinates. Stated first over any four arrays, then for the arrays a
  memory holds at the program's four arguments.
-/
import proofs.«153739_j8924942041499_2_alg».proof.Proof.RefLoss

noncomputable section

namespace Cert.RefBridge

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- Over any four argument arrays, the flat program's composed result is the loss at every index (it has one). -/
theorem ref_eq (a0 : (⟨S8192x1024, .f32⟩ : BufTy).Contents (Elt Ideal)) (a1 : (⟨S8192x512, .f32⟩ : BufTy).Contents (Elt Ideal))
    (a2 : (⟨S1024x512, .f32⟩ : BufTy).Contents (Elt Ideal)) (a3 : (⟨S8192, .i32⟩ : BufTy).Contents (Elt Ideal)) :
    val_main_v54 (F := Ideal) a0 a1 a2 a3
      = fun _ => Cert.Spec.refLoss (fun b c => a0 (ix2 b c)) (fun b d => a1 (ix2 b d)) (fun c d => a2 (ix2 c d))
          (fun b => a3 (ix1 b)) :=
  funext fun i => loss_eq a1 a2 a3 a0 i

/-- The flat program's result buffer, from any memory: the loss of the arrays the memory holds at the four arguments. -/
theorem ref_out (m : (ℓ : Loc nD τ sig) → Buf (Elt Ideal) ℓ) (c : Dev nD) :
    Cert.ReferenceIdeal.ValueP.res_out0 (F := Ideal) m c
      = fun _ => Cert.Spec.refLoss
          (fun b c' => m ((c.tc : Thread nD τ).loc main_arg0) (ix2 b c'))
          (fun b d => m ((c.tc : Thread nD τ).loc main_arg1) (ix2 b d))
          (fun c' d => m ((c.tc : Thread nD τ).loc main_arg2) (ix2 c' d))
          (fun b => m ((c.tc : Thread nD τ).loc main_arg3) (ix1 b)) :=
  (val_main_v54_eq m c).trans (ref_eq _ _ _ _)

end Cert.RefBridge

end
-- ==== Proof.LibFiniteReals.lean ====
/-
  Finite extended reals. An extended real is FINITE when it is the coercion of a real number; on finite values the
  extended reals' arithmetic is the reals', so negation distributes over sums and division is multiplication by the
  inverse. This module states the predicate, with its nonnegative and positive refinements, and its closure under the
  operations a loss is written with: sums, products, differences, quotients by a positive value, maxima, suprema over a
  nonempty finite set, square roots of nonnegative values, exponentials, logarithms of positive values.
-/
import Idealize.ShloMosaic.PureOps.Ideal
import Mathlib.Algebra.BigOperators.Fin

noncomputable section

namespace Cert.Law

open Idealize.ShloMosaic

/-- `x` is a real number. -/
def IsR (x : EReal) : Prop := ∃ r : ℝ, x = (r : EReal)
/-- `x` is a nonnegative real number. -/
def IsNN (x : EReal) : Prop := ∃ r : ℝ, 0 ≤ r ∧ x = (r : EReal)
/-- `x` is a positive real number. -/
def IsPos (x : EReal) : Prop := ∃ r : ℝ, 0 < r ∧ x = (r : EReal)

variable {x y : EReal}

theorem IsPos.isNN (h : IsPos x) : IsNN x := let ⟨r, hr, e⟩ := h; ⟨r, hr.le, e⟩
theorem IsNN.isR (h : IsNN x) : IsR x := let ⟨r, _, e⟩ := h; ⟨r, e⟩
theorem IsPos.isR (h : IsPos x) : IsR x := h.isNN.isR

theorem isNN_zero : IsNN 0 := ⟨0, le_rfl, rfl⟩
theorem isNN_one : IsNN 1 := ⟨1, zero_le_one, rfl⟩
theorem isR_zero : IsR 0 := isNN_zero.isR
theorem isR_one : IsR 1 := isNN_one.isR

theorem IsR.add (hx : IsR x) (hy : IsR y) : IsR (x + y) := by
  obtain ⟨a, rfl⟩ := hx; obtain ⟨b, rfl⟩ := hy; exact ⟨a + b, (EReal.coe_add a b).symm⟩
theorem IsR.sub (hx : IsR x) (hy : IsR y) : IsR (x - y) := by
  obtain ⟨a, rfl⟩ := hx; obtain ⟨b, rfl⟩ := hy; exact ⟨a - b, (EReal.coe_sub a b).symm⟩
theorem IsR.mul (hx : IsR x) (hy : IsR y) : IsR (x * y) := by
  obtain ⟨a, rfl⟩ := hx; obtain ⟨b, rfl⟩ := hy; exact ⟨a * b, (EReal.coe_mul a b).symm⟩
theorem IsR.neg (hx : IsR x) : IsR (-x) := by
  obtain ⟨a, rfl⟩ := hx; exact ⟨-a, (EReal.coe_neg a).symm⟩
/-- A square is nonnegative. -/
theorem IsR.mul_self (hx : IsR x) : IsNN (x * x) := by
  obtain ⟨a, rfl⟩ := hx; exact ⟨a * a, mul_self_nonneg a, (EReal.coe_mul a a).symm⟩
theorem IsNN.add (hx : IsNN x) (hy : IsNN y) : IsNN (x + y) := by
  obtain ⟨a, ha, rfl⟩ := hx; obtain ⟨b, hb, rfl⟩ := hy
  exact ⟨a + b, add_nonneg ha hb, (EReal.coe_add a b).symm⟩
theorem IsNN.add_pos (hx : IsNN x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem IsPos.add (hx : IsPos x) (hy : IsPos y) : IsPos (x + y) := hx.isNN.add_pos hy

/-- A finite sum of real numbers is a real number. -/
theorem IsR.sum {ι : Type*} (s : Finset ι) (f : ι → EReal) (h : ∀ i ∈ s, IsR (f i)) : IsR (∑ i ∈ s, f i) :=
  Finset.sum_induction f IsR (fun _ _ => IsR.add) isR_zero h
/-- A finite sum of nonnegative real numbers is one. -/
theorem IsNN.sum {ι : Type*} (s : Finset ι) (f : ι → EReal) (h : ∀ i ∈ s, IsNN (f i)) : IsNN (∑ i ∈ s, f i) :=
  Finset.sum_induction f IsNN (fun _ _ => IsNN.add) isNN_zero h
/-- A nonempty finite sum of positive real numbers is one. -/
theorem IsPos.sum {ι : Type*} (s : Finset ι) (hs : s.Nonempty) (f : ι → EReal) (h : ∀ i ∈ s, IsPos (f i)) :
    IsPos (∑ i ∈ s, f i) :=
  Finset.sum_induction_nonempty f IsPos (fun _ _ => IsPos.add) hs h

/-- The quotient of a real number by a positive one is real: division by a nonzero real is multiplication by its
    inverse. -/
theorem IsR.div (hx : IsR x) (hy : IsPos y) : IsR (Ideal.div x y) := by
  obtain ⟨a, rfl⟩ := hx; obtain ⟨b, hb, rfl⟩ := hy
  rw [Ideal.div_coe hb.ne']; exact ⟨a * (1 / b), (EReal.coe_mul _ _).symm⟩

/-- The greater of a real number and a positive one is positive. -/
theorem IsR.max_pos (hx : IsR x) (hy : IsPos y) : IsPos (max x y) := by
  obtain ⟨a, rfl⟩ := hx; obtain ⟨b, hb, rfl⟩ := hy
  rcases le_total (a : EReal) (b : EReal) with h | h
  · rw [max_eq_right h]; exact ⟨b, hb, rfl⟩
  · rw [max_eq_left h]; exact ⟨a, lt_of_lt_of_le hb (EReal.coe_le_coe_iff.mp h), rfl⟩

/-- The square root of a nonnegative real number is one. -/
theorem IsNN.sqrt (hx : IsNN x) : IsNN (Ideal.sqrt x) := by
  obtain ⟨a, ha, rfl⟩ := hx
  rw [Ideal.sqrt_coe, if_neg (not_lt.mpr ha)]; exact ⟨Real.sqrt a, Real.sqrt_nonneg a, rfl⟩

/-- The exponential of a real number is a positive real. -/
theorem IsR.exp (hx : IsR x) : IsPos (Ideal.exp x) := by
  obtain ⟨a, rfl⟩ := hx; exact ⟨Real.exp a, Real.exp_pos a, rfl⟩

/-- The logarithm of a positive real number is real. -/
theorem IsPos.log (hx : IsPos x) : IsR (Ideal.log x) := by
  obtain ⟨a, ha, rfl⟩ := hx
  rw [Ideal.log_coe, if_neg (not_le.mpr ha)]; exact ⟨Real.log a, rfl⟩

/-- The supremum of real numbers over a nonempty finite set is one of them, so it is real. -/
theorem IsR.sup {ι : Type*} (s : Finset ι) (hs : s.Nonempty) (f : ι → EReal) (h : ∀ i ∈ s, IsR (f i)) :
    IsR (s.sup f) := by
  obtain ⟨i, hi, e⟩ := Finset.exists_mem_eq_sup s hs f
  rw [e]; exact h i hi

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- With every factor a real number, subtracting a finite sum of products from zero is summing the products with
    their first factors negated. (On the extended reals at large negation does not distribute over a sum: a term
    `+∞` beside a term `-∞` breaks it. Finiteness of every term is what makes the two spellings agree.) -/
theorem zero_sub_sum_mul {ι : Type*} [Fintype ι] (t l : ι → EReal) (ht : ∀ i, IsR (t i)) (hl : ∀ i, IsR (l i)) :
    0 - ∑ i, t i * l i = ∑ i, (-(t i)) * l i := by
  choose a ha using ht
  choose b hb using hl
  have e1 : ∀ i, t i * l i = ((a i * b i : ℝ) : EReal) := fun i => by rw [ha i, hb i, EReal.coe_mul]
  have e2 : ∀ i, (-(t i)) * l i = ((-(a i * b i) : ℝ) : EReal) := fun i => by
    rw [ha i, hb i, ← neg_mul, EReal.coe_mul, EReal.coe_neg]
  simp only [e1, e2]
  rw [← coe_sum, ← coe_sum, Finset.sum_neg_distrib]
  show ((0 : ℝ) : EReal) - _ = _
  rw [← EReal.coe_sub, zero_sub]

end Cert.Law

end
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.LawStats.lean ====
/-
  Regrouping the 8192 rows. A sum over all rows at once equals the same sum taken half by half, tile by tile and row
  by row within a tile, for the statistics' tiling (2 halves × 4 tiles × 1024 rows) and for the loss's
  (2 halves × 8 tiles × 512 rows): only commutativity and associativity of `+` enter, so this holds of the extended
  reals with their infinities. Hence the tiled counts and feature sums ARE the flat ones.
-/
import proofs.«153739_j8924942041499_2_alg».proof.Proof.Spec
import proofs.«153739_j8924942041499_2_alg».proof.Proof.LibSumBlocks

noncomputable section

namespace Cert.Law

open Cert.Spec Cert.LibSumBlocks

/-- Row `4096·k + (1024·i + r)` is row `r` of tile `i` of half `k`: split 8192 = 2·4096, then 4096 = 4·1024. -/
theorem sum_row4 {M : Type*} [AddCommMonoid M] (F : Fin 8192 → M) :
    ∑ k : Fin 2, ∑ i : Fin 4, ∑ r : Fin 1024, F (row4 k i r) = ∑ b : Fin 8192, F b := by
  have h1 : ∑ b : Fin 8192, F b = ∑ k : Fin 2, ∑ q : Fin 4096, F ⟨4096 * k.val + q.val, by omega⟩ :=
    sum_fin_blocks 2 4096 F
  have h2 : ∀ k : Fin 2, ∑ q : Fin 4096, F ⟨4096 * k.val + q.val, by omega⟩
      = ∑ i : Fin 4, ∑ r : Fin 1024, F ⟨4096 * k.val + (1024 * i.val + r.val), by omega⟩ :=
    fun k => sum_fin_blocks 4 1024 (fun q : Fin 4096 => F ⟨4096 * k.val + q.val, by omega⟩)
  rw [h1]
  refine Finset.sum_congr rfl fun k _ => ?_
  rw [h2 k]
  refine Finset.sum_congr rfl fun i _ => Finset.sum_congr rfl fun r _ => congrArg F (Fin.ext ?_)
  show 1024 * (4 * k.val + i.val) + r.val = 4096 * k.val + (1024 * i.val + r.val)
  omega

/-- Row `4096·k + (512·i + r)` is row `r` of tile `i` of half `k`: split 8192 = 2·4096, then 4096 = 8·512. -/
theorem sum_row8 {M : Type*} [AddCommMonoid M] (F : Fin 8192 → M) :
    ∑ k : Fin 2, ∑ i : Fin 8, ∑ r : Fin 512, F (row8 k i r) = ∑ b : Fin 8192, F b := by
  have h1 : ∑ b : Fin 8192, F b = ∑ k : Fin 2, ∑ q : Fin 4096, F ⟨4096 * k.val + q.val, by omega⟩ :=
    sum_fin_blocks 2 4096 F
  have h2 : ∀ k : Fin 2, ∑ q : Fin 4096, F ⟨4096 * k.val + q.val, by omega⟩
      = ∑ i : Fin 8, ∑ r : Fin 512, F ⟨4096 * k.val + (512 * i.val + r.val), by omega⟩ :=
    fun k => sum_fin_blocks 8 512 (fun q : Fin 4096 => F ⟨4096 * k.val + q.val, by omega⟩)
  rw [h1]
  refine Finset.sum_congr rfl fun k _ => ?_
  rw [h2 k]
  refine Finset.sum_congr rfl fun i _ => Finset.sum_congr rfl fun r _ => congrArg F (Fin.ext ?_)
  show 512 * (8 * k.val + i.val) + r.val = 4096 * k.val + (512 * i.val + r.val)
  omega

variable (feat : Fin 8192 → Fin 512 → EReal) (tgt : Fin 8192 → BitVec 32)

/-- The tiled per-class counts are the flat ones. -/
theorem cntK_eq : cntK tgt = cntR tgt := funext fun c => sum_row4 (fun b => oh tgt b c)

/-- The tiled per-class feature sums are the flat ones. -/
theorem sfK_eq : sfK feat tgt = sfR feat tgt :=
  funext fun c => funext fun d => sum_row4 (fun b => oh tgt b c * feat b d)

end Cert.Law

end
-- ==== Proof.LawConsts.lean ====
/-
  The loss's five float literals as the real numbers their binary words denote: 1e-6, 1/10, 1e-8, 1/2 and 8192 at
  single precision. Each is a positive real, read off the word's sign bit, 8 exponent bits and 23 significand bits.
-/
import proofs.«153739_j8924942041499_2_alg».proof.Proof.Spec
import proofs.«153739_j8924942041499_2_alg».proof.Proof.LibFiniteReals

noncomputable section

namespace Cert.Law

open Idealize.ShloMosaic Cert.Spec

/-- The word nearest 1e-6: significand 8796093, exponent -43. -/
theorem eps6_eq : eps6 = ((8796093 / 2 ^ 43 : ℝ) : EReal) := by
  show Ideal.ieee 8 23 (0x358637BD#32) = _
  delta Ideal.ieee
  simp [-EReal.coe_mul]; norm_num
/-- The word nearest 1/10: significand 13421773, exponent -27. -/
theorem tenth_eq : tenth = ((13421773 / 2 ^ 27 : ℝ) : EReal) := by
  show Ideal.ieee 8 23 (0x3DCCCCCD#32) = _
  delta Ideal.ieee
  simp [-EReal.coe_mul]; norm_num
/-- The word nearest 1e-8: significand 11258999, exponent -50. -/
theorem eps8_eq : eps8 = ((11258999 / 2 ^ 50 : ℝ) : EReal) := by
  show Ideal.ieee 8 23 (0x322BCC77#32) = _
  delta Ideal.ieee
  simp [-EReal.coe_mul]; norm_num
/-- One half, exactly. -/
theorem half_eq : half = ((1 / 2 : ℝ) : EReal) := by
  show Ideal.ieee 8 23 (0x3F000000#32) = _
  delta Ideal.ieee
  simp [-EReal.coe_mul]; norm_num
/-- The row count 8192, exactly. -/
theorem nrows_eq : nrows = ((8192 : ℝ) : EReal) := by
  show Ideal.ieee 8 23 (0x46000000#32) = _
  delta Ideal.ieee
  simp [-EReal.coe_mul]; norm_num

theorem isPos_eps6 : IsPos eps6 := ⟨_, by norm_num, eps6_eq⟩
theorem isPos_tenth : IsPos tenth := ⟨_, by norm_num, tenth_eq⟩
theorem isPos_eps8 : IsPos eps8 := ⟨_, by norm_num, eps8_eq⟩
theorem isPos_half : IsPos half := ⟨_, by norm_num, half_eq⟩
theorem isPos_nrows : IsPos nrows := ⟨_, by norm_num, nrows_eq⟩

end Cert.Law

end
-- ==== Proof.LawFinite.lean ====
/-
  Every quantity of the loss is a real number when the logits, the features and the dictionary are. Following the
  definitions in order: the label indicator is 0 or 1; a count is a sum of those, so a nonnegative real; count + 1e-6 is
  positive, so the mean is real; norms are clamped below by 1e-8, so positive, and the normalised rows are real; a
  row's greatest similarity is one of its similarities; exponentials are positive, a nonempty sum of them is
  positive, so the softmax and the logarithm of the normaliser are real.
-/
import proofs.«153739_j8924942041499_2_alg».proof.Proof.Spec
import proofs.«153739_j8924942041499_2_alg».proof.Proof.LibFiniteReals
import proofs.«153739_j8924942041499_2_alg».proof.Proof.LawConsts

noncomputable section

namespace Cert.Law

open Idealize.ShloMosaic Cert.Spec

variable (pred : Fin 8192 → Fin 1024 → EReal) (feat : Fin 8192 → Fin 512 → EReal)
  (dw : Fin 1024 → Fin 512 → EReal) (tgt : Fin 8192 → BitVec 32)

/-- The label indicator is 0 or 1. -/
theorem isNN_oh (b : Fin 8192) (c : Fin 1024) : IsNN (oh tgt b c) := by
  show IsNN (if tgt b = BitVec.ofNat 32 c.val then 1 else 0)
  split_ifs
  · exact isNN_one
  · exact isNN_zero

/-- A class's count is a nonnegative real. -/
theorem isNN_cntR (c : Fin 1024) : IsNN (cntR tgt c) := IsNN.sum _ _ fun b _ => isNN_oh tgt b c

/-- A class's feature sums are real. -/
theorem isR_sfR (hf : ∀ b d, IsR (feat b d)) (c : Fin 1024) (d : Fin 512) : IsR (sfR feat tgt c d) :=
  IsR.sum _ _ fun b _ => (isNN_oh tgt b c).isR.mul (hf b d)

section Downstream

variable (sf : Fin 1024 → Fin 512 → EReal) (cn : Fin 1024 → EReal)

/-- The "class is present" mask is 0 or 1. -/
theorem isR_mask (c : Fin 1024) : IsR (mask cn c) := by
  show IsR (if 0 < cn c then 1 else 0)
  split_ifs
  · exact isR_one
  · exact isR_zero

/-- The updated dictionary is real: its mean's divisor, count + 1e-6, is positive. -/
theorem isR_newDict (hd : ∀ c d, IsR (dw c d)) (hsf : ∀ c d, IsR (sf c d)) (hcn : ∀ c, IsNN (cn c))
    (c : Fin 1024) (d : Fin 512) : IsR (newDict dw sf cn c d) :=
  (hd c d).add (isPos_tenth.isR.mul
    ((((hsf c d).div ((hcn c).add_pos isPos_eps6)).sub (hd c d)).mul (isR_mask cn c)))

/-- A dictionary row's clamped norm is positive. -/
theorem isPos_dnorm (hd : ∀ c d, IsR (dw c d)) (hsf : ∀ c d, IsR (sf c d)) (hcn : ∀ c, IsNN (cn c))
    (c : Fin 1024) : IsPos (dnorm dw sf cn c) :=
  (IsNN.sum _ _ fun d _ => (isR_newDict dw sf cn hd hsf hcn c d).mul_self).sqrt.isR.max_pos isPos_eps8

theorem isR_dictN (hd : ∀ c d, IsR (dw c d)) (hsf : ∀ c d, IsR (sf c d)) (hcn : ∀ c, IsNN (cn c))
    (c : Fin 1024) (d : Fin 512) : IsR (dictN dw sf cn c d) :=
  (isR_newDict dw sf cn hd hsf hcn c d).div (isPos_dnorm dw sf cn hd hsf hcn c)

/-- A feature row's clamped norm is positive. -/
theorem isPos_fnorm (hf : ∀ b d, IsR (feat b d)) (b : Fin 8192) : IsPos (fnorm feat b) :=
  (IsNN.sum _ _ fun d _ => (hf b d).mul_self).sqrt.isR.max_pos isPos_eps8

theorem isR_featN (hf : ∀ b d, IsR (feat b d)) (b : Fin 8192) (d : Fin 512) : IsR (featN feat b d) :=
  (hf b d).div (isPos_fnorm feat hf b)

theorem isR_simi (hf : ∀ b d, IsR (feat b d)) (hd : ∀ c d, IsR (dw c d)) (hsf : ∀ c d, IsR (sf c d))
    (hcn : ∀ c, IsNN (cn c)) (b : Fin 8192) (c : Fin 1024) : IsR (simi feat dw sf cn b c) :=
  IsR.sum _ _ fun d _ => (isR_featN feat hf b d).mul (isR_dictN dw sf cn hd hsf hcn c d)

/-- A row's greatest similarity is one of its 1024 similarities. -/
theorem isR_smax (hf : ∀ b d, IsR (feat b d)) (hd : ∀ c d, IsR (dw c d)) (hsf : ∀ c d, IsR (sf c d))
    (hcn : ∀ c, IsNN (cn c)) (b : Fin 8192) : IsR (smax feat dw sf cn b) :=
  IsR.sup _ Finset.univ_nonempty _ fun c _ => isR_simi feat dw sf cn hf hd hsf hcn b c

theorem isPos_sexp (hf : ∀ b d, IsR (feat b d)) (hd : ∀ c d, IsR (dw c d)) (hsf : ∀ c d, IsR (sf c d))
    (hcn : ∀ c, IsNN (cn c)) (b : Fin 8192) (c : Fin 1024) : IsPos (sexp feat dw sf cn b c) :=
  ((isR_simi feat dw sf cn hf hd hsf hcn b c).sub (isR_smax feat dw sf cn hf hd hsf hcn b)).exp

/-- The softmax is real: its normaliser, a sum of 1024 exponentials, is positive. -/
theorem isR_soft (hf : ∀ b d, IsR (feat b d)) (hd : ∀ c d, IsR (dw c d)) (hsf : ∀ c d, IsR (sf c d))
    (hcn : ∀ c, IsNN (cn c)) (b : Fin 8192) (c : Fin 1024) : IsR (soft feat dw sf cn b c) :=
  (isPos_sexp feat dw sf cn hf hd hsf hcn b c).isR.div
    (IsPos.sum _ Finset.univ_nonempty _ fun c' _ => isPos_sexp feat dw sf cn hf hd hsf hcn b c')

/-- The mixed target probability is real. -/
theorem isR_tp (hf : ∀ b d, IsR (feat b d)) (hd : ∀ c d, IsR (dw c d)) (hsf : ∀ c d, IsR (sf c d))
    (hcn : ∀ c, IsNN (cn c)) (b : Fin 8192) (c : Fin 1024) : IsR (tp feat dw tgt sf cn b c) :=
  isPos_half.isR.mul ((isPos_half.isR.mul (isR_soft feat dw sf cn hf hd hsf hcn b c)).add
    (isPos_half.isR.mul (isNN_oh tgt b c).isR))

end Downstream

/-- A row's greatest logit is one of its 1024 logits. -/
theorem isR_pmax (hp : ∀ b c, IsR (pred b c)) (b : Fin 8192) : IsR (pmax pred b) :=
  IsR.sup _ Finset.univ_nonempty _ fun c _ => hp b c

/-- The log-softmax is real: the logarithm is taken of a positive sum of exponentials. -/
theorem isR_lp (hp : ∀ b c, IsR (pred b c)) (b : Fin 8192) (c : Fin 1024) : IsR (lp pred b c) :=
  ((hp b c).sub (isR_pmax pred hp b)).sub
    (IsPos.sum _ Finset.univ_nonempty _ fun c' _ => ((hp b c').sub (isR_pmax pred hp b)).exp).log

end Cert.Law

end
-- ==== Proof.Law.lean ====
/-
  The algebraic law: the tiled arrangement of the loss equals the flat one whenever the logits, the features and the
  dictionary are real numbers. Three steps: the tiled statistics are the flat ones (a regrouping of sums); the outer
  sum over halves, tiles and rows is the sum over all rows (the same regrouping); and within a row, subtracting the
  class sum from zero is summing the negated terms, because every term is a real number.
-/
import proofs.«153739_j8924942041499_2_alg».proof.Proof.Spec
import proofs.«153739_j8924942041499_2_alg».proof.Proof.LibFiniteReals
import proofs.«153739_j8924942041499_2_alg».proof.Proof.LawStats
import proofs.«153739_j8924942041499_2_alg».proof.Proof.LawFinite

noncomputable section

open Idealize.ShloMosaic Cert.Law

/-- The tiled loss equals the flat loss on real inputs. -/
theorem Cert.Spec.kerLoss_eq_refLoss (pred : Fin 8192 → Fin 1024 → EReal) (feat : Fin 8192 → Fin 512 → EReal)
    (dw : Fin 1024 → Fin 512 → EReal) (tgt : Fin 8192 → BitVec 32)
    (hp : ∀ b c, ∃ r : ℝ, pred b c = (r : EReal)) (hf : ∀ b d, ∃ r : ℝ, feat b d = (r : EReal))
    (hd : ∀ c d, ∃ r : ℝ, dw c d = (r : EReal)) :
    Cert.Spec.kerLoss pred feat dw tgt = Cert.Spec.refLoss pred feat dw tgt := by
  show Ideal.div (∑ k : Fin 2, ∑ i : Fin 8, ∑ r : Fin 512,
      (0 - ∑ c : Fin 1024, Cert.Spec.tp feat dw tgt (Cert.Spec.sfK feat tgt) (Cert.Spec.cntK tgt) (Cert.Spec.row8 k i r) c
        * Cert.Spec.lp pred (Cert.Spec.row8 k i r) c)) Cert.Spec.nrows
    = Ideal.div (∑ b : Fin 8192, ∑ c : Fin 1024,
        (-(Cert.Spec.tp feat dw tgt (Cert.Spec.sfR feat tgt) (Cert.Spec.cntR tgt) b c)) * Cert.Spec.lp pred b c)
        Cert.Spec.nrows
  rw [sfK_eq, cntK_eq,
    sum_row8 (fun b => 0 - ∑ c : Fin 1024,
      Cert.Spec.tp feat dw tgt (Cert.Spec.sfR feat tgt) (Cert.Spec.cntR tgt) b c * Cert.Spec.lp pred b c)]
  refine congrArg (fun s => Ideal.div s Cert.Spec.nrows) (Finset.sum_congr rfl fun b _ => ?_)
  exact zero_sub_sum_mul _ _
    (fun c => isR_tp feat dw tgt _ _ hf hd (isR_sfR feat tgt hf) (isNN_cntR tgt) b c)
    (fun c => isR_lp pred hp b c)

end
-- ==== Proof.Finite.lean ====
/-
  The precondition read at an element: `finite_inputs` is the conjunction, over the three float arguments, of
  "every entry's absolute value is below +∞". Over the extended reals an entry whose absolute value is below +∞ is
  neither infinity, so it is a real number.
-/
import proofs.«153739_j8924942041499_2_alg».proof.Pre_finite_inputs
import proofs.«153739_j8924942041499_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs Cert.Pre_finite_inputs.Gen

instance : Subsingleton S_.Idx := ⟨fun a b => funext fun d => d.elim0⟩

/-- The +∞ word denotes the top element. -/
theorem inf_word : Ideal.ofBits .f32 0x7F800000#32 = (⊤ : EReal) := by simp [Ideal.ofBits, Ideal.ieee]

/-- An extended real whose absolute value compares below +∞ is a real. -/
theorem real_of_abs_lt_top (x : EReal) (h : Ideal.cmp .olt (max x (-x)) (Ideal.ofBits .f32 0x7F800000#32) = 1#1) :
    ∃ r : ℝ, x = (r : EReal) := by
  rw [inf_word] at h
  induction x using EReal.rec with
  | coe r => exact ⟨r, rfl⟩
  | bot => exfalso; simp [Ideal.cmp] at h
  | top => exfalso; simp [Ideal.cmp] at h

/-- Under the precondition every entry of each float argument is a real number. -/
theorem reals_of_pre (a0 : FVec Ideal S8192x1024 .f32) (a1 : FVec Ideal S8192x512 .f32) (a2 : FVec Ideal S1024x512 .f32)
    (a3 : IVec S8192 32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0a, h1⟩ := IntOp.andi_eq_one.1 h01
  exact ⟨fun i => real_of_abs_lt_top _ (Host.reduce_andi_all _ _ _ _ _ h0a i),
    fun i => real_of_abs_lt_top _ (Host.reduce_andi_all _ _ _ _ _ h1 i),
    fun i => real_of_abs_lt_top _ (Host.reduce_andi_all _ _ _ _ _ h2 i)⟩

end Cert.Finite

end
-- ==== Proof.lean ====
/-
  The certificate of a label-dictionary cross-entropy kernel against its jnp reference.

  The kernel program runs two pipelined regions around a few host operations. The first region, over 2 halves × 4 tiles
  of 1024 rows, accumulates per half the one-hot-weighted feature sums and the class counts. The second, over 2 halves
  × 8 tiles of 512 rows, builds at tile 0 of each half the updated and row-normalised dictionary from those statistics,
  keeps it in a scratch buffer for the half's other tiles, and accumulates per half the mixed-label cross-entropy of the
  cosine similarities against the logits' log-softmax; the host sums the two halves and divides by the row count.
  The reference computes the same quantities over all 8192 rows at once.

  Frames: each region's body is run symbolically once per case of its one branch (tile 0 or not); the regions' proof data
  carry what every staging buffer holds after each point (and, for the second region, what the scratch holds), and @main
  is the run of five segments from one boundary's buffer contents to the next. The idealization differs from the
  word-level kernel by one removed bf16 round trip of the one-hot matrix (the rule's own statement). The value: the
  second region's result cells read back as sums of tile losses; the statistics it reads as the first region's tiled
  sums; so the program's result is the tiled loss, which equals the reference's flat loss — a regrouping of finite sums,
  and a negation moved inside a row's sum, which needs every term finite: that is where the precondition is used.
-/
import proofs.«153739_j8924942041499_2_alg».proof.Defs
import proofs.«153739_j8924942041499_2_alg».proof.Proof.Gen.Kernel
import proofs.«153739_j8924942041499_2_alg».proof.Proof.Gen.KernelIdeal
import proofs.«153739_j8924942041499_2_alg».proof.Proof.Gen.ReferenceIdeal
import proofs.«153739_j8924942041499_2_alg».proof.Proof.Gen.Pre_finite_inputs
import proofs.«153739_j8924942041499_2_alg».proof.Proof.KBMain
import proofs.«153739_j8924942041499_2_alg».proof.Proof.KIValue
import proofs.«153739_j8924942041499_2_alg».proof.Proof.RefIsSpec
import proofs.«153739_j8924942041499_2_alg».proof.Proof.Law
import proofs.«153739_j8924942041499_2_alg».proof.Proof.Finite

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a host program: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the ideal pass: a bf16 round trip of the one-hot matrix removed. -/
theorem preserves : Cert.preserves_Kernel_KernelIdeal :=
  IdealRules.truncf_extf.statement _ .f32 .bf16

/-- At the ideal values both programs end with the same loss: the kernel's tiled form and the reference's flat form of
    one function of arguments that agree, equal because every input is finite. -/
theorem algebraic : Cert.algebraic_KernelIdeal_ReferenceIdeal := by
  intro m ρ m' ρ' hpre hagree
  refine ⟨fun c => (fun _ => Cert.Spec.kerLoss (Cert.KernelIdeal.Hand.predM m c) (Cert.KernelIdeal.Hand.featM m c)
    (Cert.KernelIdeal.Hand.dwM m c) (Cert.KernelIdeal.Hand.tgtM m c)), ?_, ?_⟩
  · refine (θ_run Cert.KernelIdeal.defs _ _).mono (fun r h c => ⟨?_, ?_, ?_, ?_, ?_⟩) (Cert.KernelIdeal.Hand.run (F := Ideal) m ρ)
    · exact (h c _ (Cert.KernelIdeal.Hand.mem_uc Cert.KernelIdeal.main_v6 (by decide))).trans (Cert.KernelIdeal.Hand.result_eq m ρ c)
    · exact (h c _ (Cert.KernelIdeal.Hand.mem_uc Cert.KernelIdeal.main_arg0 (by decide))).trans (Cert.KernelIdeal.Hand.W5_main_arg0 m ρ c)
    · exact (h c _ (Cert.KernelIdeal.Hand.mem_uc Cert.KernelIdeal.main_arg1 (by decide))).trans (Cert.KernelIdeal.Hand.W5_main_arg1 m ρ c)
    · exact (h c _ (Cert.KernelIdeal.Hand.mem_uc Cert.KernelIdeal.main_arg2 (by decide))).trans (Cert.KernelIdeal.Hand.W5_main_arg2 m ρ c)
    · exact (h c _ (Cert.KernelIdeal.Hand.mem_uc Cert.KernelIdeal.main_arg3 (by decide))).trans (Cert.KernelIdeal.Hand.W5_main_arg3 m ρ c)
  · refine (θ_run Cert.ReferenceIdeal.defs _ _).mono (fun _ h c => ⟨(h c).1.trans ?_, (h c).2⟩)
      (Cert.ReferenceIdeal.ValueP.run (F := Ideal) m' ρ')
    obtain ⟨h0, h1, h2⟩ := Cert.Finite.reals_of_pre _ _ _ _ (hpre c)
    refine (Cert.RefBridge.ref_out m' c).trans ?_
    rw [(hagree c).1, (hagree c).2.1, (hagree c).2.2.1, (hagree c).2.2.2]
    funext _
    exact (Cert.Spec.kerLoss_eq_refLoss _ _ _ _ (fun b q => h0 _) (fun b d => h1 _) (fun p d => h2 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
